-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v116)) (v2 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v116) = v1 c
          ∧ r.2.mem ((c.tc : Thread Cert.KernelIdeal.nD Cert.KernelIdeal.τ).loc Cert.KernelIdeal.main_v130) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v154) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S10000x128 : Shape := ⟨2, ![10000, 128]⟩
abbrev S60x60 : Shape := ⟨2, ![60, 60]⟩
abbrev S10000x300 : Shape := ⟨2, ![10000, 300]⟩
abbrev S320000 : Shape := ⟨1, ![320000]⟩
abbrev S160000 : Shape := ⟨1, ![160000]⟩
abbrev S3600 : Shape := ⟨1, ![3600]⟩
abbrev S300000 : Shape := ⟨1, ![300000]⟩
abbrev S100000 : Shape := ⟨1, ![100000]⟩
abbrev S150000 : Shape := ⟨1, ![150000]⟩
abbrev S60x128 : Shape := ⟨2, ![60, 128]⟩
abbrev S128 : Shape := ⟨1, ![128]⟩
abbrev S128x128 : Shape := ⟨2, ![128, 128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S60x60 : S_.BroadcastsInDim S60x60 (![] : Fin 0 → Fin S60x60.rank)
  reducesTo_S60x60_S_d0_1 : S60x60.ReducesTo [0, 1] S_
  bcast_S_S10000x300 : S_.BroadcastsInDim S10000x300 (![] : Fin 0 → Fin S10000x300.rank)
  reducesTo_S10000x300_S_d0_1 : S10000x300.ReducesTo [0, 1] S_
  bcast_S_S320000 : S_.BroadcastsInDim S320000 (![] : Fin 0 → Fin S320000.rank)
  reducesTo_S320000_S_d0 : S320000.ReducesTo [0] S_
  bcast_S_S160000 : S_.BroadcastsInDim S160000 (![] : Fin 0 → Fin S160000.rank)
  reducesTo_S160000_S_d0 : S160000.ReducesTo [0] S_
  bcast_S_S3600 : S_.BroadcastsInDim S3600 (![] : Fin 0 → Fin S3600.rank)
  reducesTo_S3600_S_d0 : S3600.ReducesTo [0] S_
  bcast_S_S300000 : S_.BroadcastsInDim S300000 (![] : Fin 0 → Fin S300000.rank)
  reducesTo_S300000_S_d0 : S300000.ReducesTo [0] S_
  bcast_S_S100000 : S_.BroadcastsInDim S100000 (![] : Fin 0 → Fin S100000.rank)
  reducesTo_S100000_S_d0 : S100000.ReducesTo [0] S_
  bcast_S_S150000 : S_.BroadcastsInDim S150000 (![] : Fin 0 → Fin S150000.rank)
  reducesTo_S150000_S_d0 : S150000.ReducesTo [0] S_
  bcast_S_S60x128 : S_.BroadcastsInDim S60x128 (![] : Fin 0 → Fin S60x128.rank)
  reducesTo_S60x128_S_d0_1 : S60x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg26 : FVec F S128x128 .f32) (main_arg27 : FVec F S128 .f32) (main_arg28 : FVec F S128x128 .f32) (main_arg29 : FVec F S128 .f32) (main_v63 : IVec S_ 1) (main_v67 : IVec S_ 1) : IVec S_ 1 :=
  let main_v68 : IVec S_ 1 := andi main_v63 main_v67
  let main_v69 : FVec F S128x128 .f32 := Host.absf main_arg26
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg27
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg28
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg29
  let main_cst_32 : FVec F S_ .f32 := constant S_ .f32 0x7F800000#32
  fn_part5 (F := F) main_v83 main_v84 main_cst_32

def fn_part3 {F : FTy → Type} [FloatOps F] (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_v48 : IVec S_ 1) (main_v49 : FVec F S60x128 .f32) (main_v50 : FVec F S60x128 .f32) : IVec S_ 1 :=
  let main_v51 : IVec S60x128 1 := cmpf .olt main_v49 main_v50
  let main_c_19 : IVec S_ 1 := constantI S_ 1 1#1
  let main_v52 : IVec S_ 1 := (fun x v => Host.reduce IntOp.andi x v reducesTo_S60x128_S_d0_1 h_S_) main_v51 main_c_19
  let main_v53 : IVec S_ 1 := andi main_v48 main_v52
  let main_v54 : FVec F S128 .f32 := Host.absf main_arg23
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg24
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg25
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg26 main_arg27 main_arg28 main_arg29 main_v63 main_v67

def fn_part2 {F : FTy → Type} [FloatOps F] (main_arg15 : FVec F S300000 .f32) (main_arg18 : FVec F S100000 .f32) (main_arg21 : FVec F S150000 .f32) (main_arg22 : FVec F S60x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_v33 : IVec S_ 1) : IVec S_ 1 :=
  let main_v34 : FVec F S300000 .f32 := Host.absf main_arg15
  let main_cst_12 : FVec F S_ .f32 := constant S_ .f32 0x7F800000#32
  let main_v35 : FVec F S300000 .f32 := broadcastInDim S300000 ![] bcast_S_S300000 main_cst_12
  let main_v36 : IVec S300000 1 := cmpf .olt main_v34 main_v35
  let main_c_13 : IVec S_ 1 := constantI S_ 1 1#1
  let main_v37 : IVec S_ 1 := (fun x v => Host.reduce IntOp.andi x v reducesTo_S300000_S_d0 h_S_) main_v36 main_c_13
  let main_v38 : IVec S_ 1 := andi main_v33 main_v37
  let main_v39 : FVec F S100000 .f32 := Host.absf main_arg18
  let main_cst_14 : FVec F S_ .f32 := constant S_ .f32 0x7F800000#32
  let main_v40 : FVec F S100000 .f32 := broadcastInDim S100000 ![] bcast_S_S100000 main_cst_14
  let main_v41 : IVec S100000 1 := cmpf .olt main_v39 main_v40
  let main_c_15 : IVec S_ 1 := constantI S_ 1 1#1
  let main_v42 : IVec S_ 1 := (fun x v => Host.reduce IntOp.andi x v reducesTo_S100000_S_d0 h_S_) main_v41 main_c_15
  let main_v43 : IVec S_ 1 := andi main_v38 main_v42
  let main_v44 : FVec F S150000 .f32 := Host.absf main_arg21
  let main_cst_16 : FVec F S_ .f32 := constant S_ .f32 0x7F800000#32
  let main_v45 : FVec F S150000 .f32 := broadcastInDim S150000 ![] bcast_S_S150000 main_cst_16
  let main_v46 : IVec S150000 1 := cmpf .olt main_v44 main_v45
  let main_c_17 : IVec S_ 1 := constantI S_ 1 1#1
  let main_v47 : IVec S_ 1 := (fun x v => Host.reduce IntOp.andi x v reducesTo_S150000_S_d0 h_S_) main_v46 main_c_17
  let main_v48 : IVec S_ 1 := andi main_v43 main_v47
  let main_v49 : FVec F S60x128 .f32 := Host.absf main_arg22
  let main_cst_18 : FVec F S_ .f32 := constant S_ .f32 0x7F800000#32
  let main_v50 : FVec F S60x128 .f32 := broadcastInDim S60x128 ![] bcast_S_S60x128 main_cst_18
  fn_part3 (F := F) main_arg23 main_arg24 main_arg25 main_arg26 main_arg27 main_arg28 main_arg29 main_v48 main_v49 main_v50

def fn_part1 {F : FTy → Type} [FloatOps F] (main_arg6 : FVec F S320000 .f32) (main_arg9 : FVec F S160000 .f32) (main_arg12 : FVec F S3600 .f32) (main_arg15 : FVec F S300000 .f32) (main_arg18 : FVec F S100000 .f32) (main_arg21 : FVec F S150000 .f32) (main_arg22 : FVec F S60x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) (main_v13 : IVec S_ 1) (main_v16 : IVec S10000x300 1) : IVec S_ 1 :=
  let main_c_5 : IVec S_ 1 := constantI S_ 1 1#1
  let main_v17 : IVec S_ 1 := (fun x v => Host.reduce IntOp.andi x v reducesTo_S10000x300_S_d0_1 h_S_) main_v16 main_c_5
  let main_v18 : IVec S_ 1 := andi main_v13 main_v17
  let main_v19 : FVec F S320000 .f32 := Host.absf main_arg6
  let main_cst_6 : FVec F S_ .f32 := constant S_ .f32 0x7F800000#32
  let main_v20 : FVec F S320000 .f32 := broadcastInDim S320000 ![] bcast_S_S320000 main_cst_6
  let main_v21 : IVec S320000 1 := cmpf .olt main_v19 main_v20
  let main_c_7 : IVec S_ 1 := constantI S_ 1 1#1
  let main_v22 : IVec S_ 1 := (fun x v => Host.reduce IntOp.andi x v reducesTo_S320000_S_d0 h_S_) main_v21 main_c_7
  let main_v23 : IVec S_ 1 := andi main_v18 main_v22
  let main_v24 : FVec F S160000 .f32 := Host.absf main_arg9
  let main_cst_8 : FVec F S_ .f32 := constant S_ .f32 0x7F800000#32
  let main_v25 : FVec F S160000 .f32 := broadcastInDim S160000 ![] bcast_S_S160000 main_cst_8
  let main_v26 : IVec S160000 1 := cmpf .olt main_v24 main_v25
  let main_c_9 : IVec S_ 1 := constantI S_ 1 1#1
  let main_v27 : IVec S_ 1 := (fun x v => Host.reduce IntOp.andi x v reducesTo_S160000_S_d0 h_S_) main_v26 main_c_9
  let main_v28 : IVec S_ 1 := andi main_v23 main_v27
  let main_v29 : FVec F S3600 .f32 := Host.absf main_arg12
  let main_cst_10 : FVec F S_ .f32 := constant S_ .f32 0x7F800000#32
  let main_v30 : FVec F S3600 .f32 := broadcastInDim S3600 ![] bcast_S_S3600 main_cst_10
  let main_v31 : IVec S3600 1 := cmpf .olt main_v29 main_v30
  let main_c_11 : IVec S_ 1 := constantI S_ 1 1#1
  let main_v32 : IVec S_ 1 := (fun x v => Host.reduce IntOp.andi x v reducesTo_S3600_S_d0 h_S_) main_v31 main_c_11
  let main_v33 : IVec S_ 1 := andi main_v28 main_v32
  fn_part2 (F := F) main_arg15 main_arg18 main_arg21 main_arg22 main_arg23 main_arg24 main_arg25 main_arg26 main_arg27 main_arg28 main_arg29 main_v33

def fn {F : FTy → Type} [FloatOps F] (main_arg0 : FVec F S20000x128 .f32) (main_arg1 : FVec F S10000x128 .f32) (main_arg2 : FVec F S60x60 .f32) (main_arg3 : FVec F S10000x300 .f32) (main_arg4 : IVec S320000 32) (main_arg5 : IVec S320000 32) (main_arg6 : FVec F S320000 .f32) (main_arg7 : IVec S160000 32) (main_arg8 : IVec S160000 32) (main_arg9 : FVec F S160000 .f32) (main_arg10 : IVec S3600 32) (main_arg11 : IVec S3600 32) (main_arg12 : FVec F S3600 .f32) (main_arg13 : IVec S300000 32) (main_arg14 : IVec S300000 32) (main_arg15 : FVec F S300000 .f32) (main_arg16 : IVec S100000 32) (main_arg17 : IVec S100000 32) (main_arg18 : FVec F S100000 .f32) (main_arg19 : IVec S150000 32) (main_arg20 : IVec S150000 32) (main_arg21 : FVec F S150000 .f32) (main_arg22 : FVec F S60x128 .f32) (main_arg23 : FVec F S128 .f32) (main_arg24 : FVec F S128x128 .f32) (main_arg25 : FVec F S128 .f32) (main_arg26 : FVec F S128x128 .f32) (main_arg27 : FVec F S128 .f32) (main_arg28 : FVec F S128x128 .f32) (main_arg29 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S60x60 .f32 := Host.absf main_arg2
  let main_cst_2 : FVec F S_ .f32 := constant S_ .f32 0x7F800000#32
  let main_v10 : FVec F S60x60 .f32 := broadcastInDim S60x60 ![] bcast_S_S60x60 main_cst_2
  let main_v11 : IVec S60x60 1 := cmpf .olt main_v9 main_v10
  let main_c_3 : IVec S_ 1 := constantI S_ 1 1#1
  let main_v12 : IVec S_ 1 := (fun x v => Host.reduce IntOp.andi x v reducesTo_S60x60_S_d0_1 h_S_) main_v11 main_c_3
  let main_v13 : IVec S_ 1 := andi main_v8 main_v12
  let main_v14 : FVec F S10000x300 .f32 := Host.absf main_arg3
  let main_cst_4 : FVec F S_ .f32 := constant S_ .f32 0x7F800000#32
  let main_v15 : FVec F S10000x300 .f32 := broadcastInDim S10000x300 ![] bcast_S_S10000x300 main_cst_4
  let main_v16 : IVec S10000x300 1 := cmpf .olt main_v14 main_v15
  fn_part1 (F := F) main_arg6 main_arg9 main_arg12 main_arg15 main_arg18 main_arg21 main_arg22 main_arg23 main_arg24 main_arg25 main_arg26 main_arg27 main_arg28 main_arg29 main_v13 main_v16
-- ==== Kernel.lean ====
abbrev S20000x128 : Shape := ⟨2, ![20000, 128]⟩
abbrev S10000x128 : Shape := ⟨2, ![10000, 128]⟩
abbrev S60x60 : Shape := ⟨2, ![60, 60]⟩
abbrev S10000x300 : Shape := ⟨2, ![10000, 300]⟩
abbrev S320000 : Shape := ⟨1, ![320000]⟩
abbrev S160000 : Shape := ⟨1, ![160000]⟩
abbrev S3600 : Shape := ⟨1, ![3600]⟩
abbrev S300000 : Shape := ⟨1, ![300000]⟩
abbrev S100000 : Shape := ⟨1, ![100000]⟩
abbrev S150000 : Shape := ⟨1, ![150000]⟩
abbrev S60x128 : Shape := ⟨2, ![60, 128]⟩
abbrev S128 : Shape := ⟨1, ![128]⟩
abbrev S128x128 : Shape := ⟨2, ![128, 128]⟩
abbrev S320000x1 : Shape := ⟨2, ![320000, 1]⟩
abbrev S_ : Shape := ⟨0, ![]⟩
abbrev S320000x128 : Shape := ⟨2, ![320000, 128]⟩
abbrev S2000x128 : Shape := ⟨2, ![2000, 128]⟩
abbrev S1x128 : Shape := ⟨2, ![1, 128]⟩
abbrev S160000x1 : Shape := ⟨2, ![160000, 1]⟩
abbrev S160000x128 : Shape := ⟨2, ![160000, 128]⟩
abbrev S10000x428 : Shape := ⟨2, ![10000, 428]⟩
abbrev S3600x1 : Shape := ⟨2, ![3600, 1]⟩
abbrev S3600x128 : Shape := ⟨2, ![3600, 128]⟩
abbrev S300000x1 : Shape := ⟨2, ![300000, 1]⟩
abbrev S300000x128 : Shape := ⟨2, ![300000, 128]⟩
abbrev S1000x128 : Shape := ⟨2, ![1000, 128]⟩
abbrev S1000 : Shape := ⟨1, ![1000]⟩
abbrev S1000x1 : Shape := ⟨2, ![1000, 1]⟩
abbrev S100000x1 : Shape := ⟨2, ![100000, 1]⟩
abbrev S100000x428 : Shape := ⟨2, ![100000, 428]⟩
abbrev S1000x428 : Shape := ⟨2, ![1000, 428]⟩
abbrev S150000x1 : Shape := ⟨2, ![150000, 1]⟩
abbrev S150000x128 : Shape := ⟨2, ![150000, 128]⟩

abbrev nBuf : Space → Nat
  | .hbm => 200
  | .vmem => 32
  | .smem => 0
  | _ => 0

abbrev hbmTy0_0 (i : Nat) : BufTy := match i % 128 with
  | 0 => ⟨S20000x128, .f32⟩
  | 1 => ⟨S10000x128, .f32⟩
  | 2 => ⟨S60x60, .f32⟩
  | 3 => ⟨S10000x300, .f32⟩
  | 4 => ⟨S320000, .i32⟩
  | 5 => ⟨S320000, .i32⟩
  | 6 => ⟨S320000, .f32⟩
  | 7 => ⟨S160000, .i32⟩
  | 8 => ⟨S160000, .i32⟩
  | 9 => ⟨S160000, .f32⟩
  | 10 => ⟨S3600, .i32⟩
  | 11 => ⟨S3600, .i32⟩
  | 12 => ⟨S3600, .f32⟩
  | 13 => ⟨S300000, .i32⟩
  | 14 => ⟨S300000, .i32⟩
  | 15 => ⟨S300000, .f32⟩
  | 16 => ⟨S100000, .i32⟩
  | 17 => ⟨S100000, .i32⟩
  | 18 => ⟨S100000, .f32⟩
  | 19 => ⟨S150000, .i32⟩
  | 20 => ⟨S150000, .i32⟩
  | 21 => ⟨S150000, .f32⟩
  | 22 => ⟨S60x128, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x128, .f32⟩
  | 29 => ⟨S128, .f32⟩
  | 30 => ⟨S320000x1, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000x128, .f32⟩
  | 40 => ⟨S320000x128, .f32⟩
  | 41 => ⟨S320000x128, .f32⟩
  | 42 => ⟨S_, .f32⟩
  | 43 => ⟨S20000x128, .f32⟩
  | 44 => ⟨S320000x1, .i32⟩
  | 45 => ⟨S20000x128, .f32⟩
  | 46 => ⟨S_, .f32⟩
  | 47 => ⟨S20000x128, .f32⟩
  | 48 => ⟨S20000x128, .f32⟩
  | 49 => ⟨S20000x128, .f32⟩
  | 50 => ⟨S320000x1, .f32⟩
  | 51 => ⟨S_, .i32⟩
  | 52 => ⟨S320000, .i32⟩
  | 53 => ⟨S320000, .i1⟩
  | 54 => ⟨S_, .i32⟩
  | 55 => ⟨S320000, .i32⟩
  | 56 => ⟨S320000, .i32⟩
  | 57 => ⟨S320000, .i32⟩
  | 58 => ⟨S320000x1, .i32⟩
  | 59 => ⟨S320000x128, .f32⟩
  | 60 => ⟨S320000x128, .f32⟩
  | 61 => ⟨S320000x128, .f32⟩
  | 62 => ⟨S_, .f32⟩
  | 63 => ⟨S20000x128, .f32⟩
  | 64 => ⟨S320000x1, .i32⟩
  | 65 => ⟨S20000x128, .f32⟩
  | 66 => ⟨S_, .f32⟩
  | 67 => ⟨S20000x128, .f32⟩
  | 68 => ⟨S20000x128, .f32⟩
  | 69 => ⟨S160000x1, .f32⟩
  | 70 => ⟨S_, .i32⟩
  | 71 => ⟨S160000, .i32⟩
  | 72 => ⟨S160000, .i1⟩
  | 73 => ⟨S_, .i32⟩
  | 74 => ⟨S160000, .i32⟩
  | 75 => ⟨S160000, .i32⟩
  | 76 => ⟨S160000, .i32⟩
  | 77 => ⟨S160000x1, .i32⟩
  | 78 => ⟨S160000x128, .f32⟩
  | 79 => ⟨S160000x128, .f32⟩
  | 80 => ⟨S160000x128, .f32⟩
  | 81 => ⟨S_, .f32⟩
  | 82 => ⟨S10000x128, .f32⟩
  | 83 => ⟨S160000x1, .i32⟩
  | 84 => ⟨S10000x128, .f32⟩
  | 85 => ⟨S_, .f32⟩
  | 86 => ⟨S10000x128, .f32⟩
  | 87 => ⟨S10000x128, .f32⟩
  | 88 => ⟨S10000x128, .f32⟩
  | 89 => ⟨S160000x1, .f32⟩
  | 90 => ⟨S_, .i32⟩
  | 91 => ⟨S160000, .i32⟩
  | 92 => ⟨S160000, .i1⟩
  | 93 => ⟨S_, .i32⟩
  | 94 => ⟨S160000, .i32⟩
  | 95 => ⟨S160000, .i32⟩
  | 96 => ⟨S160000, .i32⟩
  | 97 => ⟨S160000x1, .i32⟩
  | 98 => ⟨S160000x128, .f32⟩
  | 99 => ⟨S160000x128, .f32⟩
  | 100 => ⟨S160000x128, .f32⟩
  | 101 => ⟨S_, .f32⟩
  | 102 => ⟨S10000x128, .f32⟩
  | 103 => ⟨S160000x1, .i32⟩
  | 104 => ⟨S10000x128, .f32⟩
  | 105 => ⟨S_, .f32⟩
  | 106 => ⟨S10000x128, .f32⟩
  | 107 => ⟨S10000x128, .f32⟩
  | 108 => ⟨S10000x428, .f32⟩
  | 109 => ⟨S60x128, .f32⟩
  | 110 => ⟨S3600x1, .f32⟩
  | 111 => ⟨S_, .i32⟩
  | 112 => ⟨S3600, .i32⟩
  | 113 => ⟨S3600, .i1⟩
  | 114 => ⟨S_, .i32⟩
  | 115 => ⟨S3600, .i32⟩
  | 116 => ⟨S3600, .i32⟩
  | 117 => ⟨S3600, .i32⟩
  | 118 => ⟨S3600x1, .i32⟩
  | 119 => ⟨S3600x128, .f32⟩
  | 120 => ⟨S3600x128, .f32⟩
  | 121 => ⟨S3600x128, .f32⟩
  | 122 => ⟨S_, .f32⟩
  | 123 => ⟨S60x128, .f32⟩
  | 124 => ⟨S3600x1, .i32⟩
  | 125 => ⟨S60x128, .f32⟩
  | 126 => ⟨S_, .f32⟩
  | 127 => ⟨S60x128, .f32⟩
  | _ => ⟨S20000x128, .f32⟩

abbrev hbmTy0_1 (i : Nat) : BufTy := match i % 128 with
  | 0 => ⟨S60x128, .f32⟩
  | 1 => ⟨S60x128, .f32⟩
  | 2 => ⟨S3600x1, .f32⟩
  | 3 => ⟨S_, .i32⟩
  | 4 => ⟨S3600, .i32⟩
  | 5 => ⟨S3600, .i1⟩
  | 6 => ⟨S_, .i32⟩
  | 7 => ⟨S3600, .i32⟩
  | 8 => ⟨S3600, .i32⟩
  | 9 => ⟨S3600, .i32⟩
  | 10 => ⟨S3600x1, .i32⟩
  | 11 => ⟨S3600x128, .f32⟩
  | 12 => ⟨S3600x128, .f32⟩
  | 13 => ⟨S3600x128, .f32⟩
  | 14 => ⟨S_, .f32⟩
  | 15 => ⟨S60x128, .f32⟩
  | 16 => ⟨S3600x1, .i32⟩
  | 17 => ⟨S60x128, .f32⟩
  | 18 => ⟨S_, .f32⟩
  | 19 => ⟨S60x128, .f32⟩
  | 20 => ⟨S60x128, .f32⟩
  | 21 => ⟨S300000x1, .f32⟩
  | 22 => ⟨S_, .i32⟩
  | 23 => ⟨S300000, .i32⟩
  | 24 => ⟨S300000, .i1⟩
  | 25 => ⟨S_, .i32⟩
  | 26 => ⟨S300000, .i32⟩
  | 27 => ⟨S300000, .i32⟩
  | 28 => ⟨S300000, .i32⟩
  | 29 => ⟨S300000x1, .i32⟩
  | 30 => ⟨S300000x128, .f32⟩
  | 31 => ⟨S300000x128, .f32⟩
  | 32 => ⟨S300000x128, .f32⟩
  | 33 => ⟨S_, .f32⟩
  | 34 => ⟨S10000x128, .f32⟩
  | 35 => ⟨S300000x1, .i32⟩
  | 36 => ⟨S10000x128, .f32⟩
  | 37 => ⟨S10000x128, .f32⟩
  | 38 => ⟨S100000x1, .f32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000x428, .f32⟩
  | 48 => ⟨S100000x428, .f32⟩
  | 49 => ⟨S100000x428, .f32⟩
  | 50 => ⟨S_, .f32⟩
  | 51 => ⟨S10000x428, .f32⟩
  | 52 => ⟨S100000x1, .i32⟩
  | 53 => ⟨S10000x428, .f32⟩
  | 54 => ⟨S10000x428, .f32⟩
  | 55 => ⟨S150000x1, .f32⟩
  | 56 => ⟨S_, .i32⟩
  | 57 => ⟨S150000, .i32⟩
  | 58 => ⟨S150000, .i1⟩
  | 59 => ⟨S_, .i32⟩
  | 60 => ⟨S150000, .i32⟩
  | 61 => ⟨S150000, .i32⟩
  | 62 => ⟨S150000, .i32⟩
  | 63 => ⟨S150000x1, .i32⟩
  | 64 => ⟨S150000x128, .f32⟩
  | 65 => ⟨S150000x128, .f32⟩
  | 66 => ⟨S150000x128, .f32⟩
  | 67 => ⟨S_, .f32⟩
  | 68 => ⟨S10000x128, .f32⟩
  | 69 => ⟨S150000x1, .i32⟩
  | 70 => ⟨S10000x128, .f32⟩
  | 71 => ⟨S10000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S60x60, .f32⟩
  | .local _ .vmem, ⟨13, _⟩ => ⟨S60x128, .f32⟩
  | .local _ .vmem, ⟨14, _⟩ => ⟨S128, .f32⟩
  | .local _ .vmem, ⟨15, _⟩ => ⟨S60x128, .f32⟩
  | .local _ .vmem, ⟨16, _⟩ => ⟨S60x128, .f32⟩
  | .local _ .vmem, ⟨17, _⟩ => ⟨S128x128, .f32⟩
  | .local _ .vmem, ⟨18, _⟩ => ⟨S128, .f32⟩
  | .local _ .vmem, ⟨19, _⟩ => ⟨S60x128, .f32⟩
  | .local _ .vmem, ⟨20, _⟩ => ⟨S1000x128, .f32⟩
  | .local _ .vmem, ⟨21, _⟩ => ⟨S1000x128, .f32⟩
  | .local _ .vmem, ⟨22, _⟩ => ⟨S1000x128, .f32⟩
  | .local _ .vmem, ⟨23, _⟩ => ⟨S1000x128, .f32⟩
  | .local _ .vmem, ⟨24, _⟩ => ⟨S1000x428, .f32⟩
  | .local _ .vmem, ⟨25, _⟩ => ⟨S1000x428, .f32⟩
  | .local _ .vmem, ⟨26, _⟩ => ⟨S1000x428, .f32⟩
  | .local _ .vmem, ⟨27, _⟩ => ⟨S1000x428, .f32⟩
  | .local _ .vmem, ⟨28, _⟩ => ⟨S1000x128, .f32⟩
  | .local _ .vmem, ⟨29, _⟩ => ⟨S1000x128, .f32⟩
  | .local _ .vmem, ⟨30, _⟩ => ⟨S1000x128, .f32⟩
  | .local _ .vmem, ⟨31, _⟩ => ⟨S1000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_c : Ref sig .tc := ⟨.hbm, 31, rfl⟩
abbrev main_v1 : Ref sig .tc := ⟨.hbm, 32, rfl⟩
abbrev main_v2 : Ref sig .tc := ⟨.hbm, 33, rfl⟩
abbrev main_c_0 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_call0_cst : Ref sig .tc := ⟨.hbm, 46, rfl⟩
abbrev main_call0_v0 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_c_1 : Ref sig .tc := ⟨.hbm, 51, rfl⟩
abbrev main_v16 : Ref sig .tc := ⟨.hbm, 52, rfl⟩
abbrev main_v17 : Ref sig .tc := ⟨.hbm, 53, rfl⟩
abbrev main_c_2 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_3 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_call1_cst : Ref sig .tc := ⟨.hbm, 66, rfl⟩
abbrev main_call1_v0 : Ref sig .tc := ⟨.hbm, 67, rfl⟩
abbrev main_v28 : Ref sig .tc := ⟨.hbm, 68, rfl⟩
abbrev main_v29 : Ref sig .tc := ⟨.hbm, 69, rfl⟩
abbrev main_c_4 : Ref sig .tc := ⟨.hbm, 70, rfl⟩
abbrev main_v30 : Ref sig .tc := ⟨.hbm, 71, rfl⟩
abbrev main_v31 : Ref sig .tc := ⟨.hbm, 72, rfl⟩
abbrev main_c_5 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_6 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_call2_cst : Ref sig .tc := ⟨.hbm, 85, rfl⟩
abbrev main_call2_v0 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_c_7 : Ref sig .tc := ⟨.hbm, 90, rfl⟩
abbrev main_v45 : Ref sig .tc := ⟨.hbm, 91, rfl⟩
abbrev main_v46 : Ref sig .tc := ⟨.hbm, 92, rfl⟩
abbrev main_c_8 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_9 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_call3_cst : Ref sig .tc := ⟨.hbm, 105, rfl⟩
abbrev main_call3_v0 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_c_10 : Ref sig .tc := ⟨.hbm, 111, rfl⟩
abbrev main_v61 : Ref sig .tc := ⟨.hbm, 112, rfl⟩
abbrev main_v62 : Ref sig .tc := ⟨.hbm, 113, rfl⟩
abbrev main_c_11 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_12 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_call4_cst : Ref sig .tc := ⟨.hbm, 126, rfl⟩
abbrev main_call4_v0 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_c_13 : Ref sig .tc := ⟨.hbm, 131, rfl⟩
abbrev main_v76 : Ref sig .tc := ⟨.hbm, 132, rfl⟩
abbrev main_v77 : Ref sig .tc := ⟨.hbm, 133, rfl⟩
abbrev main_c_14 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_cst_15 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_call5_cst : Ref sig .tc := ⟨.hbm, 146, rfl⟩
abbrev main_call5_v0 : Ref sig .tc := ⟨.hbm, 147, rfl⟩
abbrev main_v88 : Ref sig .tc := ⟨.hbm, 148, rfl⟩
abbrev main_v89 : Ref sig .tc := ⟨.hbm, 149, rfl⟩
abbrev main_c_16 : Ref sig .tc := ⟨.hbm, 150, rfl⟩
abbrev main_v90 : Ref sig .tc := ⟨.hbm, 151, rfl⟩
abbrev main_v91 : Ref sig .tc := ⟨.hbm, 152, rfl⟩
abbrev main_c_17 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_cst_18 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_c_19 : Ref sig .tc := ⟨.hbm, 167, rfl⟩
abbrev main_v104 : Ref sig .tc := ⟨.hbm, 168, rfl⟩
abbrev main_v105 : Ref sig .tc := ⟨.hbm, 169, rfl⟩
abbrev main_c_20 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_cst_21 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_c_22 : Ref sig .tc := ⟨.hbm, 184, rfl⟩
abbrev main_v118 : Ref sig .tc := ⟨.hbm, 185, rfl⟩
abbrev main_v119 : Ref sig .tc := ⟨.hbm, 186, rfl⟩
abbrev main_c_23 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_cst_24 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg1_1 : Ref sig .tc := ⟨.vmem, 27, rfl⟩
abbrev cc6_stg0_0 : Ref sig .tc := ⟨.vmem, 28, rfl⟩
abbrev cc6_stg0_1 : Ref sig .tc := ⟨.vmem, 29, rfl⟩
abbrev cc6_stg1_0 : Ref sig .tc := ⟨.vmem, 30, rfl⟩
abbrev cc6_stg1_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15
abbrev cc3_sem0_0 : DmaSem sig := 16
abbrev cc3_sem1_0 : DmaSem sig := 17
abbrev cc3_sem2_0 : DmaSem sig := 18
abbrev cc3_sem3_0 : DmaSem sig := 19
abbrev cc4_sem0_0 : DmaSem sig := 20
abbrev cc4_sem0_1 : DmaSem sig := 21
abbrev cc4_sem1_0 : DmaSem sig := 22
abbrev cc4_sem1_1 : DmaSem sig := 23
abbrev cc5_sem0_0 : DmaSem sig := 24
abbrev cc5_sem0_1 : DmaSem sig := 25
abbrev cc5_sem1_0 : DmaSem sig := 26
abbrev cc5_sem1_1 : DmaSem sig := 27
abbrev cc6_sem0_0 : DmaSem sig := 28
abbrev cc6_sem0_1 : DmaSem sig := 29
abbrev cc6_sem1_0 : DmaSem sig := 30
abbrev cc6_sem1_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S60x60 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S60x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S60x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S60x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S60x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x428 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1000x428 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x128_0_1 : S320000x1.BroadcastsInDim S320000x128 (![0, 1] : Fin 2 → Fin S320000x128.rank)
  bcast_S_S20000x128 : S_.BroadcastsInDim S20000x128 (![] : Fin 0 → Fin S20000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x128_0_1 : S160000x1.BroadcastsInDim S160000x128 (![0, 1] : Fin 2 → Fin S160000x128.rank)
  bcast_S_S10000x128 : S_.BroadcastsInDim S10000x128 (![] : Fin 0 → Fin S10000x128.rank)
  concatenates_S10000x128_S10000x300_S10000x428_d1 : Shape.Concatenates [S10000x128, S10000x300] S10000x428 1
  inb_S60x60_S60x60_0_0 : ∀ a, (![0, 0] : Fin 2 → Nat) a + S60x60.size a ≤ S60x60.size a
  h_S60x60 : 0 < S60x60.numel
  inb_S60x128_S60x128_0_0 : ∀ a, (![0, 0] : Fin 2 → Nat) a + S60x128.size a ≤ S60x128.size a
  h_S60x128 : 0 < S60x128.numel
  broadcasts_S1x128_S60x128 : S1x128.Broadcasts S60x128
  bcast_S3600_S3600x1_0 : S3600.BroadcastsInDim S3600x1 (![0] : Fin 1 → Fin S3600x1.rank)
  bcast_S_S3600 : S_.BroadcastsInDim S3600 (![] : Fin 0 → Fin S3600.rank)
  bcast_S3600x1_S3600x128_0_1 : S3600x1.BroadcastsInDim S3600x128 (![0, 1] : Fin 2 → Fin S3600x128.rank)
  bcast_S_S60x128 : S_.BroadcastsInDim S60x128 (![] : Fin 0 → Fin S60x128.rank)
  shapeCasts_S60x128_S60x128 : S60x128.ShapeCasts S60x128
  bcast_S300000_S300000x1_0 : S300000.BroadcastsInDim S300000x1 (![0] : Fin 1 → Fin S300000x1.rank)
  bcast_S_S300000 : S_.BroadcastsInDim S300000 (![] : Fin 0 → Fin S300000.rank)
  bcast_S300000x1_S300000x128_0_1 : S300000x1.BroadcastsInDim S300000x128 (![0, 1] : Fin 2 → Fin S300000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  reduces_S1000x128_S1000 : S1000x128.Reduces [1] S1000
  shapeCasts_S1000_S1000x1 : S1000.ShapeCasts S1000x1
  broadcasts_S1000x1_S1000x128 : S1000x1.Broadcasts S1000x128
  bcast_S100000_S100000x1_0 : S100000.BroadcastsInDim S100000x1 (![0] : Fin 1 → Fin S100000x1.rank)
  bcast_S_S100000 : S_.BroadcastsInDim S100000 (![] : Fin 0 → Fin S100000.rank)
  bcast_S100000x1_S100000x428_0_1 : S100000x1.BroadcastsInDim S100000x428 (![0, 1] : Fin 2 → Fin S100000x428.rank)
  bcast_S_S10000x428 : S_.BroadcastsInDim S10000x428 (![] : Fin 0 → Fin S10000x428.rank)
  inb_S1000x428_S1000x428_0_0 : ∀ a, (![0, 0] : Fin 2 → Nat) a + S1000x428.size a ≤ S1000x428.size a
  h_S1000x428 : 0 < S1000x428.numel
  shapeCasts_S1000x428_S1000x428 : S1000x428.ShapeCasts S1000x428
  reduces_S1000x428_S1000 : S1000x428.Reduces [1] S1000
  broadcasts_S1000x1_S1000x428 : S1000x1.Broadcasts S1000x428
  bcast_S150000_S150000x1_0 : S150000.BroadcastsInDim S150000x1 (![0] : Fin 1 → Fin S150000x1.rank)
  bcast_S_S150000 : S_.BroadcastsInDim S150000 (![] : Fin 0 → Fin S150000.rank)
  bcast_S150000x1_S150000x128_0_1 : S150000x1.BroadcastsInDim S150000x128 (![0, 1] : Fin 2 → Fin S150000x128.rank)
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S2000x128_S128x128_S2000x128_1_0_0_1_n_n_wf : DotDims.WF S2000x128 S128x128 S2000x128 [1] [0] [0] [1] [] []
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  dot_S60x60_S60x128_S60x128_1_0_0_1_n_n_wf : DotDims.WF S60x60 S60x128 S60x128 [1] [0] [0] [1] [] []
  gather_S60x128_S3600x1_S3600x128_1_0_n_n_0_1_1128_wf : GatherDims.WF S60x128 S3600x1 S3600x128 [1] [0] [] [0] [] 1 ![1, 128]
  scatter_S60x128_S3600x1_S3600x128_1_0_0_1_wf : ScatterDims.WF S60x128 S3600x1 S3600x128 [1] [0] [0] 1
  dot_S60x128_S128x128_S60x128_1_0_0_1_n_n_wf : DotDims.WF S60x128 S128x128 S60x128 [1] [0] [0] [1] [] []
  gather_S20000x128_S300000x1_S300000x128_1_0_n_n_0_1_1128_wf : GatherDims.WF S20000x128 S300000x1 S300000x128 [1] [0] [] [0] [] 1 ![1, 128]
  scatter_S10000x128_S300000x1_S300000x128_1_0_0_1_wf : ScatterDims.WF S10000x128 S300000x1 S300000x128 [1] [0] [0] 1
  gather_S10000x428_S100000x1_S100000x428_1_0_n_n_0_1_1428_wf : GatherDims.WF S10000x428 S100000x1 S100000x428 [1] [0] [] [0] [] 1 ![1, 428]
  scatter_S10000x428_S100000x1_S100000x428_1_0_0_1_wf : ScatterDims.WF S10000x428 S100000x1 S100000x428 [1] [0] [0] 1
  gather_S60x128_S150000x1_S150000x128_1_0_n_n_0_1_1128_wf : GatherDims.WF S60x128 S150000x1 S150000x128 [1] [0] [] [0] [] 1 ![1, 128]
  scatter_S10000x128_S150000x1_S150000x128_1_0_0_1_wf : ScatterDims.WF S10000x128 S150000x1 S150000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S20000x128.size a
  hwx0_3 : ∀ i : grid0.Coords, EltTy.bits .f32 = 32 ∨ (Rect.block (s := S20000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S10000x128.size a
  hwx1_3 : ∀ i : grid1.Coords, EltTy.bits .f32 = 32 ∨ (Rect.block (s := S10000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S60x60.size a ≤ S60x60.size a
  hwx2_0 : ∀ i : grid2.Coords, EltTy.bits .f32 = 32 ∨ (Rect.block (s := S60x60) S60x60.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S60x128.size a ≤ S60x128.size a
  hwx2_1 : ∀ i : grid2.Coords, EltTy.bits .f32 = 32 ∨ (Rect.block (s := S60x128) S60x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S60x128.size a ≤ S60x128.size a
  hwx2_3 : ∀ i : grid2.Coords, EltTy.bits .f32 = 32 ∨ (Rect.block (s := S60x128) S60x128.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S60x128.size a ≤ S60x128.size a
  hwx3_0 : ∀ i : grid3.Coords, EltTy.bits .f32 = 32 ∨ (Rect.block (s := S60x128) S60x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S60x128.size a ≤ S60x128.size a
  hwx3_3 : ∀ i : grid3.Coords, EltTy.bits .f32 = 32 ∨ (Rect.block (s := S60x128) S60x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S10000x128.size a
  hwx4_0 : ∀ i : grid4.Coords, EltTy.bits .f32 = 32 ∨ (Rect.block (s := S10000x128) S1000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x128.size a ≤ S10000x128.size a
  hwx4_1 : ∀ i : grid4.Coords, EltTy.bits .f32 = 32 ∨ (Rect.block (s := S10000x128) S1000x128.size (cc4_transform_1 i) (hinb4_1 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x428.size a ≤ S10000x428.size a
  hwx5_0 : ∀ i : grid5.Coords, EltTy.bits .f32 = 32 ∨ (Rect.block (s := S10000x428) S1000x428.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1000x428.size a ≤ S10000x428.size a
  hwx5_1 : ∀ i : grid5.Coords, EltTy.bits .f32 = 32 ∨ (Rect.block (s := S10000x428) S1000x428.size (cc5_transform_1 i) (hinb5_1 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1000x128.size a ≤ S10000x128.size a
  hwx6_0 : ∀ i : grid6.Coords, EltTy.bits .f32 = 32 ∨ (Rect.block (s := S10000x128) S1000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1000x128.size a ≤ S10000x128.size a
  hwx6_1 : ∀ i : grid6.Coords, EltTy.bits .f32 = 32 ∨ (Rect.block (s := S10000x128) S1000x128.size (cc6_transform_1 i) (hinb6_1 i)).WholeWords (EltTy.packing .f32)

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S60x60_S60x128_S60x128_1_0_0_1_n_n : DotDims S60x60 S60x128 S60x128 where
  lhsContracting := [1]
  rhsContracting := [0]
  lhsNonContracting := [0]
  rhsNonContracting := [1]
  lhsBatch := []
  rhsBatch := []
  wf := dot_S60x60_S60x128_S60x128_1_0_0_1_n_n_wf
def gather_S60x128_S3600x1_S3600x128_1_0_n_n_0_1_1128 : GatherDims S60x128 S3600x1 S3600x128 where
  offsetDims := [1]
  collapsedSliceDims := [0]
  operandBatchingDims := []
  startIndicesBatchingDims := []
  startIndexMap := [0]
  indexVectorDim := 1
  sliceSizes := ![1, 128]
  wf := gather_S60x128_S3600x1_S3600x128_1_0_n_n_0_1_1128_wf
def scatter_S60x128_S3600x1_S3600x128_1_0_0_1 : ScatterDims S60x128 S3600x1 S3600x128 where
  updateWindowDims := [1]
  insertedWindowDims := [0]
  scatterDimsToOperandDims := [0]
  indexVectorDim := 1
  wf := scatter_S60x128_S3600x1_S3600x128_1_0_0_1_wf
def dot_S60x128_S128x128_S60x128_1_0_0_1_n_n : DotDims S60x128 S128x128 S60x128 where
  lhsContracting := [1]
  rhsContracting := [0]
  lhsNonContracting := [0]
  rhsNonContracting := [1]
  lhsBatch := []
  rhsBatch := []
  wf := dot_S60x128_S128x128_S60x128_1_0_0_1_n_n_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S10000x128_S300000x1_S300000x128_1_0_0_1 : ScatterDims S10000x128 S300000x1 S300000x128 where
  updateWindowDims := [1]
  insertedWindowDims := [0]
  scatterDimsToOperandDims := [0]
  indexVectorDim := 1
  wf := scatter_S10000x128_S300000x1_S300000x128_1_0_0_1_wf
def gather_S10000x428_S100000x1_S100000x428_1_0_n_n_0_1_1428 : GatherDims S10000x428 S100000x1 S100000x428 where
  offsetDims := [1]
  collapsedSliceDims := [0]
  operandBatchingDims := []
  startIndicesBatchingDims := []
  startIndexMap := [0]
  indexVectorDim := 1
  sliceSizes := ![1, 428]
  wf := gather_S10000x428_S100000x1_S100000x428_1_0_n_n_0_1_1428_wf
def scatter_S10000x428_S100000x1_S100000x428_1_0_0_1 : ScatterDims S10000x428 S100000x1 S100000x428 where
  updateWindowDims := [1]
  insertedWindowDims := [0]
  scatterDimsToOperandDims := [0]
  indexVectorDim := 1
  wf := scatter_S10000x428_S100000x1_S100000x428_1_0_0_1_wf
def gather_S60x128_S150000x1_S150000x128_1_0_n_n_0_1_1128 : GatherDims S60x128 S150000x1 S150000x128 where
  offsetDims := [1]
  collapsedSliceDims := [0]
  operandBatchingDims := []
  startIndicesBatchingDims := []
  startIndexMap := [0]
  indexVectorDim := 1
  sliceSizes := ![1, 128]
  wf := gather_S60x128_S150000x1_S150000x128_1_0_n_n_0_1_1128_wf
def scatter_S10000x128_S150000x1_S150000x128_1_0_0_1 : ScatterDims S10000x128 S150000x1 S150000x128 where
  updateWindowDims := [1]
  insertedWindowDims := [0]
  scatterDimsToOperandDims := [0]
  indexVectorDim := 1
  wf := scatter_S10000x128_S150000x1_S150000x128_1_0_0_1_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg24) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg25) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg26) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg27) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S60x60.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg22) S60x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg23) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S60x128.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S60x128.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg28) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg29) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S60x128.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v101) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v102) S1000x128.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

abbrev win5_0 : Pipeline.Window sig grid5 :=
  Pipeline.Window.ofSpec (Memref.whole main_v115) S1000x428.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v116) S1000x428.size cc5_transform_1 reads5_1 true false 2 stage5_1 sem5_1
    hrank5 hreads5_1 hinb5_1 nbuf5_1 (Memref.isWhole_whole _) hwx5_1 hstage5_1

abbrev win5 : Fin 2 → Pipeline.Window sig grid5 := fun | 0 => win5_0 | 1 => win5_1 | ⟨_ + 2, h⟩ => absurd h (Nat.not_lt.2 (Nat.le_add_left _ _))
abbrev spec5 : Fin 2 → Pipeline.WinSpec sig grid5.rank := fun w => (win5 w).toWinSpec

abbrev win6_0 : Pipeline.Window sig grid6 :=
  Pipeline.Window.ofSpec (Memref.whole main_v129) S1000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v130) S1000x128.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S20000x128 : Shape := ⟨2, ![20000, 128]⟩
abbrev S10000x128 : Shape := ⟨2, ![10000, 128]⟩
abbrev S60x60 : Shape := ⟨2, ![60, 60]⟩
abbrev S10000x300 : Shape := ⟨2, ![10000, 300]⟩
abbrev S320000 : Shape := ⟨1, ![320000]⟩
abbrev S160000 : Shape := ⟨1, ![160000]⟩
abbrev S3600 : Shape := ⟨1, ![3600]⟩
abbrev S300000 : Shape := ⟨1, ![300000]⟩
abbrev S100000 : Shape := ⟨1, ![100000]⟩
abbrev S150000 : Shape := ⟨1, ![150000]⟩
abbrev S60x128 : Shape := ⟨2, ![60, 128]⟩
abbrev S128 : Shape := ⟨1, ![128]⟩
abbrev S128x128 : Shape := ⟨2, ![128, 128]⟩
abbrev S320000x1 : Shape := ⟨2, ![320000, 1]⟩
abbrev S_ : Shape := ⟨0, ![]⟩
abbrev S320000x128 : Shape := ⟨2, ![320000, 128]⟩
abbrev S1x128 : Shape := ⟨2, ![1, 128]⟩
abbrev S160000x1 : Shape := ⟨2, ![160000, 1]⟩
abbrev S160000x128 : Shape := ⟨2, ![160000, 128]⟩
abbrev S10000x428 : Shape := ⟨2, ![10000, 428]⟩
abbrev S3600x1 : Shape := ⟨2, ![3600, 1]⟩
abbrev S3600x128 : Shape := ⟨2, ![3600, 128]⟩
abbrev S300000x1 : Shape := ⟨2, ![300000, 1]⟩
abbrev S300000x128 : Shape := ⟨2, ![300000, 128]⟩
abbrev S10000 : Shape := ⟨1, ![10000]⟩
abbrev S10000x1 : Shape := ⟨2, ![10000, 1]⟩
abbrev S100000x1 : Shape := ⟨2, ![100000, 1]⟩
abbrev S100000x428 : Shape := ⟨2, ![100000, 428]⟩
abbrev S150000x1 : Shape := ⟨2, ![150000, 1]⟩
abbrev S150000x128 : Shape := ⟨2, ![150000, 128]⟩

abbrev nBuf : Space → Nat
  | .hbm => 239
  | .vmem => 0
  | .smem => 0
  | _ => 0

abbrev hbmTy0_0 (i : Nat) : BufTy := match i % 128 with
  | 0 => ⟨S20000x128, .f32⟩
  | 1 => ⟨S10000x128, .f32⟩
  | 2 => ⟨S60x60, .f32⟩
  | 3 => ⟨S10000x300, .f32⟩
  | 4 => ⟨S320000, .i32⟩
  | 5 => ⟨S320000, .i32⟩
  | 6 => ⟨S320000, .f32⟩
  | 7 => ⟨S160000, .i32⟩
  | 8 => ⟨S160000, .i32⟩
  | 9 => ⟨S160000, .f32⟩
  | 10 => ⟨S3600, .i32⟩
  | 11 => ⟨S3600, .i32⟩
  | 12 => ⟨S3600, .f32⟩
  | 13 => ⟨S300000, .i32⟩
  | 14 => ⟨S300000, .i32⟩
  | 15 => ⟨S300000, .f32⟩
  | 16 => ⟨S100000, .i32⟩
  | 17 => ⟨S100000, .i32⟩
  | 18 => ⟨S100000, .f32⟩
  | 19 => ⟨S150000, .i32⟩
  | 20 => ⟨S150000, .i32⟩
  | 21 => ⟨S150000, .f32⟩
  | 22 => ⟨S60x128, .f32⟩
  | 23 => ⟨S128, .f32⟩
  | 24 => ⟨S128x128, .f32⟩
  | 25 => ⟨S128, .f32⟩
  | 26 => ⟨S128x128, .f32⟩
  | 27 => ⟨S128, .f32⟩
  | 28 => ⟨S128x128, .f32⟩
  | 29 => ⟨S128, .f32⟩
  | 30 => ⟨S320000x1, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000x128, .f32⟩
  | 40 => ⟨S320000x128, .f32⟩
  | 41 => ⟨S320000x128, .f32⟩
  | 42 => ⟨S_, .f32⟩
  | 43 => ⟨S20000x128, .f32⟩
  | 44 => ⟨S320000x1, .i32⟩
  | 45 => ⟨S20000x128, .f32⟩
  | 46 => ⟨S_, .f32⟩
  | 47 => ⟨S20000x128, .f32⟩
  | 48 => ⟨S20000x128, .f32⟩
  | 49 => ⟨S20000x128, .f32⟩
  | 50 => ⟨S1x128, .f32⟩
  | 51 => ⟨S20000x128, .f32⟩
  | 52 => ⟨S20000x128, .f32⟩
  | 53 => ⟨S320000x1, .f32⟩
  | 54 => ⟨S_, .i32⟩
  | 55 => ⟨S320000, .i32⟩
  | 56 => ⟨S320000, .i1⟩
  | 57 => ⟨S_, .i32⟩
  | 58 => ⟨S320000, .i32⟩
  | 59 => ⟨S320000, .i32⟩
  | 60 => ⟨S320000, .i32⟩
  | 61 => ⟨S320000x1, .i32⟩
  | 62 => ⟨S320000x128, .f32⟩
  | 63 => ⟨S320000x128, .f32⟩
  | 64 => ⟨S320000x128, .f32⟩
  | 65 => ⟨S_, .f32⟩
  | 66 => ⟨S20000x128, .f32⟩
  | 67 => ⟨S320000x1, .i32⟩
  | 68 => ⟨S20000x128, .f32⟩
  | 69 => ⟨S_, .f32⟩
  | 70 => ⟨S20000x128, .f32⟩
  | 71 => ⟨S20000x128, .f32⟩
  | 72 => ⟨S160000x1, .f32⟩
  | 73 => ⟨S_, .i32⟩
  | 74 => ⟨S160000, .i32⟩
  | 75 => ⟨S160000, .i1⟩
  | 76 => ⟨S_, .i32⟩
  | 77 => ⟨S160000, .i32⟩
  | 78 => ⟨S160000, .i32⟩
  | 79 => ⟨S160000, .i32⟩
  | 80 => ⟨S160000x1, .i32⟩
  | 81 => ⟨S160000x128, .f32⟩
  | 82 => ⟨S160000x128, .f32⟩
  | 83 => ⟨S160000x128, .f32⟩
  | 84 => ⟨S_, .f32⟩
  | 85 => ⟨S10000x128, .f32⟩
  | 86 => ⟨S160000x1, .i32⟩
  | 87 => ⟨S10000x128, .f32⟩
  | 88 => ⟨S_, .f32⟩
  | 89 => ⟨S10000x128, .f32⟩
  | 90 => ⟨S10000x128, .f32⟩
  | 91 => ⟨S10000x128, .f32⟩
  | 92 => ⟨S1x128, .f32⟩
  | 93 => ⟨S10000x128, .f32⟩
  | 94 => ⟨S10000x128, .f32⟩
  | 95 => ⟨S160000x1, .f32⟩
  | 96 => ⟨S_, .i32⟩
  | 97 => ⟨S160000, .i32⟩
  | 98 => ⟨S160000, .i1⟩
  | 99 => ⟨S_, .i32⟩
  | 100 => ⟨S160000, .i32⟩
  | 101 => ⟨S160000, .i32⟩
  | 102 => ⟨S160000, .i32⟩
  | 103 => ⟨S160000x1, .i32⟩
  | 104 => ⟨S160000x128, .f32⟩
  | 105 => ⟨S160000x128, .f32⟩
  | 106 => ⟨S160000x128, .f32⟩
  | 107 => ⟨S_, .f32⟩
  | 108 => ⟨S10000x128, .f32⟩
  | 109 => ⟨S160000x1, .i32⟩
  | 110 => ⟨S10000x128, .f32⟩
  | 111 => ⟨S_, .f32⟩
  | 112 => ⟨S10000x128, .f32⟩
  | 113 => ⟨S10000x128, .f32⟩
  | 114 => ⟨S10000x428, .f32⟩
  | 115 => ⟨S60x128, .f32⟩
  | 116 => ⟨S1x128, .f32⟩
  | 117 => ⟨S60x128, .f32⟩
  | 118 => ⟨S60x128, .f32⟩
  | 119 => ⟨S3600x1, .f32⟩
  | 120 => ⟨S_, .i32⟩
  | 121 => ⟨S3600, .i32⟩
  | 122 => ⟨S3600, .i1⟩
  | 123 => ⟨S_, .i32⟩
  | 124 => ⟨S3600, .i32⟩
  | 125 => ⟨S3600, .i32⟩
  | 126 => ⟨S3600, .i32⟩
  | 127 => ⟨S3600x1, .i32⟩
  | _ => ⟨S20000x128, .f32⟩

abbrev hbmTy0_1 (i : Nat) : BufTy := match i % 128 with
  | 0 => ⟨S3600x128, .f32⟩
  | 1 => ⟨S3600x128, .f32⟩
  | 2 => ⟨S3600x128, .f32⟩
  | 3 => ⟨S_, .f32⟩
  | 4 => ⟨S60x128, .f32⟩
  | 5 => ⟨S3600x1, .i32⟩
  | 6 => ⟨S60x128, .f32⟩
  | 7 => ⟨S_, .f32⟩
  | 8 => ⟨S60x128, .f32⟩
  | 9 => ⟨S60x128, .f32⟩
  | 10 => ⟨S60x128, .f32⟩
  | 11 => ⟨S1x128, .f32⟩
  | 12 => ⟨S60x128, .f32⟩
  | 13 => ⟨S60x128, .f32⟩
  | 14 => ⟨S3600x1, .f32⟩
  | 15 => ⟨S_, .i32⟩
  | 16 => ⟨S3600, .i32⟩
  | 17 => ⟨S3600, .i1⟩
  | 18 => ⟨S_, .i32⟩
  | 19 => ⟨S3600, .i32⟩
  | 20 => ⟨S3600, .i32⟩
  | 21 => ⟨S3600, .i32⟩
  | 22 => ⟨S3600x1, .i32⟩
  | 23 => ⟨S3600x128, .f32⟩
  | 24 => ⟨S3600x128, .f32⟩
  | 25 => ⟨S3600x128, .f32⟩
  | 26 => ⟨S_, .f32⟩
  | 27 => ⟨S60x128, .f32⟩
  | 28 => ⟨S3600x1, .i32⟩
  | 29 => ⟨S60x128, .f32⟩
  | 30 => ⟨S_, .f32⟩
  | 31 => ⟨S60x128, .f32⟩
  | 32 => ⟨S60x128, .f32⟩
  | 33 => ⟨S300000x1, .f32⟩
  | 34 => ⟨S_, .i32⟩
  | 35 => ⟨S300000, .i32⟩
  | 36 => ⟨S300000, .i1⟩
  | 37 => ⟨S_, .i32⟩
  | 38 => ⟨S300000, .i32⟩
  | 39 => ⟨S300000, .i32⟩
  | 40 => ⟨S300000, .i32⟩
  | 41 => ⟨S300000x1, .i32⟩
  | 42 => ⟨S300000x128, .f32⟩
  | 43 => ⟨S300000x128, .f32⟩
  | 44 => ⟨S300000x128, .f32⟩
  | 45 => ⟨S_, .f32⟩
  | 46 => ⟨S10000x128, .f32⟩
  | 47 => ⟨S300000x1, .i32⟩
  | 48 => ⟨S10000x128, .f32⟩
  | 49 => ⟨S10000x128, .f32⟩
  | 50 => ⟨S_, .f32⟩
  | 51 => ⟨S10000, .f32⟩
  | 52 => ⟨S10000x1, .f32⟩
  | 53 => ⟨S10000x1, .f32⟩
  | 54 => ⟨S_, .f32⟩
  | 55 => ⟨S10000x1, .f32⟩
  | 56 => ⟨S10000x1, .f32⟩
  | 57 => ⟨S10000x128, .f32⟩
  | 58 => ⟨S10000x128, .f32⟩
  | 59 => ⟨S100000x1, .f32⟩
  | 60 => ⟨S_, .i32⟩
  | 61 => ⟨S100000, .i32⟩
  | 62 => ⟨S100000, .i1⟩
  | 63 => ⟨S_, .i32⟩
  | 64 => ⟨S100000, .i32⟩
  | 65 => ⟨S100000, .i32⟩
  | 66 => ⟨S100000, .i32⟩
  | 67 => ⟨S100000x1, .i32⟩
  | 68 => ⟨S100000x428, .f32⟩
  | 69 => ⟨S100000x428, .f32⟩
  | 70 => ⟨S100000x428, .f32⟩
  | 71 => ⟨S_, .f32⟩
  | 72 => ⟨S10000x428, .f32⟩
  | 73 => ⟨S100000x1, .i32⟩
  | 74 => ⟨S10000x428, .f32⟩
  | 75 => ⟨S10000x428, .f32⟩
  | 76 => ⟨S_, .f32⟩
  | 77 => ⟨S10000, .f32⟩
  | 78 => ⟨S10000x1, .f32⟩
  | 79 => ⟨S10000x1, .f32⟩
  | 80 => ⟨S_, .f32⟩
  | 81 => ⟨S10000x1, .f32⟩
  | 82 => ⟨S10000x1, .f32⟩
  | 83 => ⟨S10000x428, .f32⟩
  | 84 => ⟨S10000x428, .f32⟩
  | 85 => ⟨S150000x1, .f32⟩
  | 86 => ⟨S_, .i32⟩
  | 87 => ⟨S150000, .i32⟩
  | 88 => ⟨S150000, .i1⟩
  | 89 => ⟨S_, .i32⟩
  | 90 => ⟨S150000, .i32⟩
  | 91 => ⟨S150000, .i32⟩
  | 92 => ⟨S150000, .i32⟩
  | 93 => ⟨S150000x1, .i32⟩
  | 94 => ⟨S150000x128, .f32⟩
  | 95 => ⟨S150000x128, .f32⟩
  | 96 => ⟨S150000x128, .f32⟩
  | 97 => ⟨S_, .f32⟩
  | 98 => ⟨S10000x128, .f32⟩
  | 99 => ⟨S150000x1, .i32⟩
  | 100 => ⟨S10000x128, .f32⟩
  | 101 => ⟨S10000x128, .f32⟩
  | 102 => ⟨S_, .f32⟩
  | 103 => ⟨S10000, .f32⟩
  | 104 => ⟨S10000x1, .f32⟩
  | 105 => ⟨S10000x1, .f32⟩
  | 106 => ⟨S_, .f32⟩
  | 107 => ⟨S10000x1, .f32⟩
  | 108 => ⟨S10000x1, .f32⟩
  | 109 => ⟨S10000x128, .f32⟩
  | 110 => ⟨S10000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_c : Ref sig .tc := ⟨.hbm, 31, rfl⟩
abbrev main_v1 : Ref sig .tc := ⟨.hbm, 32, rfl⟩
abbrev main_v2 : Ref sig .tc := ⟨.hbm, 33, rfl⟩
abbrev main_c_0 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_call0_cst : Ref sig .tc := ⟨.hbm, 46, rfl⟩
abbrev main_call0_v0 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_c_1 : Ref sig .tc := ⟨.hbm, 54, rfl⟩
abbrev main_v19 : Ref sig .tc := ⟨.hbm, 55, rfl⟩
abbrev main_v20 : Ref sig .tc := ⟨.hbm, 56, rfl⟩
abbrev main_c_2 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_cst_3 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_call1_cst : Ref sig .tc := ⟨.hbm, 69, rfl⟩
abbrev main_call1_v0 : Ref sig .tc := ⟨.hbm, 70, rfl⟩
abbrev main_v31 : Ref sig .tc := ⟨.hbm, 71, rfl⟩
abbrev main_v32 : Ref sig .tc := ⟨.hbm, 72, rfl⟩
abbrev main_c_4 : Ref sig .tc := ⟨.hbm, 73, rfl⟩
abbrev main_v33 : Ref sig .tc := ⟨.hbm, 74, rfl⟩
abbrev main_v34 : Ref sig .tc := ⟨.hbm, 75, rfl⟩
abbrev main_c_5 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_cst_6 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_call2_cst : Ref sig .tc := ⟨.hbm, 88, rfl⟩
abbrev main_call2_v0 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_c_7 : Ref sig .tc := ⟨.hbm, 96, rfl⟩
abbrev main_v51 : Ref sig .tc := ⟨.hbm, 97, rfl⟩
abbrev main_v52 : Ref sig .tc := ⟨.hbm, 98, rfl⟩
abbrev main_c_8 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_9 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_call3_cst : Ref sig .tc := ⟨.hbm, 111, rfl⟩
abbrev main_call3_v0 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_c_10 : Ref sig .tc := ⟨.hbm, 120, rfl⟩
abbrev main_v70 : Ref sig .tc := ⟨.hbm, 121, rfl⟩
abbrev main_v71 : Ref sig .tc := ⟨.hbm, 122, rfl⟩
abbrev main_c_11 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_cst_12 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_call4_cst : Ref sig .tc := ⟨.hbm, 135, rfl⟩
abbrev main_call4_v0 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_c_13 : Ref sig .tc := ⟨.hbm, 143, rfl⟩
abbrev main_v88 : Ref sig .tc := ⟨.hbm, 144, rfl⟩
abbrev main_v89 : Ref sig .tc := ⟨.hbm, 145, rfl⟩
abbrev main_c_14 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_cst_15 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_call5_cst : Ref sig .tc := ⟨.hbm, 158, rfl⟩
abbrev main_call5_v0 : Ref sig .tc := ⟨.hbm, 159, rfl⟩
abbrev main_v100 : Ref sig .tc := ⟨.hbm, 160, rfl⟩
abbrev main_v101 : Ref sig .tc := ⟨.hbm, 161, rfl⟩
abbrev main_c_16 : Ref sig .tc := ⟨.hbm, 162, rfl⟩
abbrev main_v102 : Ref sig .tc := ⟨.hbm, 163, rfl⟩
abbrev main_v103 : Ref sig .tc := ⟨.hbm, 164, rfl⟩
abbrev main_c_17 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_cst_18 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_call6_v0 : Ref sig .tc := ⟨.hbm, 177, rfl⟩
abbrev main_call6_cst : Ref sig .tc := ⟨.hbm, 178, rfl⟩
abbrev main_call6_v1 : Ref sig .tc := ⟨.hbm, 179, rfl⟩
abbrev main_call6_v2 : Ref sig .tc := ⟨.hbm, 180, rfl⟩
abbrev main_v114 : Ref sig .tc := ⟨.hbm, 181, rfl⟩
abbrev main_cst_19 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_c_20 : Ref sig .tc := ⟨.hbm, 188, rfl⟩
abbrev main_v120 : Ref sig .tc := ⟨.hbm, 189, rfl⟩
abbrev main_v121 : Ref sig .tc := ⟨.hbm, 190, rfl⟩
abbrev main_c_21 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_v128 : Ref sig .tc := ⟨.hbm, 198, rfl⟩
abbrev main_cst_22 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_call7_v0 : Ref sig .tc := ⟨.hbm, 203, rfl⟩
abbrev main_call7_cst : Ref sig .tc := ⟨.hbm, 204, rfl⟩
abbrev main_call7_v1 : Ref sig .tc := ⟨.hbm, 205, rfl⟩
abbrev main_call7_v2 : Ref sig .tc := ⟨.hbm, 206, rfl⟩
abbrev main_v132 : Ref sig .tc := ⟨.hbm, 207, rfl⟩
abbrev main_cst_23 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_c_24 : Ref sig .tc := ⟨.hbm, 214, rfl⟩
abbrev main_v138 : Ref sig .tc := ⟨.hbm, 215, rfl⟩
abbrev main_v139 : Ref sig .tc := ⟨.hbm, 216, rfl⟩
abbrev main_c_25 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_cst_26 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_call8_v0 : Ref sig .tc := ⟨.hbm, 229, rfl⟩
abbrev main_call8_cst : Ref sig .tc := ⟨.hbm, 230, rfl⟩
abbrev main_call8_v1 : Ref sig .tc := ⟨.hbm, 231, rfl⟩
abbrev main_call8_v2 : Ref sig .tc := ⟨.hbm, 232, rfl⟩
abbrev main_v150 : Ref sig .tc := ⟨.hbm, 233, rfl⟩
abbrev main_cst_27 : Ref sig .tc := ⟨.hbm, 234, rfl⟩
abbrev main_v151 : Ref sig .tc := ⟨.hbm, 235, rfl⟩
abbrev main_v152 : Ref sig .tc := ⟨.hbm, 236, rfl⟩
abbrev main_v153 : Ref sig .tc := ⟨.hbm, 237, rfl⟩
abbrev main_v154 : Ref sig .tc := ⟨.hbm, 238, rfl⟩

abbrev nD : Nat := 1
abbrev τ : Topo := Topo.v7x

variable {F : FTy → Type} [FloatOps F]

class Facts₀ : Prop where
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x128_0_1 : S320000x1.BroadcastsInDim S320000x128 (![0, 1] : Fin 2 → Fin S320000x128.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S160000_S160000x1_0 : S160000.BroadcastsInDim S160000x1 (![0] : Fin 1 → Fin S160000x1.rank)
  bcast_S_S160000 : S_.BroadcastsInDim S160000 (![] : Fin 0 → Fin S160000.rank)
  bcast_S160000x1_S160000x128_0_1 : S160000x1.BroadcastsInDim S160000x128 (![0, 1] : Fin 2 → Fin S160000x128.rank)
  bcast_S_S10000x128 : S_.BroadcastsInDim S10000x128 (![] : Fin 0 → Fin S10000x128.rank)
  bcast_S1x128_S10000x128_0_1 : S1x128.BroadcastsInDim S10000x128 (![0, 1] : Fin 2 → Fin S10000x128.rank)
  concatenates_S10000x128_S10000x300_S10000x428_d1 : Shape.Concatenates [S10000x128, S10000x300] S10000x428 1
  bcast_S1x128_S60x128_0_1 : S1x128.BroadcastsInDim S60x128 (![0, 1] : Fin 2 → Fin S60x128.rank)
  bcast_S3600_S3600x1_0 : S3600.BroadcastsInDim S3600x1 (![0] : Fin 1 → Fin S3600x1.rank)
  bcast_S_S3600 : S_.BroadcastsInDim S3600 (![] : Fin 0 → Fin S3600.rank)
  bcast_S3600x1_S3600x128_0_1 : S3600x1.BroadcastsInDim S3600x128 (![0, 1] : Fin 2 → Fin S3600x128.rank)
  bcast_S_S60x128 : S_.BroadcastsInDim S60x128 (![] : Fin 0 → Fin S60x128.rank)
  bcast_S300000_S300000x1_0 : S300000.BroadcastsInDim S300000x1 (![0] : Fin 1 → Fin S300000x1.rank)
  bcast_S_S300000 : S_.BroadcastsInDim S300000 (![] : Fin 0 → Fin S300000.rank)
  bcast_S300000x1_S300000x128_0_1 : S300000x1.BroadcastsInDim S300000x128 (![0, 1] : Fin 2 → Fin S300000x128.rank)
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S100000x1_S100000x428_0_1 : S100000x1.BroadcastsInDim S100000x428 (![0, 1] : Fin 2 → Fin S100000x428.rank)
  bcast_S_S10000x428 : S_.BroadcastsInDim S10000x428 (![] : Fin 0 → Fin S10000x428.rank)
  reducesTo_S10000x428_S10000_d1 : S10000x428.ReducesTo [1] S10000
  bcast_S10000x1_S10000x428_0_1 : S10000x1.BroadcastsInDim S10000x428 (![0, 1] : Fin 2 → Fin S10000x428.rank)
  bcast_S150000_S150000x1_0 : S150000.BroadcastsInDim S150000x1 (![0] : Fin 1 → Fin S150000x1.rank)
  bcast_S_S150000 : S_.BroadcastsInDim S150000 (![] : Fin 0 → Fin S150000.rank)
  bcast_S150000x1_S150000x128_0_1 : S150000x1.BroadcastsInDim S150000x128 (![0, 1] : Fin 2 → Fin S150000x128.rank)
  gather_S20000x128_S320000x1_S320000x128_1_0_n_n_0_1_1128_wf : GatherDims.WF S20000x128 S320000x1 S320000x128 [1] [0] [] [0] [] 1 ![1, 128]
  scatter_S20000x128_S320000x1_S320000x128_1_0_0_1_wf : ScatterDims.WF S20000x128 S320000x1 S320000x128 [1] [0] [0] 1
  dot_S20000x128_S128x128_S20000x128_1_0_0_1_n_n_wf : DotDims.WF S20000x128 S128x128 S20000x128 [1] [0] [0] [1] [] []
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  dot_S10000x128_S128x128_S10000x128_1_0_0_1_n_n_wf : DotDims.WF S10000x128 S128x128 S10000x128 [1] [0] [0] [1] [] []
  dot_S60x60_S60x128_S60x128_1_0_0_1_n_n_wf : DotDims.WF S60x60 S60x128 S60x128 [1] [0] [0] [1] [] []
  gather_S60x128_S3600x1_S3600x128_1_0_n_n_0_1_1128_wf : GatherDims.WF S60x128 S3600x1 S3600x128 [1] [0] [] [0] [] 1 ![1, 128]
  scatter_S60x128_S3600x1_S3600x128_1_0_0_1_wf : ScatterDims.WF S60x128 S3600x1 S3600x128 [1] [0] [0] 1
  dot_S60x128_S128x128_S60x128_1_0_0_1_n_n_wf : DotDims.WF S60x128 S128x128 S60x128 [1] [0] [0] [1] [] []
  gather_S20000x128_S300000x1_S300000x128_1_0_n_n_0_1_1128_wf : GatherDims.WF S20000x128 S300000x1 S300000x128 [1] [0] [] [0] [] 1 ![1, 128]
  scatter_S10000x128_S300000x1_S300000x128_1_0_0_1_wf : ScatterDims.WF S10000x128 S300000x1 S300000x128 [1] [0] [0] 1
  gather_S10000x428_S100000x1_S100000x428_1_0_n_n_0_1_1428_wf : GatherDims.WF S10000x428 S100000x1 S100000x428 [1] [0] [] [0] [] 1 ![1, 428]
  scatter_S10000x428_S100000x1_S100000x428_1_0_0_1_wf : ScatterDims.WF S10000x428 S100000x1 S100000x428 [1] [0] [0] 1
  gather_S60x128_S150000x1_S150000x128_1_0_n_n_0_1_1128_wf : GatherDims.WF S60x128 S150000x1 S150000x128 [1] [0] [] [0] [] 1 ![1, 128]
  scatter_S10000x128_S150000x1_S150000x128_1_0_0_1_wf : ScatterDims.WF S10000x128 S150000x1 S150000x128 [1] [0] [0] 1

variable [Facts₀]

def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def scatter_S20000x128_S320000x1_S320000x128_1_0_0_1 : ScatterDims S20000x128 S320000x1 S320000x128 where
  updateWindowDims := [1]
  insertedWindowDims := [0]
  scatterDimsToOperandDims := [0]
  indexVectorDim := 1
  wf := scatter_S20000x128_S320000x1_S320000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S60x60_S60x128_S60x128_1_0_0_1_n_n : DotDims S60x60 S60x128 S60x128 where
  lhsContracting := [1]
  rhsContracting := [0]
  lhsNonContracting := [0]
  rhsNonContracting := [1]
  lhsBatch := []
  rhsBatch := []
  wf := dot_S60x60_S60x128_S60x128_1_0_0_1_n_n_wf
def gather_S60x128_S3600x1_S3600x128_1_0_n_n_0_1_1128 : GatherDims S60x128 S3600x1 S3600x128 where
  offsetDims := [1]
  collapsedSliceDims := [0]
  operandBatchingDims := []
  startIndicesBatchingDims := []
  startIndexMap := [0]
  indexVectorDim := 1
  sliceSizes := ![1, 128]
  wf := gather_S60x128_S3600x1_S3600x128_1_0_n_n_0_1_1128_wf
def scatter_S60x128_S3600x1_S3600x128_1_0_0_1 : ScatterDims S60x128 S3600x1 S3600x128 where
  updateWindowDims := [1]
  insertedWindowDims := [0]
  scatterDimsToOperandDims := [0]
  indexVectorDim := 1
  wf := scatter_S60x128_S3600x1_S3600x128_1_0_0_1_wf
def dot_S60x128_S128x128_S60x128_1_0_0_1_n_n : DotDims S60x128 S128x128 S60x128 where
  lhsContracting := [1]
  rhsContracting := [0]
  lhsNonContracting := [0]
  rhsNonContracting := [1]
  lhsBatch := []
  rhsBatch := []
  wf := dot_S60x128_S128x128_S60x128_1_0_0_1_n_n_wf
def gather_S20000x128_S300000x1_S300000x128_1_0_n_n_0_1_1128 : GatherDims S20000x128 S300000x1 S300000x128 where
  offsetDims := [1]
  collapsedSliceDims := [0]
  operandBatchingDims := []
  startIndicesBatchingDims := []
  startIndexMap := [0]
  indexVectorDim := 1
  sliceSizes := ![1, 128]
  wf := gather_S20000x128_S300000x1_S300000x128_1_0_n_n_0_1_1128_wf
def scatter_S10000x128_S300000x1_S300000x128_1_0_0_1 : ScatterDims S10000x128 S300000x1 S300000x128 where
  updateWindowDims := [1]
  insertedWindowDims := [0]
  scatterDimsToOperandDims := [0]
  indexVectorDim := 1
  wf := scatter_S10000x128_S300000x1_S300000x128_1_0_0_1_wf
def gather_S10000x428_S100000x1_S100000x428_1_0_n_n_0_1_1428 : GatherDims S10000x428 S100000x1 S100000x428 where
  offsetDims := [1]
  collapsedSliceDims := [0]
  operandBatchingDims := []
  startIndicesBatchingDims := []
  startIndexMap := [0]
  indexVectorDim := 1
  sliceSizes := ![1, 428]
  wf := gather_S10000x428_S100000x1_S100000x428_1_0_n_n_0_1_1428_wf
def scatter_S10000x428_S100000x1_S100000x428_1_0_0_1 : ScatterDims S10000x428 S100000x1 S100000x428 where
  updateWindowDims := [1]
  insertedWindowDims := [0]
  scatterDimsToOperandDims := [0]
  indexVectorDim := 1
  wf := scatter_S10000x428_S100000x1_S100000x428_1_0_0_1_wf
def gather_S60x128_S150000x1_S150000x128_1_0_n_n_0_1_1128 : GatherDims S60x128 S150000x1 S150000x128 where
  offsetDims := [1]
  collapsedSliceDims := [0]
  operandBatchingDims := []
  startIndicesBatchingDims := []
  startIndexMap := [0]
  indexVectorDim := 1
  sliceSizes := ![1, 128]
  wf := gather_S60x128_S150000x1_S150000x128_1_0_n_n_0_1_1128_wf
def scatter_S10000x128_S150000x1_S150000x128_1_0_0_1 : ScatterDims S10000x128 S150000x1 S150000x128 where
  updateWindowDims := [1]
  insertedWindowDims := [0]
  scatterDimsToOperandDims := [0]
  indexVectorDim := 1
  wf := scatter_S10000x128_S150000x1_S150000x128_1_0_0_1_wf

class Facts : Prop extends Facts₀ where

variable [Facts]
-- ==== Proof.Spec.lean ====
/-
  The two programs compute, for three node types of a heterogeneous graph, two rounds of sparse aggregation
  (a gather of rows by a column-index list, each row scaled by an edge weight, summed into the row a row-index list
  names) with a positive part after each round and a dense layer x · W + b between (for the third type, also before)
  the rounds; the second type's features are then widened by a given embedding; each type is aggregated once more
  onto the documents, and every document row is divided by its Euclidean norm plus a small constant.
  This module names each of those steps ONCE, as a function of whole arrays at any float instance, in the
  reference program's own spelling, and the three results as their composites.
-/
import proofs.«177944_j13331578487561_1_alg».proof.Proof.Gen.ReferenceIdeal

noncomputable section

namespace Cert.Spec

open Cert.ReferenceIdeal Cert.ReferenceIdeal.Gen Idealize.ShloMosaic

variable {F : FTy → Type} [FloatOps F]

/-! ## Sparse aggregation: out[rows[e], :] += vals[e] · x[cols[e], :] over the edge list, negative column indices wrapped -/

/-- Word–word edges: 320000 edges over 20000 rows of 128 features. -/
def spmm11 (rows cols : IVec S320000 32) (vals : FVec F S320000 .f32) (x : FVec F S20000x128 .f32) : FVec F S20000x128 .f32 :=
  Host.scatterAdd scatter_S20000x128_S320000x1_S320000x128_1_0_0_1 (broadcastInDim S20000x128 ![] bcast_S_S20000x128 (constant S_ .f32 0x00000000#32))
    (broadcastInDim S320000x1 ![0] bcast_S320000_S320000x1_0 rows)
    (mulf (broadcastInDim S320000x128 ![0, 1] bcast_S320000x1_S320000x128_0_1 (broadcastInDim S320000x1 ![0] bcast_S320000_S320000x1_0 vals))
      (Host.gather gather_S20000x128_S320000x1_S320000x128_1_0_n_n_0_1_1128 x (broadcastInDim S320000x1 ![0] bcast_S320000_S320000x1_0
        (select (cmpi .slt cols (broadcastInDim S320000 ![] bcast_S_S320000 (constantI S_ 32 0#32)))
          (addi cols (broadcastInDim S320000 ![] bcast_S_S320000 (constantI S_ 32 20000#32))) cols))))

/-- Entity–entity edges: 160000 edges over 10000 rows of 128 features. -/
def spmm22 (rows cols : IVec S160000 32) (vals : FVec F S160000 .f32) (x : FVec F S10000x128 .f32) : FVec F S10000x128 .f32 :=
  Host.scatterAdd scatter_S10000x128_S160000x1_S160000x128_1_0_0_1 (broadcastInDim S10000x128 ![] bcast_S_S10000x128 (constant S_ .f32 0x00000000#32))
    (broadcastInDim S160000x1 ![0] bcast_S160000_S160000x1_0 rows)
    (mulf (broadcastInDim S160000x128 ![0, 1] bcast_S160000x1_S160000x128_0_1 (broadcastInDim S160000x1 ![0] bcast_S160000_S160000x1_0 vals))
      (Host.gather gather_S10000x128_S160000x1_S160000x128_1_0_n_n_0_1_1128 x (broadcastInDim S160000x1 ![0] bcast_S160000_S160000x1_0
        (select (cmpi .slt cols (broadcastInDim S160000 ![] bcast_S_S160000 (constantI S_ 32 0#32)))
          (addi cols (broadcastInDim S160000 ![] bcast_S_S160000 (constantI S_ 32 10000#32))) cols))))

/-- Tag–tag edges: 3600 edges over 60 rows of 128 features. -/
def spmm33 (rows cols : IVec S3600 32) (vals : FVec F S3600 .f32) (x : FVec F S60x128 .f32) : FVec F S60x128 .f32 :=
  Host.scatterAdd scatter_S60x128_S3600x1_S3600x128_1_0_0_1 (broadcastInDim S60x128 ![] bcast_S_S60x128 (constant S_ .f32 0x00000000#32))
    (broadcastInDim S3600x1 ![0] bcast_S3600_S3600x1_0 rows)
    (mulf (broadcastInDim S3600x128 ![0, 1] bcast_S3600x1_S3600x128_0_1 (broadcastInDim S3600x1 ![0] bcast_S3600_S3600x1_0 vals))
      (Host.gather gather_S60x128_S3600x1_S3600x128_1_0_n_n_0_1_1128 x (broadcastInDim S3600x1 ![0] bcast_S3600_S3600x1_0
        (select (cmpi .slt cols (broadcastInDim S3600 ![] bcast_S_S3600 (constantI S_ 32 0#32)))
          (addi cols (broadcastInDim S3600 ![] bcast_S_S3600 (constantI S_ 32 60#32))) cols))))

/-- Document–word edges: 300000 edges from 20000 word rows onto 10000 documents. -/
def spmm01 (rows cols : IVec S300000 32) (vals : FVec F S300000 .f32) (x : FVec F S20000x128 .f32) : FVec F S10000x128 .f32 :=
  Host.scatterAdd scatter_S10000x128_S300000x1_S300000x128_1_0_0_1 (broadcastInDim S10000x128 ![] bcast_S_S10000x128 (constant S_ .f32 0x00000000#32))
    (broadcastInDim S300000x1 ![0] bcast_S300000_S300000x1_0 rows)
    (mulf (broadcastInDim S300000x128 ![0, 1] bcast_S300000x1_S300000x128_0_1 (broadcastInDim S300000x1 ![0] bcast_S300000_S300000x1_0 vals))
      (Host.gather gather_S20000x128_S300000x1_S300000x128_1_0_n_n_0_1_1128 x (broadcastInDim S300000x1 ![0] bcast_S300000_S300000x1_0
        (select (cmpi .slt cols (broadcastInDim S300000 ![] bcast_S_S300000 (constantI S_ 32 0#32)))
          (addi cols (broadcastInDim S300000 ![] bcast_S_S300000 (constantI S_ 32 20000#32))) cols))))

/-- Document–entity edges: 100000 edges from 10000 entity rows of 428 features onto 10000 documents. -/
def spmm02 (rows cols : IVec S100000 32) (vals : FVec F S100000 .f32) (x : FVec F S10000x428 .f32) : FVec F S10000x428 .f32 :=
  Host.scatterAdd scatter_S10000x428_S100000x1_S100000x428_1_0_0_1 (broadcastInDim S10000x428 ![] bcast_S_S10000x428 (constant S_ .f32 0x00000000#32))
    (broadcastInDim S100000x1 ![0] bcast_S100000_S100000x1_0 rows)
    (mulf (broadcastInDim S100000x428 ![0, 1] bcast_S100000x1_S100000x428_0_1 (broadcastInDim S100000x1 ![0] bcast_S100000_S100000x1_0 vals))
      (Host.gather gather_S10000x428_S100000x1_S100000x428_1_0_n_n_0_1_1428 x (broadcastInDim S100000x1 ![0] bcast_S100000_S100000x1_0
        (select (cmpi .slt cols (broadcastInDim S100000 ![] bcast_S_S100000 (constantI S_ 32 0#32)))
          (addi cols (broadcastInDim S100000 ![] bcast_S_S100000 (constantI S_ 32 10000#32))) cols))))

/-- Document–tag edges: 150000 edges from 60 tag rows onto 10000 documents. -/
def spmm03 (rows cols : IVec S150000 32) (vals : FVec F S150000 .f32) (x : FVec F S60x128 .f32) : FVec F S10000x128 .f32 :=
  Host.scatterAdd scatter_S10000x128_S150000x1_S150000x128_1_0_0_1 (broadcastInDim S10000x128 ![] bcast_S_S10000x128 (constant S_ .f32 0x00000000#32))
    (broadcastInDim S150000x1 ![0] bcast_S150000_S150000x1_0 rows)
    (mulf (broadcastInDim S150000x128 ![0, 1] bcast_S150000x1_S150000x128_0_1 (broadcastInDim S150000x1 ![0] bcast_S150000_S150000x1_0 vals))
      (Host.gather gather_S60x128_S150000x1_S150000x128_1_0_n_n_0_1_1128 x (broadcastInDim S150000x1 ![0] bcast_S150000_S150000x1_0
        (select (cmpi .slt cols (broadcastInDim S150000 ![] bcast_S_S150000 (constantI S_ 32 0#32)))
          (addi cols (broadcastInDim S150000 ![] bcast_S_S150000 (constantI S_ 32 60#32))) cols))))

/-! ## The positive part -/

/-- The positive part, entry by entry, of an array of shape S20000x128. -/
def relu20000 (x : FVec F S20000x128 .f32) : FVec F S20000x128 .f32 :=
  maximumf x (broadcastInDim S20000x128 ![] bcast_S_S20000x128 (constant S_ .f32 0x00000000#32))

/-- The positive part, entry by entry, of an array of shape S10000x128. -/
def relu10000 (x : FVec F S10000x128 .f32) : FVec F S10000x128 .f32 :=
  maximumf x (broadcastInDim S10000x128 ![] bcast_S_S10000x128 (constant S_ .f32 0x00000000#32))

/-- The positive part, entry by entry, of an array of shape S60x128. -/
def relu60 (x : FVec F S60x128 .f32) : FVec F S60x128 .f32 :=
  maximumf x (broadcastInDim S60x128 ![] bcast_S_S60x128 (constant S_ .f32 0x00000000#32))

/-! ## The dense layers -/

/-- A dense layer x · W + b (the bias row laid over every row) from S20000x128 to S20000x128. -/
def lin20000 (x : FVec F S20000x128 .f32) (w : FVec F S128x128 .f32) (b : FVec F S128 .f32) : FVec F S20000x128 .f32 :=
  addf (Host.dotGeneral dot_S20000x128_S128x128_S20000x128_1_0_0_1_n_n none x w)
    (broadcastInDim S20000x128 ![0, 1] bcast_S1x128_S20000x128_0_1 (broadcastInDim S1x128 ![1] bcast_S128_S1x128_1 b))

/-- A dense layer x · W + b (the bias row laid over every row) from S10000x128 to S10000x128. -/
def lin10000 (x : FVec F S10000x128 .f32) (w : FVec F S128x128 .f32) (b : FVec F S128 .f32) : FVec F S10000x128 .f32 :=
  addf (Host.dotGeneral dot_S10000x128_S128x128_S10000x128_1_0_0_1_n_n none x w)
    (broadcastInDim S10000x128 ![0, 1] bcast_S1x128_S10000x128_0_1 (broadcastInDim S1x128 ![1] bcast_S128_S1x128_1 b))

/-- A dense layer x · W + b (the bias row laid over every row) from S60x60 to S60x128. -/
def lin60a (x : FVec F S60x60 .f32) (w : FVec F S60x128 .f32) (b : FVec F S128 .f32) : FVec F S60x128 .f32 :=
  addf (Host.dotGeneral dot_S60x60_S60x128_S60x128_1_0_0_1_n_n none x w)
    (broadcastInDim S60x128 ![0, 1] bcast_S1x128_S60x128_0_1 (broadcastInDim S1x128 ![1] bcast_S128_S1x128_1 b))

/-- A dense layer x · W + b (the bias row laid over every row) from S60x128 to S60x128. -/
def lin60b (x : FVec F S60x128 .f32) (w : FVec F S128x128 .f32) (b : FVec F S128 .f32) : FVec F S60x128 .f32 :=
  addf (Host.dotGeneral dot_S60x128_S128x128_S60x128_1_0_0_1_n_n none x w)
    (broadcastInDim S60x128 ![0, 1] bcast_S1x128_S60x128_0_1 (broadcastInDim S1x128 ![1] bcast_S128_S1x128_1 b))

/-! ## Widening by the embedding, and the row normalisation -/

/-- The entity features and the given word embedding side by side: 128 + 300 columns. -/
def cat (a : FVec F S10000x128 .f32) (b : FVec F S10000x300 .f32) : FVec F S10000x428 .f32 :=
  concatenate S10000x428 1 [⟨S10000x128, a⟩, ⟨S10000x300, b⟩] concatenates_S10000x128_S10000x300_S10000x428_d1

/-- Every row divided by (its Euclidean norm plus the small constant), for an array of shape S10000x128. -/
def l2n128 (x : FVec F S10000x128 .f32) : FVec F S10000x128 .f32 :=
  Host.divf x (broadcastInDim S10000x128 ![0, 1] bcast_S10000x1_S10000x128_0_1
    (addf (Host.sqrt (broadcastInDim S10000x1 ![0] bcast_S10000_S10000x1_0
        (Host.reduceAdd (mulf x x) (constant S_ .f32 0x00000000#32) reducesTo_S10000x128_S10000_d1 h_S_)))
      (broadcastInDim S10000x1 ![] bcast_S_S10000x1 (constant S_ .f32 0x3089705F#32))))

/-- Every row divided by (its Euclidean norm plus the small constant), for an array of shape S10000x428. -/
def l2n428 (x : FVec F S10000x428 .f32) : FVec F S10000x428 .f32 :=
  Host.divf x (broadcastInDim S10000x428 ![0, 1] bcast_S10000x1_S10000x428_0_1
    (addf (Host.sqrt (broadcastInDim S10000x1 ![0] bcast_S10000_S10000x1_0
        (Host.reduceAdd (mulf x x) (constant S_ .f32 0x00000000#32) reducesTo_S10000x428_S10000_d1 h_S_)))
      (broadcastInDim S10000x1 ![] bcast_S_S10000x1 (constant S_ .f32 0x3089705F#32))))

/-! ## The three hidden feature arrays and the three results -/

/-- Word features after two aggregation rounds. -/
def h1 (r c : IVec S320000 32) (v : FVec F S320000 .f32) (f : FVec F S20000x128 .f32) (w : FVec F S128x128 .f32)
    (b : FVec F S128 .f32) : FVec F S20000x128 .f32 :=
  relu20000 (spmm11 r c v (lin20000 (relu20000 (spmm11 r c v f)) w b))

/-- Entity features after two aggregation rounds, widened by the embedding. -/
def h2 (r c : IVec S160000 32) (v : FVec F S160000 .f32) (f : FVec F S10000x128 .f32) (w : FVec F S128x128 .f32)
    (b : FVec F S128 .f32) (e : FVec F S10000x300 .f32) : FVec F S10000x428 .f32 :=
  cat (relu10000 (spmm22 r c v (lin10000 (relu10000 (spmm22 r c v f)) w b))) e

/-- Tag features: a dense layer, a round, a dense layer, a round. -/
def h3 (r c : IVec S3600 32) (v : FVec F S3600 .f32) (f : FVec F S60x60 .f32) (w0 : FVec F S60x128 .f32)
    (b0 : FVec F S128 .f32) (w : FVec F S128x128 .f32) (b : FVec F S128 .f32) : FVec F S60x128 .f32 :=
  relu60 (spmm33 r c v (lin60b (relu60 (spmm33 r c v (lin60a f w0 b0))) w b))

end Cert.Spec

end
-- ==== Proof.RefIs.lean ====
/-
  The reference program's three results, as its generated run states them (one long composed term of the argument
  arrays each), are the named composites of the specification's steps: the terms are the same text once the steps'
  names are unfolded.
-/
import proofs.«177944_j13331578487561_1_alg».proof.Proof.Spec
import proofs.«177944_j13331578487561_1_alg».proof.Proof.Gen.ReferenceIdeal.Run

set_option maxRecDepth 16384

noncomputable section

namespace Cert.RefIs

open Cert.ReferenceIdeal Cert.ReferenceIdeal.Gen Cert.ReferenceIdeal.Value Idealize.ShloMosaic Idealize.ShloMosaic.TcCoe Idealize.SL.Sem

variable {F : FTy → Type} [FloatOps F] (m : (ℓ : Loc nD τ sig) → Buf (Elt F) ℓ) (c : Dev nD)

/-- Documents from words: the normalised aggregation of the twice-aggregated word features. -/
theorem out0 : res_main_v118 (F := F) m c
    = Cert.Spec.l2n128 (Cert.Spec.spmm01 (m ((c.tc : Thread nD τ).loc main_arg13)) (m ((c.tc : Thread nD τ).loc main_arg14)) (m ((c.tc : Thread nD τ).loc main_arg15))
        (Cert.Spec.h1 (m ((c.tc : Thread nD τ).loc main_arg4)) (m ((c.tc : Thread nD τ).loc main_arg5)) (m ((c.tc : Thread nD τ).loc main_arg6)) (m ((c.tc : Thread nD τ).loc main_arg0)) (m ((c.tc : Thread nD τ).loc main_arg24)) (m ((c.tc : Thread nD τ).loc main_arg25)))) := by
  unfold res_main_v118 Cert.Spec.h1 Cert.Spec.l2n128 Cert.Spec.spmm01 Cert.Spec.relu20000 Cert.Spec.spmm11 Cert.Spec.lin20000
  rfl

/-- Documents from entities: the normalised aggregation of the widened entity features. -/
theorem out1 : res_main_v136 (F := F) m c
    = Cert.Spec.l2n428 (Cert.Spec.spmm02 (m ((c.tc : Thread nD τ).loc main_arg16)) (m ((c.tc : Thread nD τ).loc main_arg17)) (m ((c.tc : Thread nD τ).loc main_arg18))
        (Cert.Spec.h2 (m ((c.tc : Thread nD τ).loc main_arg7)) (m ((c.tc : Thread nD τ).loc main_arg8)) (m ((c.tc : Thread nD τ).loc main_arg9)) (m ((c.tc : Thread nD τ).loc main_arg1)) (m ((c.tc : Thread nD τ).loc main_arg26)) (m ((c.tc : Thread nD τ).loc main_arg27)) (m ((c.tc : Thread nD τ).loc main_arg3)))) := by
  unfold res_main_v136 Cert.Spec.h2 Cert.Spec.l2n428 Cert.Spec.spmm02 Cert.Spec.cat Cert.Spec.relu10000 Cert.Spec.spmm22 Cert.Spec.lin10000
  rfl

/-- Documents from tags: the normalised aggregation of the tag features. -/
theorem out2 : res_main_v154 (F := F) m c
    = Cert.Spec.l2n128 (Cert.Spec.spmm03 (m ((c.tc : Thread nD τ).loc main_arg19)) (m ((c.tc : Thread nD τ).loc main_arg20)) (m ((c.tc : Thread nD τ).loc main_arg21))
        (Cert.Spec.h3 (m ((c.tc : Thread nD τ).loc main_arg10)) (m ((c.tc : Thread nD τ).loc main_arg11)) (m ((c.tc : Thread nD τ).loc main_arg12)) (m ((c.tc : Thread nD τ).loc main_arg2)) (m ((c.tc : Thread nD τ).loc main_arg22)) (m ((c.tc : Thread nD τ).loc main_arg23)) (m ((c.tc : Thread nD τ).loc main_arg28)) (m ((c.tc : Thread nD τ).loc main_arg29)))) := by
  unfold res_main_v154 Cert.Spec.h3 Cert.Spec.l2n128 Cert.Spec.spmm03 Cert.Spec.relu60 Cert.Spec.spmm33 Cert.Spec.lin60a Cert.Spec.lin60b
  rfl

end Cert.RefIs

end
-- ==== Proof.KRun.lean ====
/-
  The idealized kernel program's run with its three results named.  The program is seven TensorCore regions among
  sixteen stretches of host operations; its generated frame folds the buffer contents through those twenty-three
  segments (`Gen.W0` … `Gen.W23`) and concludes that the argument arrays end as launched.  The same launch over the
  same segments also gives every unscoped buffer's final contents as the last fold `Gen.W23`; read at the three
  result buffers this is the run the value claim needs: each result ends at `Gen.W23` of its buffer, the arguments
  unchanged.
-/
import proofs.«177944_j13331578487561_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with each result buffer at the last fold of
    the segments and every argument array as launched. -/
theorem run : θ_run defs (onTc (τ := τ) (main (F := F))) ⟨m, fun _ => 0, ρ⟩ (fun r => ∀ c : Dev nD,
      r.2.mem ((c.tc : Thread nD τ).loc main_v102) = W23 m ρ c (Proc.devRef .tc main_v102)
      ∧ r.2.mem ((c.tc : Thread nD τ).loc main_v116) = W23 m ρ c (Proc.devRef .tc main_v116)
      ∧ r.2.mem ((c.tc : Thread nD τ).loc main_v130) = W23 m ρ c (Proc.devRef .tc main_v130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v102 (by decide)),
       h c _ (mem_uc main_v116 (by decide)),
       h c _ (mem_uc main_v130 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c),
       (h c _ (mem_uc main_arg12 (by decide))).trans (W23_main_arg12 m ρ c),
       (h c _ (mem_uc main_arg13 (by decide))).trans (W23_main_arg13 m ρ c),
       (h c _ (mem_uc main_arg14 (by decide))).trans (W23_main_arg14 m ρ c),
       (h c _ (mem_uc main_arg15 (by decide))).trans (W23_main_arg15 m ρ c),
       (h c _ (mem_uc main_arg16 (by decide))).trans (W23_main_arg16 m ρ c),
       (h c _ (mem_uc main_arg17 (by decide))).trans (W23_main_arg17 m ρ c),
       (h c _ (mem_uc main_arg18 (by decide))).trans (W23_main_arg18 m ρ c),
       (h c _ (mem_uc main_arg19 (by decide))).trans (W23_main_arg19 m ρ c),
       (h c _ (mem_uc main_arg20 (by decide))).trans (W23_main_arg20 m ρ c),
       (h c _ (mem_uc main_arg21 (by decide))).trans (W23_main_arg21 m ρ c),
       (h c _ (mem_uc main_arg22 (by decide))).trans (W23_main_arg22 m ρ c),
       (h c _ (mem_uc main_arg23 (by decide))).trans (W23_main_arg23 m ρ c),
       (h c _ (mem_uc main_arg24 (by decide))).trans (W23_main_arg24 m ρ c),
       (h c _ (mem_uc main_arg25 (by decide))).trans (W23_main_arg25 m ρ c),
       (h c _ (mem_uc main_arg26 (by decide))).trans (W23_main_arg26 m ρ c),
       (h c _ (mem_uc main_arg27 (by decide))).trans (W23_main_arg27 m ρ c),
       (h c _ (mem_uc main_arg28 (by decide))).trans (W23_main_arg28 m ρ c),
       (h c _ (mem_uc main_arg29 (by decide))).trans (W23_main_arg29 m ρ c)⟩)

end Cert.KernelIdeal.KRun

end
-- ==== Proof.HostA.lean ====
/-
  The host operations between the kernel program's seven device regions, the word and the first entity rounds: each run of them computes one
  step of the pipeline — a sparse aggregation (gather the rows a column-index list names, scale each by its edge
  weight, add it into the row a row-index list names), a positive part, or the widening by the embedding — and is
  read here as that step applied to the contents of the buffers it starts from; every buffer it does not write
  keeps its contents.
-/
import proofs.«177944_j13331578487561_1_alg».proof.Proof.Spec
import proofs.«177944_j13331578487561_1_alg».proof.Proof.Gen.KernelIdeal.Launch
import Idealize.ShloMosaic.Lib.StableHlo.Run

noncomputable section

open Cert.KernelIdeal Cert.KernelIdeal.Gen Idealize.ShloMosaic Idealize.ShloMosaic.TcCoe Idealize.SL.Sem

namespace Cert.KernelIdeal.Host

variable {F : FTy → Type} [FloatOps F] (W : Valuation τ sig (Elt F))

/-- The first word–word aggregation round, read off the host operations that compute it. -/
theorem s0 : StableHlo.after hostOps0 W (Proc.devRef .tc main_v12)
    = Cert.Spec.spmm11 (W (Proc.devRef .tc main_arg4)) (W (Proc.devRef .tc main_arg5)) (W (Proc.devRef .tc main_arg6)) (W (Proc.devRef .tc main_arg0)) := by
  after_results_simp
  rfl

/-- The references written while computing the first word–word aggregation round. -/
def wr0 : List (Ref sig .tc) :=
  [main_v0, main_c, main_v1, main_v2, main_c_0, main_v3, main_v4, main_v5, main_v6, main_v7, main_v8,
   main_v9, main_cst, main_v10, main_v11, main_v12]

/-- Every other reference keeps its contents across those operations. -/
theorem keep0 (b : Ref sig .tc) (hb : b ∉ wr0) :
    StableHlo.after hostOps0 W (Proc.devRef .tc b) = W (Proc.devRef .tc b) :=
  StableHlo.after_of_writes_sub hostOps0 W (by
    simp only [hostOps0, List.Forall, StableHlo.unary_writes, StableHlo.nullary_writes, StableHlo.binary_writes,
      StableHlo.ternary_writes, Finset.singleton_subset_iff, List.mem_toFinset]
    repeat' apply And.intro
    all_goals exact List.mem_map_of_mem (by decide)) hb

/-- The positive part of the first word–word round, read off the host operations that compute it. -/
theorem s0_1 : StableHlo.after hostOps0_1 W (Proc.devRef .tc main_v13)
    = Cert.Spec.relu20000 (W (Proc.devRef .tc main_v12)) := by
  after_results_simp
  rfl

/-- The references written while computing the positive part of the first word–word round. -/
def wr0_1 : List (Ref sig .tc) :=
  [main_call0_cst, main_call0_v0, main_v13]

/-- Every other reference keeps its contents across those operations. -/
theorem keep0_1 (b : Ref sig .tc) (hb : b ∉ wr0_1) :
    StableHlo.after hostOps0_1 W (Proc.devRef .tc b) = W (Proc.devRef .tc b) :=
  StableHlo.after_of_writes_sub hostOps0_1 W (by
    simp only [hostOps0_1, List.Forall, StableHlo.nullary_writes, StableHlo.unary_writes, StableHlo.binary_writes,
      Finset.singleton_subset_iff, List.mem_toFinset]
    repeat' apply And.intro
    all_goals exact List.mem_map_of_mem (by decide)) hb

/-- The second word–word aggregation round, read off the host operations that compute it. -/
theorem s1 : StableHlo.after hostOps1 W (Proc.devRef .tc main_v27)
    = Cert.Spec.spmm11 (W (Proc.devRef .tc main_arg4)) (W (Proc.devRef .tc main_arg5)) (W (Proc.devRef .tc main_arg6)) (W (Proc.devRef .tc main_v14)) := by
  after_results_simp
  rfl

/-- The references written while computing the second word–word aggregation round. -/
def wr1 : List (Ref sig .tc) :=
  [main_v15, main_c_1, main_v16, main_v17, main_c_2, main_v18, main_v19, main_v20, main_v21, main_v22,
   main_v23, main_v24, main_cst_3, main_v25, main_v26, main_v27]

/-- Every other reference keeps its contents across those operations. -/
theorem keep1 (b : Ref sig .tc) (hb : b ∉ wr1) :
    StableHlo.after hostOps1 W (Proc.devRef .tc b) = W (Proc.devRef .tc b) :=
  StableHlo.after_of_writes_sub hostOps1 W (by
    simp only [hostOps1, List.Forall, StableHlo.unary_writes, StableHlo.nullary_writes, StableHlo.binary_writes,
      StableHlo.ternary_writes, Finset.singleton_subset_iff, List.mem_toFinset]
    repeat' apply And.intro
    all_goals exact List.mem_map_of_mem (by decide)) hb

/-- The positive part of the second word–word round, read off the host operations that compute it. -/
theorem s1_1 : StableHlo.after hostOps1_1 W (Proc.devRef .tc main_v28)
    = Cert.Spec.relu20000 (W (Proc.devRef .tc main_v27)) := by
  after_results_simp
  rfl

/-- The references written while computing the positive part of the second word–word round. -/
def wr1_1 : List (Ref sig .tc) :=
  [main_call1_cst, main_call1_v0, main_v28]

/-- Every other reference keeps its contents across those operations. -/
theorem keep1_1 (b : Ref sig .tc) (hb : b ∉ wr1_1) :
    StableHlo.after hostOps1_1 W (Proc.devRef .tc b) = W (Proc.devRef .tc b) :=
  StableHlo.after_of_writes_sub hostOps1_1 W (by
    simp only [hostOps1_1, List.Forall, StableHlo.nullary_writes, StableHlo.unary_writes, StableHlo.binary_writes,
      Finset.singleton_subset_iff, List.mem_toFinset]
    repeat' apply And.intro
    all_goals exact List.mem_map_of_mem (by decide)) hb

/-- The first entity–entity aggregation round, read off the host operations that compute it. -/
theorem s1_2 : StableHlo.after hostOps1_2 W (Proc.devRef .tc main_v41)
    = Cert.Spec.spmm22 (W (Proc.devRef .tc main_arg7)) (W (Proc.devRef .tc main_arg8)) (W (Proc.devRef .tc main_arg9)) (W (Proc.devRef .tc main_arg1)) := by
  after_results_simp
  rfl

/-- The references written while computing the first entity–entity aggregation round. -/
def wr1_2 : List (Ref sig .tc) :=
  [main_v29, main_c_4, main_v30, main_v31, main_c_5, main_v32, main_v33, main_v34, main_v35, main_v36,
   main_v37, main_v38, main_cst_6, main_v39, main_v40, main_v41]

/-- Every other reference keeps its contents across those operations. -/
theorem keep1_2 (b : Ref sig .tc) (hb : b ∉ wr1_2) :
    StableHlo.after hostOps1_2 W (Proc.devRef .tc b) = W (Proc.devRef .tc b) :=
  StableHlo.after_of_writes_sub hostOps1_2 W (by
    simp only [hostOps1_2, List.Forall, StableHlo.unary_writes, StableHlo.nullary_writes, StableHlo.binary_writes,
      StableHlo.ternary_writes, Finset.singleton_subset_iff, List.mem_toFinset]
    repeat' apply And.intro
    all_goals exact List.mem_map_of_mem (by decide)) hb

/-- The positive part of the first entity–entity round, read off the host operations that compute it. -/
theorem s1_3 : StableHlo.after hostOps1_3 W (Proc.devRef .tc main_v42)
    = Cert.Spec.relu10000 (W (Proc.devRef .tc main_v41)) := by
  after_results_simp
  rfl

/-- The references written while computing the positive part of the first entity–entity round. -/
def wr1_3 : List (Ref sig .tc) :=
  [main_call2_cst, main_call2_v0, main_v42]

/-- Every other reference keeps its contents across those operations. -/
theorem keep1_3 (b : Ref sig .tc) (hb : b ∉ wr1_3) :
    StableHlo.after hostOps1_3 W (Proc.devRef .tc b) = W (Proc.devRef .tc b) :=
  StableHlo.after_of_writes_sub hostOps1_3 W (by
    simp only [hostOps1_3, List.Forall, StableHlo.nullary_writes, StableHlo.unary_writes, StableHlo.binary_writes,
      Finset.singleton_subset_iff, List.mem_toFinset]
    repeat' apply And.intro
    all_goals exact List.mem_map_of_mem (by decide)) hb

end Cert.KernelIdeal.Host

end
-- ==== Proof.HostB.lean ====
/-
  The host operations between the kernel program's seven device regions, the second entity round, the widening and the tag rounds: each run of them computes one
  step of the pipeline — a sparse aggregation (gather the rows a column-index list names, scale each by its edge
  weight, add it into the row a row-index list names), a positive part, or the widening by the embedding — and is
  read here as that step applied to the contents of the buffers it starts from; every buffer it does not write
  keeps its contents.
-/
import proofs.«177944_j13331578487561_1_alg».proof.Proof.Spec
import proofs.«177944_j13331578487561_1_alg».proof.Proof.Gen.KernelIdeal.Launch
import Idealize.ShloMosaic.Lib.StableHlo.Run

noncomputable section

open Cert.KernelIdeal Cert.KernelIdeal.Gen Idealize.ShloMosaic Idealize.ShloMosaic.TcCoe Idealize.SL.Sem

namespace Cert.KernelIdeal.Host

variable {F : FTy → Type} [FloatOps F] (W : Valuation τ sig (Elt F))

/-- The second entity–entity aggregation round, read off the host operations that compute it. -/
theorem s2 : StableHlo.after hostOps2 W (Proc.devRef .tc main_v56)
    = Cert.Spec.spmm22 (W (Proc.devRef .tc main_arg7)) (W (Proc.devRef .tc main_arg8)) (W (Proc.devRef .tc main_arg9)) (W (Proc.devRef .tc main_v43)) := by
  after_results_simp
  rfl

/-- The references written while computing the second entity–entity aggregation round. -/
def wr2 : List (Ref sig .tc) :=
  [main_v44, main_c_7, main_v45, main_v46, main_c_8, main_v47, main_v48, main_v49, main_v50, main_v51,
   main_v52, main_v53, main_cst_9, main_v54, main_v55, main_v56]

/-- Every other reference keeps its contents across those operations. -/
theorem keep2 (b : Ref sig .tc) (hb : b ∉ wr2) :
    StableHlo.after hostOps2 W (Proc.devRef .tc b) = W (Proc.devRef .tc b) :=
  StableHlo.after_of_writes_sub hostOps2 W (by
    simp only [hostOps2, List.Forall, StableHlo.unary_writes, StableHlo.nullary_writes, StableHlo.binary_writes,
      StableHlo.ternary_writes, Finset.singleton_subset_iff, List.mem_toFinset]
    repeat' apply And.intro
    all_goals exact List.mem_map_of_mem (by decide)) hb

/-- The positive part of the second entity–entity round, read off the host operations that compute it. -/
theorem s2_1 : StableHlo.after hostOps2_1 W (Proc.devRef .tc main_v57)
    = Cert.Spec.relu10000 (W (Proc.devRef .tc main_v56)) := by
  after_results_simp
  rfl

/-- The references written while computing the positive part of the second entity–entity round. -/
def wr2_1 : List (Ref sig .tc) :=
  [main_call3_cst, main_call3_v0, main_v57]

/-- Every other reference keeps its contents across those operations. -/
theorem keep2_1 (b : Ref sig .tc) (hb : b ∉ wr2_1) :
    StableHlo.after hostOps2_1 W (Proc.devRef .tc b) = W (Proc.devRef .tc b) :=
  StableHlo.after_of_writes_sub hostOps2_1 W (by
    simp only [hostOps2_1, List.Forall, StableHlo.nullary_writes, StableHlo.unary_writes, StableHlo.binary_writes,
      Finset.singleton_subset_iff, List.mem_toFinset]
    repeat' apply And.intro
    all_goals exact List.mem_map_of_mem (by decide)) hb

/-- The entity features widened by the embedding, read off the host operations that compute it. -/
theorem s2_2 : StableHlo.after hostOps2_2 W (Proc.devRef .tc main_v58)
    = Cert.Spec.cat (W (Proc.devRef .tc main_v57)) (W (Proc.devRef .tc main_arg3)) := by
  after_results_simp
  rfl

/-- The references written while computing the entity features widened by the embedding. -/
def wr2_2 : List (Ref sig .tc) :=
  [main_v58]

/-- Every other reference keeps its contents across those operations. -/
theorem keep2_2 (b : Ref sig .tc) (hb : b ∉ wr2_2) :
    StableHlo.after hostOps2_2 W (Proc.devRef .tc b) = W (Proc.devRef .tc b) :=
  StableHlo.after_of_writes_sub hostOps2_2 W (by
    simp only [hostOps2_2, List.Forall, StableHlo.binary_writes, Finset.singleton_subset_iff, List.mem_toFinset]
    repeat' apply And.intro
    all_goals exact List.mem_map_of_mem (by decide)) hb

/-- The first tag–tag aggregation round, read off the host operations that compute it. -/
theorem s3 : StableHlo.after hostOps3 W (Proc.devRef .tc main_v72)
    = Cert.Spec.spmm33 (W (Proc.devRef .tc main_arg10)) (W (Proc.devRef .tc main_arg11)) (W (Proc.devRef .tc main_arg12)) (W (Proc.devRef .tc main_v59)) := by
  after_results_simp
  rfl

/-- The references written while computing the first tag–tag aggregation round. -/
def wr3 : List (Ref sig .tc) :=
  [main_v60, main_c_10, main_v61, main_v62, main_c_11, main_v63, main_v64, main_v65, main_v66, main_v67,
   main_v68, main_v69, main_cst_12, main_v70, main_v71, main_v72]

/-- Every other reference keeps its contents across those operations. -/
theorem keep3 (b : Ref sig .tc) (hb : b ∉ wr3) :
    StableHlo.after hostOps3 W (Proc.devRef .tc b) = W (Proc.devRef .tc b) :=
  StableHlo.after_of_writes_sub hostOps3 W (by
    simp only [hostOps3, List.Forall, StableHlo.unary_writes, StableHlo.nullary_writes, StableHlo.binary_writes,
      StableHlo.ternary_writes, Finset.singleton_subset_iff, List.mem_toFinset]
    repeat' apply And.intro
    all_goals exact List.mem_map_of_mem (by decide)) hb

/-- The positive part of the first tag–tag round, read off the host operations that compute it. -/
theorem s3_1 : StableHlo.after hostOps3_1 W (Proc.devRef .tc main_v73)
    = Cert.Spec.relu60 (W (Proc.devRef .tc main_v72)) := by
  after_results_simp
  rfl

/-- The references written while computing the positive part of the first tag–tag round. -/
def wr3_1 : List (Ref sig .tc) :=
  [main_call4_cst, main_call4_v0, main_v73]

/-- Every other reference keeps its contents across those operations. -/
theorem keep3_1 (b : Ref sig .tc) (hb : b ∉ wr3_1) :
    StableHlo.after hostOps3_1 W (Proc.devRef .tc b) = W (Proc.devRef .tc b) :=
  StableHlo.after_of_writes_sub hostOps3_1 W (by
    simp only [hostOps3_1, List.Forall, StableHlo.nullary_writes, StableHlo.unary_writes, StableHlo.binary_writes,
      Finset.singleton_subset_iff, List.mem_toFinset]
    repeat' apply And.intro
    all_goals exact List.mem_map_of_mem (by decide)) hb

/-- The second tag–tag aggregation round, read off the host operations that compute it. -/
theorem s4 : StableHlo.after hostOps4 W (Proc.devRef .tc main_v87)
    = Cert.Spec.spmm33 (W (Proc.devRef .tc main_arg10)) (W (Proc.devRef .tc main_arg11)) (W (Proc.devRef .tc main_arg12)) (W (Proc.devRef .tc main_v74)) := by
  after_results_simp
  rfl

/-- The references written while computing the second tag–tag aggregation round. -/
def wr4 : List (Ref sig .tc) :=
  [main_v75, main_c_13, main_v76, main_v77, main_c_14, main_v78, main_v79, main_v80, main_v81, main_v82,
   main_v83, main_v84, main_cst_15, main_v85, main_v86, main_v87]

/-- Every other reference keeps its contents across those operations. -/
theorem keep4 (b : Ref sig .tc) (hb : b ∉ wr4) :
    StableHlo.after hostOps4 W (Proc.devRef .tc b) = W (Proc.devRef .tc b) :=
  StableHlo.after_of_writes_sub hostOps4 W (by
    simp only [hostOps4, List.Forall, StableHlo.unary_writes, StableHlo.nullary_writes, StableHlo.binary_writes,
      StableHlo.ternary_writes, Finset.singleton_subset_iff, List.mem_toFinset]
    repeat' apply And.intro
    all_goals exact List.mem_map_of_mem (by decide)) hb

/-- The positive part of the second tag–tag round, read off the host operations that compute it. -/
theorem s4_1 : StableHlo.after hostOps4_1 W (Proc.devRef .tc main_v88)
    = Cert.Spec.relu60 (W (Proc.devRef .tc main_v87)) := by
  after_results_simp
  rfl

/-- The references written while computing the positive part of the second tag–tag round. -/
def wr4_1 : List (Ref sig .tc) :=
  [main_call5_cst, main_call5_v0, main_v88]

/-- Every other reference keeps its contents across those operations. -/
theorem keep4_1 (b : Ref sig .tc) (hb : b ∉ wr4_1) :
    StableHlo.after hostOps4_1 W (Proc.devRef .tc b) = W (Proc.devRef .tc b) :=
  StableHlo.after_of_writes_sub hostOps4_1 W (by
    simp only [hostOps4_1, List.Forall, StableHlo.nullary_writes, StableHlo.unary_writes, StableHlo.binary_writes,
      Finset.singleton_subset_iff, List.mem_toFinset]
    repeat' apply And.intro
    all_goals exact List.mem_map_of_mem (by decide)) hb

end Cert.KernelIdeal.Host

end
-- ==== Proof.HostC.lean ====
/-
  The host operations between the kernel program's seven device regions, the three aggregations onto the documents: each run of them computes one
  step of the pipeline — a sparse aggregation (gather the rows a column-index list names, scale each by its edge
  weight, add it into the row a row-index list names), a positive part, or the widening by the embedding — and is
  read here as that step applied to the contents of the buffers it starts from; every buffer it does not write
  keeps its contents.
-/
import proofs.«177944_j13331578487561_1_alg».proof.Proof.Spec
import proofs.«177944_j13331578487561_1_alg».proof.Proof.Gen.KernelIdeal.Launch
import Idealize.ShloMosaic.Lib.StableHlo.Run

noncomputable section

open Cert.KernelIdeal Cert.KernelIdeal.Gen Idealize.ShloMosaic Idealize.ShloMosaic.TcCoe Idealize.SL.Sem

namespace Cert.KernelIdeal.Host

variable {F : FTy → Type} [FloatOps F] (W : Valuation τ sig (Elt F))

/-- The document–word aggregation, read off the host operations that compute it. -/
theorem s4_2 : StableHlo.after hostOps4_2 W (Proc.devRef .tc main_v101)
    = Cert.Spec.spmm01 (W (Proc.devRef .tc main_arg13)) (W (Proc.devRef .tc main_arg14)) (W (Proc.devRef .tc main_arg15)) (W (Proc.devRef .tc main_v28)) := by
  after_results_simp
  rfl

/-- The references written while computing the document–word aggregation. -/
def wr4_2 : List (Ref sig .tc) :=
  [main_v89, main_c_16, main_v90, main_v91, main_c_17, main_v92, main_v93, main_v94, main_v95, main_v96,
   main_v97, main_v98, main_cst_18, main_v99, main_v100, main_v101]

/-- Every other reference keeps its contents across those operations. -/
theorem keep4_2 (b : Ref sig .tc) (hb : b ∉ wr4_2) :
    StableHlo.after hostOps4_2 W (Proc.devRef .tc b) = W (Proc.devRef .tc b) :=
  StableHlo.after_of_writes_sub hostOps4_2 W (by
    simp only [hostOps4_2, List.Forall, StableHlo.unary_writes, StableHlo.nullary_writes, StableHlo.binary_writes,
      StableHlo.ternary_writes, Finset.singleton_subset_iff, List.mem_toFinset]
    repeat' apply And.intro
    all_goals exact List.mem_map_of_mem (by decide)) hb

/-- The document–entity aggregation, read off the host operations that compute it. -/
theorem s5 : StableHlo.after hostOps5 W (Proc.devRef .tc main_v115)
    = Cert.Spec.spmm02 (W (Proc.devRef .tc main_arg16)) (W (Proc.devRef .tc main_arg17)) (W (Proc.devRef .tc main_arg18)) (W (Proc.devRef .tc main_v58)) := by
  after_results_simp
  rfl

/-- The references written while computing the document–entity aggregation. -/
def wr5 : List (Ref sig .tc) :=
  [main_v103, main_c_19, main_v104, main_v105, main_c_20, main_v106, main_v107, main_v108, main_v109,
   main_v110, main_v111, main_v112, main_cst_21, main_v113, main_v114, main_v115]

/-- Every other reference keeps its contents across those operations. -/
theorem keep5 (b : Ref sig .tc) (hb : b ∉ wr5) :
    StableHlo.after hostOps5 W (Proc.devRef .tc b) = W (Proc.devRef .tc b) :=
  StableHlo.after_of_writes_sub hostOps5 W (by
    simp only [hostOps5, List.Forall, StableHlo.unary_writes, StableHlo.nullary_writes, StableHlo.binary_writes,
      StableHlo.ternary_writes, Finset.singleton_subset_iff, List.mem_toFinset]
    repeat' apply And.intro
    all_goals exact List.mem_map_of_mem (by decide)) hb

/-- The document–tag aggregation, read off the host operations that compute it. -/
theorem s6 : StableHlo.after hostOps6 W (Proc.devRef .tc main_v129)
    = Cert.Spec.spmm03 (W (Proc.devRef .tc main_arg19)) (W (Proc.devRef .tc main_arg20)) (W (Proc.devRef .tc main_arg21)) (W (Proc.devRef .tc main_v88)) := by
  after_results_simp
  rfl

/-- The references written while computing the document–tag aggregation. -/
def wr6 : List (Ref sig .tc) :=
  [main_v117, main_c_22, main_v118, main_v119, main_c_23, main_v120, main_v121, main_v122, main_v123,
   main_v124, main_v125, main_v126, main_cst_24, main_v127, main_v128, main_v129]

/-- Every other reference keeps its contents across those operations. -/
theorem keep6 (b : Ref sig .tc) (hb : b ∉ wr6) :
    StableHlo.after hostOps6 W (Proc.devRef .tc b) = W (Proc.devRef .tc b) :=
  StableHlo.after_of_writes_sub hostOps6 W (by
    simp only [hostOps6, List.Forall, StableHlo.unary_writes, StableHlo.nullary_writes, StableHlo.binary_writes,
      StableHlo.ternary_writes, Finset.singleton_subset_iff, List.mem_toFinset]
    repeat' apply And.intro
    all_goals exact List.mem_map_of_mem (by decide)) hb

end Cert.KernelIdeal.Host

end
-- ==== Proof.Thru.lean ====
/-
  Which buffers each segment of the idealized kernel program leaves alone.  The program's buffer contents are folded
  through twenty-three segments (`Gen.W0` … `Gen.W23`): a stretch of host operations changes only the buffers its
  operations write, a region only its windows' arrays.  So a buffer that none of the segments j+1 … k touches holds at
  boundary k what it held at boundary j; in particular an argument array read by a late stretch is still the launch
  memory's, and a feature array computed early is still there when the last aggregation reads it.
-/
import proofs.«177944_j13331578487561_1_alg».proof.Proof.HostA
import proofs.«177944_j13331578487561_1_alg».proof.Proof.HostB
import proofs.«177944_j13331578487561_1_alg».proof.Proof.HostC
import proofs.«177944_j13331578487561_1_alg».proof.Proof.Gen.KernelIdeal.Frame

noncomputable section

namespace Cert.KernelIdeal.Thru

open Cert.KernelIdeal Cert.KernelIdeal.Gen Cert.KernelIdeal.Host Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-! ## What one segment touches -/

/-- Segment 1, a host stretch: the buffers its operations write. -/
abbrev T1 : List (Ref sig .tc) := wr0
theorem step1 (b : Ref sig .tc) (hb : b ∉ T1) : W1 m ρ c (Proc.devRef .tc b) = W0 m ρ c (Proc.devRef .tc b) :=
  keep0 (W0 m ρ c) b hb

/-- Segment 2, a host stretch: the buffers its operations write. -/
abbrev T2 : List (Ref sig .tc) := wr0_1
theorem step2 (b : Ref sig .tc) (hb : b ∉ T2) : W2 m ρ c (Proc.devRef .tc b) = W1 m ρ c (Proc.devRef .tc b) :=
  keep0_1 (W1 m ρ c) b hb

/-- Segment 3, region 0: its windows' arrays. -/
abbrev T3 : List (Ref sig .tc) := [main_v13, main_arg24, main_arg25, main_v14]
theorem step3 (b : Ref sig .tc) (hb : b ∉ T3) : W3 m ρ c (Proc.devRef .tc b) = W2 m ρ c (Proc.devRef .tc b) :=
  W3_of_ne m ρ c b fun w e => hb (e ▸ (by decide : ∀ w, Pipeline.arrRef spec0 w ∈ T3) w)

/-- Segment 4, a host stretch: the buffers its operations write. -/
abbrev T4 : List (Ref sig .tc) := wr1
theorem step4 (b : Ref sig .tc) (hb : b ∉ T4) : W4 m ρ c (Proc.devRef .tc b) = W3 m ρ c (Proc.devRef .tc b) :=
  keep1 (W3 m ρ c) b hb

/-- Segment 5, a host stretch: the buffers its operations write. -/
abbrev T5 : List (Ref sig .tc) := wr1_1
theorem step5 (b : Ref sig .tc) (hb : b ∉ T5) : W5 m ρ c (Proc.devRef .tc b) = W4 m ρ c (Proc.devRef .tc b) :=
  keep1_1 (W4 m ρ c) b hb

/-- Segment 6, a host stretch: the buffers its operations write. -/
abbrev T6 : List (Ref sig .tc) := wr1_2
theorem step6 (b : Ref sig .tc) (hb : b ∉ T6) : W6 m ρ c (Proc.devRef .tc b) = W5 m ρ c (Proc.devRef .tc b) :=
  keep1_2 (W5 m ρ c) b hb

/-- Segment 7, a host stretch: the buffers its operations write. -/
abbrev T7 : List (Ref sig .tc) := wr1_3
theorem step7 (b : Ref sig .tc) (hb : b ∉ T7) : W7 m ρ c (Proc.devRef .tc b) = W6 m ρ c (Proc.devRef .tc b) :=
  keep1_3 (W6 m ρ c) b hb

/-- Segment 8, region 1: its windows' arrays. -/
abbrev T8 : List (Ref sig .tc) := [main_v42, main_arg26, main_arg27, main_v43]
theorem step8 (b : Ref sig .tc) (hb : b ∉ T8) : W8 m ρ c (Proc.devRef .tc b) = W7 m ρ c (Proc.devRef .tc b) :=
  W8_of_ne m ρ c b fun w e => hb (e ▸ (by decide : ∀ w, Pipeline.arrRef spec1 w ∈ T8) w)

/-- Segment 9, a host stretch: the buffers its operations write. -/
abbrev T9 : List (Ref sig .tc) := wr2
theorem step9 (b : Ref sig .tc) (hb : b ∉ T9) : W9 m ρ c (Proc.devRef .tc b) = W8 m ρ c (Proc.devRef .tc b) :=
  keep2 (W8 m ρ c) b hb

/-- Segment 10, a host stretch: the buffers its operations write. -/
abbrev T10 : List (Ref sig .tc) := wr2_1
theorem step10 (b : Ref sig .tc) (hb : b ∉ T10) : W10 m ρ c (Proc.devRef .tc b) = W9 m ρ c (Proc.devRef .tc b) :=
  keep2_1 (W9 m ρ c) b hb

/-- Segment 11, a host stretch: the buffers its operations write. -/
abbrev T11 : List (Ref sig .tc) := wr2_2
theorem step11 (b : Ref sig .tc) (hb : b ∉ T11) : W11 m ρ c (Proc.devRef .tc b) = W10 m ρ c (Proc.devRef .tc b) :=
  keep2_2 (W10 m ρ c) b hb

/-- Segment 12, region 2: its windows' arrays. -/
abbrev T12 : List (Ref sig .tc) := [main_arg2, main_arg22, main_arg23, main_v59]
theorem step12 (b : Ref sig .tc) (hb : b ∉ T12) : W12 m ρ c (Proc.devRef .tc b) = W11 m ρ c (Proc.devRef .tc b) :=
  W12_of_ne m ρ c b fun w e => hb (e ▸ (by decide : ∀ w, Pipeline.arrRef spec2 w ∈ T12) w)

/-- Segment 13, a host stretch: the buffers its operations write. -/
abbrev T13 : List (Ref sig .tc) := wr3
theorem step13 (b : Ref sig .tc) (hb : b ∉ T13) : W13 m ρ c (Proc.devRef .tc b) = W12 m ρ c (Proc.devRef .tc b) :=
  keep3 (W12 m ρ c) b hb

/-- Segment 14, a host stretch: the buffers its operations write. -/
abbrev T14 : List (Ref sig .tc) := wr3_1
theorem step14 (b : Ref sig .tc) (hb : b ∉ T14) : W14 m ρ c (Proc.devRef .tc b) = W13 m ρ c (Proc.devRef .tc b) :=
  keep3_1 (W13 m ρ c) b hb

/-- Segment 15, region 3: its windows' arrays. -/
abbrev T15 : List (Ref sig .tc) := [main_v73, main_arg28, main_arg29, main_v74]
theorem step15 (b : Ref sig .tc) (hb : b ∉ T15) : W15 m ρ c (Proc.devRef .tc b) = W14 m ρ c (Proc.devRef .tc b) :=
  W15_of_ne m ρ c b fun w e => hb (e ▸ (by decide : ∀ w, Pipeline.arrRef spec3 w ∈ T15) w)

/-- Segment 16, a host stretch: the buffers its operations write. -/
abbrev T16 : List (Ref sig .tc) := wr4
theorem step16 (b : Ref sig .tc) (hb : b ∉ T16) : W16 m ρ c (Proc.devRef .tc b) = W15 m ρ c (Proc.devRef .tc b) :=
  keep4 (W15 m ρ c) b hb

/-- Segment 17, a host stretch: the buffers its operations write. -/
abbrev T17 : List (Ref sig .tc) := wr4_1
theorem step17 (b : Ref sig .tc) (hb : b ∉ T17) : W17 m ρ c (Proc.devRef .tc b) = W16 m ρ c (Proc.devRef .tc b) :=
  keep4_1 (W16 m ρ c) b hb

/-- Segment 18, a host stretch: the buffers its operations write. -/
abbrev T18 : List (Ref sig .tc) := wr4_2
theorem step18 (b : Ref sig .tc) (hb : b ∉ T18) : W18 m ρ c (Proc.devRef .tc b) = W17 m ρ c (Proc.devRef .tc b) :=
  keep4_2 (W17 m ρ c) b hb

/-- Segment 19, region 4: its windows' arrays. -/
abbrev T19 : List (Ref sig .tc) := [main_v101, main_v102]
theorem step19 (b : Ref sig .tc) (hb : b ∉ T19) : W19 m ρ c (Proc.devRef .tc b) = W18 m ρ c (Proc.devRef .tc b) :=
  W19_of_ne m ρ c b fun w e => hb (e ▸ (by decide : ∀ w, Pipeline.arrRef spec4 w ∈ T19) w)

/-- Segment 20, a host stretch: the buffers its operations write. -/
abbrev T20 : List (Ref sig .tc) := wr5
theorem step20 (b : Ref sig .tc) (hb : b ∉ T20) : W20 m ρ c (Proc.devRef .tc b) = W19 m ρ c (Proc.devRef .tc b) :=
  keep5 (W19 m ρ c) b hb

/-- Segment 21, region 5: its windows' arrays. -/
abbrev T21 : List (Ref sig .tc) := [main_v115, main_v116]
theorem step21 (b : Ref sig .tc) (hb : b ∉ T21) : W21 m ρ c (Proc.devRef .tc b) = W20 m ρ c (Proc.devRef .tc b) :=
  W21_of_ne m ρ c b fun w e => hb (e ▸ (by decide : ∀ w, Pipeline.arrRef spec5 w ∈ T21) w)

/-- Segment 22, a host stretch: the buffers its operations write. -/
abbrev T22 : List (Ref sig .tc) := wr6
theorem step22 (b : Ref sig .tc) (hb : b ∉ T22) : W22 m ρ c (Proc.devRef .tc b) = W21 m ρ c (Proc.devRef .tc b) :=
  keep6 (W21 m ρ c) b hb

/-- Segment 23, region 6: its windows' arrays. -/
abbrev T23 : List (Ref sig .tc) := [main_v129, main_v130]
theorem step23 (b : Ref sig .tc) (hb : b ∉ T23) : W23 m ρ c (Proc.devRef .tc b) = W22 m ρ c (Proc.devRef .tc b) :=
  W23_of_ne m ρ c b fun w e => hb (e ▸ (by decide : ∀ w, Pipeline.arrRef spec6 w ∈ T23) w)

/-! ## Stretches of segments: a buffer none of the segments j+1 … k touches -/

abbrev U0_0 : List (Ref sig .tc) := []
abbrev U0_1 : List (Ref sig .tc) := U0_0 ++ T1
abbrev U0_2 : List (Ref sig .tc) := U0_1 ++ T2
abbrev U0_3 : List (Ref sig .tc) := U0_2 ++ T3
abbrev U0_4 : List (Ref sig .tc) := U0_3 ++ T4
abbrev U0_5 : List (Ref sig .tc) := U0_4 ++ T5
abbrev U0_6 : List (Ref sig .tc) := U0_5 ++ T6
abbrev U0_7 : List (Ref sig .tc) := U0_6 ++ T7
abbrev U0_8 : List (Ref sig .tc) := U0_7 ++ T8
abbrev U0_9 : List (Ref sig .tc) := U0_8 ++ T9
abbrev U0_10 : List (Ref sig .tc) := U0_9 ++ T10
abbrev U0_11 : List (Ref sig .tc) := U0_10 ++ T11
abbrev U0_12 : List (Ref sig .tc) := U0_11 ++ T12
abbrev U0_13 : List (Ref sig .tc) := U0_12 ++ T13
abbrev U0_14 : List (Ref sig .tc) := U0_13 ++ T14
abbrev U0_15 : List (Ref sig .tc) := U0_14 ++ T15
abbrev U0_16 : List (Ref sig .tc) := U0_15 ++ T16
abbrev U0_17 : List (Ref sig .tc) := U0_16 ++ T17
abbrev U0_18 : List (Ref sig .tc) := U0_17 ++ T18
abbrev U0_19 : List (Ref sig .tc) := U0_18 ++ T19
abbrev U0_20 : List (Ref sig .tc) := U0_19 ++ T20
abbrev U0_21 : List (Ref sig .tc) := U0_20 ++ T21
theorem thru0_1 (b : Ref sig .tc) (hb : b ∉ U0_1) : W1 m ρ c (Proc.devRef .tc b) = W0 m ρ c (Proc.devRef .tc b) :=
  (step1 m ρ c b fun h => hb (List.mem_append.mpr (.inr h))).trans (rfl)
theorem thru0_2 (b : Ref sig .tc) (hb : b ∉ U0_2) : W2 m ρ c (Proc.devRef .tc b) = W0 m ρ c (Proc.devRef .tc b) :=
  (step2 m ρ c b fun h => hb (List.mem_append.mpr (.inr h))).trans (thru0_1 m ρ c b fun h => hb (List.mem_append.mpr (.inl h)))
theorem thru0_3 (b : Ref sig .tc) (hb : b ∉ U0_3) : W3 m ρ c (Proc.devRef .tc b) = W0 m ρ c (Proc.devRef .tc b) :=
  (step3 m ρ c b fun h => hb (List.mem_append.mpr (.inr h))).trans (thru0_2 m ρ c b fun h => hb (List.mem_append.mpr (.inl h)))
theorem thru0_4 (b : Ref sig .tc) (hb : b ∉ U0_4) : W4 m ρ c (Proc.devRef .tc b) = W0 m ρ c (Proc.devRef .tc b) :=
  (step4 m ρ c b fun h => hb (List.mem_append.mpr (.inr h))).trans (thru0_3 m ρ c b fun h => hb (List.mem_append.mpr (.inl h)))
theorem thru0_5 (b : Ref sig .tc) (hb : b ∉ U0_5) : W5 m ρ c (Proc.devRef .tc b) = W0 m ρ c (Proc.devRef .tc b) :=
  (step5 m ρ c b fun h => hb (List.mem_append.mpr (.inr h))).trans (thru0_4 m ρ c b fun h => hb (List.mem_append.mpr (.inl h)))
theorem thru0_6 (b : Ref sig .tc) (hb : b ∉ U0_6) : W6 m ρ c (Proc.devRef .tc b) = W0 m ρ c (Proc.devRef .tc b) :=
  (step6 m ρ c b fun h => hb (List.mem_append.mpr (.inr h))).trans (thru0_5 m ρ c b fun h => hb (List.mem_append.mpr (.inl h)))
theorem thru0_7 (b : Ref sig .tc) (hb : b ∉ U0_7) : W7 m ρ c (Proc.devRef .tc b) = W0 m ρ c (Proc.devRef .tc b) :=
  (step7 m ρ c b fun h => hb (List.mem_append.mpr (.inr h))).trans (thru0_6 m ρ c b fun h => hb (List.mem_append.mpr (.inl h)))
theorem thru0_8 (b : Ref sig .tc) (hb : b ∉ U0_8) : W8 m ρ c (Proc.devRef .tc b) = W0 m ρ c (Proc.devRef .tc b) :=
  (step8 m ρ c b fun h => hb (List.mem_append.mpr (.inr h))).trans (thru0_7 m ρ c b fun h => hb (List.mem_append.mpr (.inl h)))
theorem thru0_9 (b : Ref sig .tc) (hb : b ∉ U0_9) : W9 m ρ c (Proc.devRef .tc b) = W0 m ρ c (Proc.devRef .tc b) :=
  (step9 m ρ c b fun h => hb (List.mem_append.mpr (.inr h))).trans (thru0_8 m ρ c b fun h => hb (List.mem_append.mpr (.inl h)))
theorem thru0_10 (b : Ref sig .tc) (hb : b ∉ U0_10) : W10 m ρ c (Proc.devRef .tc b) = W0 m ρ c (Proc.devRef .tc b) :=
  (step10 m ρ c b fun h => hb (List.mem_append.mpr (.inr h))).trans (thru0_9 m ρ c b fun h => hb (List.mem_append.mpr (.inl h)))
theorem thru0_11 (b : Ref sig .tc) (hb : b ∉ U0_11) : W11 m ρ c (Proc.devRef .tc b) = W0 m ρ c (Proc.devRef .tc b) :=
  (step11 m ρ c b fun h => hb (List.mem_append.mpr (.inr h))).trans (thru0_10 m ρ c b fun h => hb (List.mem_append.mpr (.inl h)))
theorem thru0_12 (b : Ref sig .tc) (hb : b ∉ U0_12) : W12 m ρ c (Proc.devRef .tc b) = W0 m ρ c (Proc.devRef .tc b) :=
  (step12 m ρ c b fun h => hb (List.mem_append.mpr (.inr h))).trans (thru0_11 m ρ c b fun h => hb (List.mem_append.mpr (.inl h)))
theorem thru0_13 (b : Ref sig .tc) (hb : b ∉ U0_13) : W13 m ρ c (Proc.devRef .tc b) = W0 m ρ c (Proc.devRef .tc b) :=
  (step13 m ρ c b fun h => hb (List.mem_append.mpr (.inr h))).trans (thru0_12 m ρ c b fun h => hb (List.mem_append.mpr (.inl h)))
theorem thru0_14 (b : Ref sig .tc) (hb : b ∉ U0_14) : W14 m ρ c (Proc.devRef .tc b) = W0 m ρ c (Proc.devRef .tc b) :=
  (step14 m ρ c b fun h => hb (List.mem_append.mpr (.inr h))).trans (thru0_13 m ρ c b fun h => hb (List.mem_append.mpr (.inl h)))
theorem thru0_15 (b : Ref sig .tc) (hb : b ∉ U0_15) : W15 m ρ c (Proc.devRef .tc b) = W0 m ρ c (Proc.devRef .tc b) :=
  (step15 m ρ c b fun h => hb (List.mem_append.mpr (.inr h))).trans (thru0_14 m ρ c b fun h => hb (List.mem_append.mpr (.inl h)))
theorem thru0_16 (b : Ref sig .tc) (hb : b ∉ U0_16) : W16 m ρ c (Proc.devRef .tc b) = W0 m ρ c (Proc.devRef .tc b) :=
  (step16 m ρ c b fun h => hb (List.mem_append.mpr (.inr h))).trans (thru0_15 m ρ c b fun h => hb (List.mem_append.mpr (.inl h)))
theorem thru0_17 (b : Ref sig .tc) (hb : b ∉ U0_17) : W17 m ρ c (Proc.devRef .tc b) = W0 m ρ c (Proc.devRef .tc b) :=
  (step17 m ρ c b fun h => hb (List.mem_append.mpr (.inr h))).trans (thru0_16 m ρ c b fun h => hb (List.mem_append.mpr (.inl h)))
theorem thru0_18 (b : Ref sig .tc) (hb : b ∉ U0_18) : W18 m ρ c (Proc.devRef .tc b) = W0 m ρ c (Proc.devRef .tc b) :=
  (step18 m ρ c b fun h => hb (List.mem_append.mpr (.inr h))).trans (thru0_17 m ρ c b fun h => hb (List.mem_append.mpr (.inl h)))
theorem thru0_19 (b : Ref sig .tc) (hb : b ∉ U0_19) : W19 m ρ c (Proc.devRef .tc b) = W0 m ρ c (Proc.devRef .tc b) :=
  (step19 m ρ c b fun h => hb (List.mem_append.mpr (.inr h))).trans (thru0_18 m ρ c b fun h => hb (List.mem_append.mpr (.inl h)))
theorem thru0_20 (b : Ref sig .tc) (hb : b ∉ U0_20) : W20 m ρ c (Proc.devRef .tc b) = W0 m ρ c (Proc.devRef .tc b) :=
  (step20 m ρ c b fun h => hb (List.mem_append.mpr (.inr h))).trans (thru0_19 m ρ c b fun h => hb (List.mem_append.mpr (.inl h)))
theorem thru0_21 (b : Ref sig .tc) (hb : b ∉ U0_21) : W21 m ρ c (Proc.devRef .tc b) = W0 m ρ c (Proc.devRef .tc b) :=
  (step21 m ρ c b fun h => hb (List.mem_append.mpr (.inr h))).trans (thru0_20 m ρ c b fun h => hb (List.mem_append.mpr (.inl h)))

abbrev U5_5 : List (Ref sig .tc) := []
abbrev U5_6 : List (Ref sig .tc) := U5_5 ++ T6
abbrev U5_7 : List (Ref sig .tc) := U5_6 ++ T7
abbrev U5_8 : List (Ref sig .tc) := U5_7 ++ T8
abbrev U5_9 : List (Ref sig .tc) := U5_8 ++ T9
abbrev U5_10 : List (Ref sig .tc) := U5_9 ++ T10
abbrev U5_11 : List (Ref sig .tc) := U5_10 ++ T11
abbrev U5_12 : List (Ref sig .tc) := U5_11 ++ T12
abbrev U5_13 : List (Ref sig .tc) := U5_12 ++ T13
abbrev U5_14 : List (Ref sig .tc) := U5_13 ++ T14
abbrev U5_15 : List (Ref sig .tc) := U5_14 ++ T15
abbrev U5_16 : List (Ref sig .tc) := U5_15 ++ T16
abbrev U5_17 : List (Ref sig .tc) := U5_16 ++ T17
theorem thru5_6 (b : Ref sig .tc) (hb : b ∉ U5_6) : W6 m ρ c (Proc.devRef .tc b) = W5 m ρ c (Proc.devRef .tc b) :=
  (step6 m ρ c b fun h => hb (List.mem_append.mpr (.inr h))).trans (rfl)
theorem thru5_7 (b : Ref sig .tc) (hb : b ∉ U5_7) : W7 m ρ c (Proc.devRef .tc b) = W5 m ρ c (Proc.devRef .tc b) :=
  (step7 m ρ c b fun h => hb (List.mem_append.mpr (.inr h))).trans (thru5_6 m ρ c b fun h => hb (List.mem_append.mpr (.inl h)))
theorem thru5_8 (b : Ref sig .tc) (hb : b ∉ U5_8) : W8 m ρ c (Proc.devRef .tc b) = W5 m ρ c (Proc.devRef .tc b) :=
  (step8 m ρ c b fun h => hb (List.mem_append.mpr (.inr h))).trans (thru5_7 m ρ c b fun h => hb (List.mem_append.mpr (.inl h)))
theorem thru5_9 (b : Ref sig .tc) (hb : b ∉ U5_9) : W9 m ρ c (Proc.devRef .tc b) = W5 m ρ c (Proc.devRef .tc b) :=
  (step9 m ρ c b fun h => hb (List.mem_append.mpr (.inr h))).trans (thru5_8 m ρ c b fun h => hb (List.mem_append.mpr (.inl h)))
theorem thru5_10 (b : Ref sig .tc) (hb : b ∉ U5_10) : W10 m ρ c (Proc.devRef .tc b) = W5 m ρ c (Proc.devRef .tc b) :=
  (step10 m ρ c b fun h => hb (List.mem_append.mpr (.inr h))).trans (thru5_9 m ρ c b fun h => hb (List.mem_append.mpr (.inl h)))
theorem thru5_11 (b : Ref sig .tc) (hb : b ∉ U5_11) : W11 m ρ c (Proc.devRef .tc b) = W5 m ρ c (Proc.devRef .tc b) :=
  (step11 m ρ c b fun h => hb (List.mem_append.mpr (.inr h))).trans (thru5_10 m ρ c b fun h => hb (List.mem_append.mpr (.inl h)))
theorem thru5_12 (b : Ref sig .tc) (hb : b ∉ U5_12) : W12 m ρ c (Proc.devRef .tc b) = W5 m ρ c (Proc.devRef .tc b) :=
  (step12 m ρ c b fun h => hb (List.mem_append.mpr (.inr h))).trans (thru5_11 m ρ c b fun h => hb (List.mem_append.mpr (.inl h)))
theorem thru5_13 (b : Ref sig .tc) (hb : b ∉ U5_13) : W13 m ρ c (Proc.devRef .tc b) = W5 m ρ c (Proc.devRef .tc b) :=
  (step13 m ρ c b fun h => hb (List.mem_append.mpr (.inr h))).trans (thru5_12 m ρ c b fun h => hb (List.mem_append.mpr (.inl h)))
theorem thru5_14 (b : Ref sig .tc) (hb : b ∉ U5_14) : W14 m ρ c (Proc.devRef .tc b) = W5 m ρ c (Proc.devRef .tc b) :=
  (step14 m ρ c b fun h => hb (List.mem_append.mpr (.inr h))).trans (thru5_13 m ρ c b fun h => hb (List.mem_append.mpr (.inl h)))
theorem thru5_15 (b : Ref sig .tc) (hb : b ∉ U5_15) : W15 m ρ c (Proc.devRef .tc b) = W5 m ρ c (Proc.devRef .tc b) :=
  (step15 m ρ c b fun h => hb (List.mem_append.mpr (.inr h))).trans (thru5_14 m ρ c b fun h => hb (List.mem_append.mpr (.inl h)))
theorem thru5_16 (b : Ref sig .tc) (hb : b ∉ U5_16) : W16 m ρ c (Proc.devRef .tc b) = W5 m ρ c (Proc.devRef .tc b) :=
  (step16 m ρ c b fun h => hb (List.mem_append.mpr (.inr h))).trans (thru5_15 m ρ c b fun h => hb (List.mem_append.mpr (.inl h)))
theorem thru5_17 (b : Ref sig .tc) (hb : b ∉ U5_17) : W17 m ρ c (Proc.devRef .tc b) = W5 m ρ c (Proc.devRef .tc b) :=
  (step17 m ρ c b fun h => hb (List.mem_append.mpr (.inr h))).trans (thru5_16 m ρ c b fun h => hb (List.mem_append.mpr (.inl h)))

abbrev U11_11 : List (Ref sig .tc) := []
abbrev U11_12 : List (Ref sig .tc) := U11_11 ++ T12
abbrev U11_13 : List (Ref sig .tc) := U11_12 ++ T13
abbrev U11_14 : List (Ref sig .tc) := U11_13 ++ T14
abbrev U11_15 : List (Ref sig .tc) := U11_14 ++ T15
abbrev U11_16 : List (Ref sig .tc) := U11_15 ++ T16
abbrev U11_17 : List (Ref sig .tc) := U11_16 ++ T17
abbrev U11_18 : List (Ref sig .tc) := U11_17 ++ T18
abbrev U11_19 : List (Ref sig .tc) := U11_18 ++ T19
theorem thru11_12 (b : Ref sig .tc) (hb : b ∉ U11_12) : W12 m ρ c (Proc.devRef .tc b) = W11 m ρ c (Proc.devRef .tc b) :=
  (step12 m ρ c b fun h => hb (List.mem_append.mpr (.inr h))).trans (rfl)
theorem thru11_13 (b : Ref sig .tc) (hb : b ∉ U11_13) : W13 m ρ c (Proc.devRef .tc b) = W11 m ρ c (Proc.devRef .tc b) :=
  (step13 m ρ c b fun h => hb (List.mem_append.mpr (.inr h))).trans (thru11_12 m ρ c b fun h => hb (List.mem_append.mpr (.inl h)))
theorem thru11_14 (b : Ref sig .tc) (hb : b ∉ U11_14) : W14 m ρ c (Proc.devRef .tc b) = W11 m ρ c (Proc.devRef .tc b) :=
  (step14 m ρ c b fun h => hb (List.mem_append.mpr (.inr h))).trans (thru11_13 m ρ c b fun h => hb (List.mem_append.mpr (.inl h)))
theorem thru11_15 (b : Ref sig .tc) (hb : b ∉ U11_15) : W15 m ρ c (Proc.devRef .tc b) = W11 m ρ c (Proc.devRef .tc b) :=
  (step15 m ρ c b fun h => hb (List.mem_append.mpr (.inr h))).trans (thru11_14 m ρ c b fun h => hb (List.mem_append.mpr (.inl h)))
theorem thru11_16 (b : Ref sig .tc) (hb : b ∉ U11_16) : W16 m ρ c (Proc.devRef .tc b) = W11 m ρ c (Proc.devRef .tc b) :=
  (step16 m ρ c b fun h => hb (List.mem_append.mpr (.inr h))).trans (thru11_15 m ρ c b fun h => hb (List.mem_append.mpr (.inl h)))
theorem thru11_17 (b : Ref sig .tc) (hb : b ∉ U11_17) : W17 m ρ c (Proc.devRef .tc b) = W11 m ρ c (Proc.devRef .tc b) :=
  (step17 m ρ c b fun h => hb (List.mem_append.mpr (.inr h))).trans (thru11_16 m ρ c b fun h => hb (List.mem_append.mpr (.inl h)))
theorem thru11_18 (b : Ref sig .tc) (hb : b ∉ U11_18) : W18 m ρ c (Proc.devRef .tc b) = W11 m ρ c (Proc.devRef .tc b) :=
  (step18 m ρ c b fun h => hb (List.mem_append.mpr (.inr h))).trans (thru11_17 m ρ c b fun h => hb (List.mem_append.mpr (.inl h)))
theorem thru11_19 (b : Ref sig .tc) (hb : b ∉ U11_19) : W19 m ρ c (Proc.devRef .tc b) = W11 m ρ c (Proc.devRef .tc b) :=
  (step19 m ρ c b fun h => hb (List.mem_append.mpr (.inr h))).trans (thru11_18 m ρ c b fun h => hb (List.mem_append.mpr (.inl h)))

abbrev U17_17 : List (Ref sig .tc) := []
abbrev U17_18 : List (Ref sig .tc) := U17_17 ++ T18
abbrev U17_19 : List (Ref sig .tc) := U17_18 ++ T19
abbrev U17_20 : List (Ref sig .tc) := U17_19 ++ T20
abbrev U17_21 : List (Ref sig .tc) := U17_20 ++ T21
theorem thru17_18 (b : Ref sig .tc) (hb : b ∉ U17_18) : W18 m ρ c (Proc.devRef .tc b) = W17 m ρ c (Proc.devRef .tc b) :=
  (step18 m ρ c b fun h => hb (List.mem_append.mpr (.inr h))).trans (rfl)
theorem thru17_19 (b : Ref sig .tc) (hb : b ∉ U17_19) : W19 m ρ c (Proc.devRef .tc b) = W17 m ρ c (Proc.devRef .tc b) :=
  (step19 m ρ c b fun h => hb (List.mem_append.mpr (.inr h))).trans (thru17_18 m ρ c b fun h => hb (List.mem_append.mpr (.inl h)))
theorem thru17_20 (b : Ref sig .tc) (hb : b ∉ U17_20) : W20 m ρ c (Proc.devRef .tc b) = W17 m ρ c (Proc.devRef .tc b) :=
  (step20 m ρ c b fun h => hb (List.mem_append.mpr (.inr h))).trans (thru17_19 m ρ c b fun h => hb (List.mem_append.mpr (.inl h)))
theorem thru17_21 (b : Ref sig .tc) (hb : b ∉ U17_21) : W21 m ρ c (Proc.devRef .tc b) = W17 m ρ c (Proc.devRef .tc b) :=
  (step21 m ρ c b fun h => hb (List.mem_append.mpr (.inr h))).trans (thru17_20 m ρ c b fun h => hb (List.mem_append.mpr (.inl h)))

abbrev U19_19 : List (Ref sig .tc) := []
abbrev U19_20 : List (Ref sig .tc) := U19_19 ++ T20
abbrev U19_21 : List (Ref sig .tc) := U19_20 ++ T21
abbrev U19_22 : List (Ref sig .tc) := U19_21 ++ T22
abbrev U19_23 : List (Ref sig .tc) := U19_22 ++ T23
theorem thru19_20 (b : Ref sig .tc) (hb : b ∉ U19_20) : W20 m ρ c (Proc.devRef .tc b) = W19 m ρ c (Proc.devRef .tc b) :=
  (step20 m ρ c b fun h => hb (List.mem_append.mpr (.inr h))).trans (rfl)
theorem thru19_21 (b : Ref sig .tc) (hb : b ∉ U19_21) : W21 m ρ c (Proc.devRef .tc b) = W19 m ρ c (Proc.devRef .tc b) :=
  (step21 m ρ c b fun h => hb (List.mem_append.mpr (.inr h))).trans (thru19_20 m ρ c b fun h => hb (List.mem_append.mpr (.inl h)))
theorem thru19_22 (b : Ref sig .tc) (hb : b ∉ U19_22) : W22 m ρ c (Proc.devRef .tc b) = W19 m ρ c (Proc.devRef .tc b) :=
  (step22 m ρ c b fun h => hb (List.mem_append.mpr (.inr h))).trans (thru19_21 m ρ c b fun h => hb (List.mem_append.mpr (.inl h)))
theorem thru19_23 (b : Ref sig .tc) (hb : b ∉ U19_23) : W23 m ρ c (Proc.devRef .tc b) = W19 m ρ c (Proc.devRef .tc b) :=
  (step23 m ρ c b fun h => hb (List.mem_append.mpr (.inr h))).trans (thru19_22 m ρ c b fun h => hb (List.mem_append.mpr (.inl h)))

abbrev U21_21 : List (Ref sig .tc) := []
abbrev U21_22 : List (Ref sig .tc) := U21_21 ++ T22
abbrev U21_23 : List (Ref sig .tc) := U21_22 ++ T23
theorem thru21_22 (b : Ref sig .tc) (hb : b ∉ U21_22) : W22 m ρ c (Proc.devRef .tc b) = W21 m ρ c (Proc.devRef .tc b) :=
  (step22 m ρ c b fun h => hb (List.mem_append.mpr (.inr h))).trans (rfl)
theorem thru21_23 (b : Ref sig .tc) (hb : b ∉ U21_23) : W23 m ρ c (Proc.devRef .tc b) = W21 m ρ c (Proc.devRef .tc b) :=
  (step23 m ρ c b fun h => hb (List.mem_append.mpr (.inr h))).trans (thru21_22 m ρ c b fun h => hb (List.mem_append.mpr (.inl h)))

/-- At the launch every buffer holds the launch memory. -/
theorem at0 (b : Ref sig .tc) : W0 m ρ c (Proc.devRef .tc b) = m ((c : Thread nD τ).loc b) := rfl

end Cert.KernelIdeal.Thru

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.LibRowReads.lean ====
/-
  Layout operations on parameter tables and weight matrices, read at an index, over literal shapes.

  * row `l` of an [R, C] table taken as a [C] vector (a one-row slice, then a reshape) at `j` is the table at (l, j);
  * slab `l` of an [R, K, C] stack taken as a [K, C] matrix at (k, j) is the stack at (l, k, j);
  * a [C] vector laid as a [1, C] row and broadcast down N rows reads, at (n, j), the vector at j; the same vector
    reshaped to a [1, C] row reads, at (0, j), the vector at j;
  * a scalar constant broadcast to any shape reads the constant's value everywhere;
  * two [K, C] matrices laid side by side as [K, C + C] read the left one at columns below C and the right one above;
  * a column band [0, C) or [C, C + C) of an [N, C + C] array read at (n, j).
  The side conditions of the operations are hypotheses, so the lemmas apply under any proofs of them.
-/
import Idealize.ShloMosaic.Lib.Pipeline.Value
import Idealize.ShloMosaic.Lib.ValueIdx
import Idealize.ShloMosaic.PureOps.Ideal

noncomputable section

namespace Cert.LibRowReads

open Idealize.ShloMosaic Idealize.ShloMosaic.ValueIdx

variable {α : Type}

/-- Row `l` of an [R, C] table, as a [C] vector, at `j`. -/
theorem row_read {R C : Nat} (l : Nat) (hl : l < R) (h : (⟨2, ![R, C]⟩ : Shape).Slices ![l, 0] ⟨2, ![1, C]⟩)
    (hc : (⟨2, ![1, C]⟩ : Shape).ShapeCasts ⟨1, ![C]⟩) (a : (⟨2, ![R, C]⟩ : Shape).Idx → α) (j : Fin C) :
    shapeCast ⟨1, ![C]⟩ (extractStridedSlice ⟨2, ![1, C]⟩ ![l, 0] a h) hc (ix1 j) = a (ix2 ⟨l, hl⟩ j) := by
  refine (shapeCast_apply _ hc (ix1 j) (ix2 (0 : Fin 1) j) ?_).trans ?_
  · rw [Shape.rowMajor_val_two, Shape.rowMajor_val_one]
    show 0 * C + j.val = j.val
    omega
  · refine extractStridedSlice_apply ![l, 0] a h (ix2 (0 : Fin 1) j) (ix2 ⟨l, hl⟩ j) (fun ax => ?_)
    match ax with
    | ⟨0, _⟩ => show l = l + 0; omega
    | ⟨1, _⟩ => show j.val = 0 + j.val; omega

/-- Slab `l` of an [R, K, C] stack, as a [K, C] matrix, at (k, j). -/
theorem slab_read {R K C : Nat} (l : Nat) (hl : l < R) (h : (⟨3, ![R, K, C]⟩ : Shape).Slices ![l, 0, 0] ⟨3, ![1, K, C]⟩)
    (hc : (⟨3, ![1, K, C]⟩ : Shape).ShapeCasts ⟨2, ![K, C]⟩) (a : (⟨3, ![R, K, C]⟩ : Shape).Idx → α) (k : Fin K) (j : Fin C) :
    shapeCast ⟨2, ![K, C]⟩ (extractStridedSlice ⟨3, ![1, K, C]⟩ ![l, 0, 0] a h) hc (ix2 k j) = a (ix3 ⟨l, hl⟩ k j) := by
  refine (shapeCast_apply _ hc (ix2 k j) (ix3 (0 : Fin 1) k j) ?_).trans ?_
  · rw [Shape.rowMajor_val_three, Shape.rowMajor_val_two]
    show (0 * K + k.val) * C + j.val = k.val * C + j.val
    simp
  · refine extractStridedSlice_apply ![l, 0, 0] a h (ix3 (0 : Fin 1) k j) (ix3 ⟨l, hl⟩ k j) (fun ax => ?_)
    match ax with
    | ⟨0, _⟩ => show l = l + 0; omega
    | ⟨1, _⟩ => show k.val = 0 + k.val; omega
    | ⟨2, _⟩ => show j.val = 0 + j.val; omega

/-- A [C] vector reshaped to a [1, C] row, at (0, j). -/
theorem asRow_read {C : Nat} (hc : (⟨1, ![C]⟩ : Shape).ShapeCasts ⟨2, ![1, C]⟩) (v : (⟨1, ![C]⟩ : Shape).Idx → α) (j : Fin C) :
    shapeCast ⟨2, ![1, C]⟩ v hc (ix2 (0 : Fin 1) j) = v (ix1 j) := by
  refine shapeCast_apply v hc (ix2 (0 : Fin 1) j) (ix1 j) ?_
  rw [Shape.rowMajor_val_two, Shape.rowMajor_val_one]
  show j.val = 0 * C + j.val
  omega

/-- A [C] vector broadcast down N rows (through a [1, C] row), at (n, j). -/
theorem down_read {N C : Nat} (hC : C ≠ 1) (h1 : (⟨1, ![C]⟩ : Shape).BroadcastsInDim ⟨2, ![1, C]⟩ ![1])
    (h2 : (⟨2, ![1, C]⟩ : Shape).BroadcastsInDim ⟨2, ![N, C]⟩ ![0, 1]) (v : (⟨1, ![C]⟩ : Shape).Idx → α) (n : Fin N) (j : Fin C) :
    broadcastInDim ⟨2, ![N, C]⟩ ![0, 1] h2 (broadcastInDim ⟨2, ![1, C]⟩ ![1] h1 v) (ix2 n j) = v (ix1 j) := by
  refine (broadcastInDim_apply ![0, 1] h2 _ (ix2 n j) (ix2 (0 : Fin 1) j) (fun ax => ?_)).trans ?_
  · match ax with
    | ⟨0, _⟩ => show (0 : Nat) = if (1 : Nat) = 1 then 0 else n.val; simp
    | ⟨1, _⟩ => show j.val = if C = 1 then 0 else j.val; rw [if_neg hC]
  · refine broadcastInDim_apply ![1] h1 v (ix2 (0 : Fin 1) j) (ix1 j) (fun ax => ?_)
    match ax with
    | ⟨0, _⟩ => show j.val = if C = 1 then 0 else j.val; rw [if_neg hC]

/-- A scalar broadcast to a shape reads the scalar everywhere. -/
theorem splat_read {t : Shape} (h : (⟨0, ![]⟩ : Shape).BroadcastsInDim t ![]) (v : (⟨0, ![]⟩ : Shape).Idx → α) (i : t.Idx) :
    broadcastInDim t ![] h v i = v ix0 :=
  broadcastInDim_apply ![] h v i ix0 (fun ax => ax.elim0)

/-- Two [K, C] matrices side by side, at a column of the left one. -/
theorem pair_left_read {K C : Nat} (h : Shape.Concatenates [(⟨2, ![K, C]⟩ : Shape), ⟨2, ![K, C]⟩] ⟨2, ![K, C + C]⟩ 1)
    (a b : (⟨2, ![K, C]⟩ : Shape).Idx → α) (k : Fin K) (j : Fin C) (hj : j.val < C + C) :
    concatenate ⟨2, ![K, C + C]⟩ 1 [⟨⟨2, ![K, C]⟩, a⟩, ⟨⟨2, ![K, C]⟩, b⟩] h (ix2 k ⟨j.val, hj⟩) = a (ix2 k j) := by
  refine concatenate_pair_apply_left 1 a b h (ix2 k ⟨j.val, hj⟩) rfl (ix2 k j) (fun ax => ?_)
  match ax with
  | ⟨0, _⟩ => rfl
  | ⟨1, _⟩ => rfl

/-- Two [K, C] matrices side by side, at a column of the right one. -/
theorem pair_right_read {K C : Nat} (h : Shape.Concatenates [(⟨2, ![K, C]⟩ : Shape), ⟨2, ![K, C]⟩] ⟨2, ![K, C + C]⟩ 1)
    (a b : (⟨2, ![K, C]⟩ : Shape).Idx → α) (k : Fin K) (j : Fin C) (hj : j.val + C < C + C) :
    concatenate ⟨2, ![K, C + C]⟩ 1 [⟨⟨2, ![K, C]⟩, a⟩, ⟨⟨2, ![K, C]⟩, b⟩] h (ix2 k ⟨j.val + C, hj⟩) = b (ix2 k j) := by
  refine concatenate_pair_apply_right 1 a b h (ix2 k ⟨j.val + C, hj⟩) rfl rfl (ix2 k j) (fun ax hne => ?_) ?_
  · match ax with
    | ⟨0, _⟩ => rfl
    | ⟨1, _⟩ => exact absurd rfl hne
  · rfl

/-- The left column band of an [N, C + C] array, at (n, j). -/
theorem band_left_read {N C : Nat} (h : (⟨2, ![N, C + C]⟩ : Shape).Slices ![0, 0] ⟨2, ![N, C]⟩)
    (x : (⟨2, ![N, C + C]⟩ : Shape).Idx → α) (n : Fin N) (j : Fin C) (hj : j.val < C + C) :
    extractStridedSlice ⟨2, ![N, C]⟩ ![0, 0] x h (ix2 n j) = x (ix2 n ⟨j.val, hj⟩) := by
  refine extractStridedSlice_apply ![0, 0] x h (ix2 n j) (ix2 n ⟨j.val, hj⟩) (fun ax => ?_)
  match ax with
  | ⟨0, _⟩ => show n.val = 0 + n.val; omega
  | ⟨1, _⟩ => show j.val = 0 + j.val; omega

/-- The right column band of an [N, C + C] array, at (n, j). -/
theorem band_right_read {N C : Nat} (h : (⟨2, ![N, C + C]⟩ : Shape).Slices ![0, C] ⟨2, ![N, C]⟩)
    (x : (⟨2, ![N, C + C]⟩ : Shape).Idx → α) (n : Fin N) (j : Fin C) (hj : j.val + C < C + C) :
    extractStridedSlice ⟨2, ![N, C]⟩ ![0, C] x h (ix2 n j) = x (ix2 n ⟨j.val + C, hj⟩) := by
  refine extractStridedSlice_apply ![0, C] x h (ix2 n j) (ix2 n ⟨j.val + C, hj⟩) (fun ax => ?_)
  match ax with
  | ⟨0, _⟩ => show n.val = 0 + n.val; omega
  | ⟨1, _⟩ => show j.val + C = C + j.val; omega

end Cert.LibRowReads

end
-- ==== Proof.LibDense.lean ====
/-
  A dense layer x · W + b, read one entry at a time, at the ideal values.

  Entry (p, q) of the layer is the sum over the contraction position k of x (p, k) · W (k, q), plus b (q). Two
  spellings of the layer are read here at (p, q) and shown to give that expression:
  * the on-chip one: both operands narrowed to bf16 (a change of format, so nothing at the ideal values), a plain
    matrix product accumulated into the zero splat, the bias vector reshaped to one row, laid over every row, and added;
  * the host one: a plain `dot_general`, the bias vector broadcast to one row and then down all the rows, and added.
  Entry (p, q) reads row p of x, column q of W and entry q of b and nothing else, so the layer computed on a block of
  rows of x is the same block of rows of the layer (`denseAt_congr`). Nothing of real arithmetic is used, so the
  statements hold at the infinities too.
-/
import proofs.«177944_j13331578487561_1_alg».proof.Proof.LibMatmulRows
import proofs.«177944_j13331578487561_1_alg».proof.Proof.LibRowReads

noncomputable section

open scoped BigOperators

namespace Cert.LibDense

open Idealize.ShloMosaic Idealize.ShloMosaic.ValueIdx

/-- Entry (p, q) of x · W + b: row p of x against column q of W, plus entry q of b. -/
def denseAt {M K N : Nat} (x : (⟨2, ![M, K]⟩ : Shape).Idx → EReal) (w : (⟨2, ![K, N]⟩ : Shape).Idx → EReal)
    (b : (⟨1, ![N]⟩ : Shape).Idx → EReal) (p : Fin M) (q : Fin N) : EReal :=
  (∑ k : Fin K, x (ix2 p k) * w (ix2 k q)) + b (ix1 q)

/-- The entry depends only on the row of x, the column of W and the entry of b it names: two triples of operands
    (the left ones possibly of different heights) that agree there give the same entry. -/
theorem denseAt_congr {M M' K N : Nat} {x : (⟨2, ![M, K]⟩ : Shape).Idx → EReal} {x' : (⟨2, ![M', K]⟩ : Shape).Idx → EReal}
    {w w' : (⟨2, ![K, N]⟩ : Shape).Idx → EReal} {b b' : (⟨1, ![N]⟩ : Shape).Idx → EReal} {p : Fin M} {p' : Fin M'} {q q' : Fin N}
    (hx : ∀ k : Fin K, x (ix2 p k) = x' (ix2 p' k)) (hw : ∀ k : Fin K, w (ix2 k q) = w' (ix2 k q'))
    (hb : b (ix1 q) = b' (ix1 q')) : denseAt x w b p q = denseAt x' w' b' p' q' := by
  unfold denseAt
  rw [hb]
  exact congrArg (· + b' (ix1 q')) (Finset.sum_congr rfl fun k _ => by rw [hx k, hw k])

/-- A [N] vector reshaped to one row and laid over M rows, at (p, q), is the vector at q. -/
theorem rowOver_read {M N : Nat} (hN : N ≠ 1) (hc : (⟨1, ![N]⟩ : Shape).ShapeCasts ⟨2, ![1, N]⟩)
    (hb : (⟨2, ![1, N]⟩ : Shape).Broadcasts ⟨2, ![M, N]⟩) (v : (⟨1, ![N]⟩ : Shape).Idx → EReal) (p : Fin M) (q : Fin N) :
    broadcastTo ⟨2, ![M, N]⟩ (shapeCast ⟨2, ![1, N]⟩ v hc) hb (ix2 p q) = v (ix1 q) := by
  refine (broadcastTo_apply _ hb (ix2 p q) (ix2 (0 : Fin 1) q) (fun a => ?_)).trans (Cert.LibRowReads.asRow_read hc v q)
  match a with
  | ⟨0, _⟩ => show (0 : Nat) = if (1 : Nat) = 1 then 0 else _; simp
  | ⟨1, _⟩ => show q.val = if N = 1 then 0 else q.val; rw [if_neg hN]

/-- The on-chip spelling of the layer, at (p, q). -/
theorem chip_dense_apply (M K N : Nat) (hN : N ≠ 1) (hlt : FTy.bits .bf16 < FTy.bits .f32)
    (hc : (⟨1, ![N]⟩ : Shape).ShapeCasts ⟨2, ![1, N]⟩) (hb : (⟨2, ![1, N]⟩ : Shape).Broadcasts ⟨2, ![M, N]⟩)
    (x : FVec Ideal ⟨2, ![M, K]⟩ .f32) (w : FVec Ideal ⟨2, ![K, N]⟩ .f32) (b : FVec Ideal ⟨1, ![N]⟩ .f32) (p : Fin M) (q : Fin N) :
    addf (matmul (DotDims.plain M K N) none (truncf .bf16 x hlt) (truncf .bf16 w hlt) (constant ⟨2, ![M, N]⟩ .f32 0x00000000#32))
        (broadcastTo ⟨2, ![M, N]⟩ (shapeCast ⟨2, ![1, N]⟩ b hc) hb) (ix2 p q)
      = denseAt x w b p q := by
  rw [addf_apply]
  unfold denseAt
  rw [rowOver_read hN hc hb b p q]
  exact congrArg (· + b (ix1 q)) (Cert.Bridge.matmul_plain_zero_apply M K N none (truncf .bf16 x hlt) (truncf .bf16 w hlt) p q)

/-- The host spelling of the layer, at (p, q). -/
theorem host_dense_apply (M K N : Nat) (hN : N ≠ 1) (h1 : (⟨1, ![N]⟩ : Shape).BroadcastsInDim ⟨2, ![1, N]⟩ ![1])
    (h2 : (⟨2, ![1, N]⟩ : Shape).BroadcastsInDim ⟨2, ![M, N]⟩ ![0, 1])
    (x : FVec Ideal ⟨2, ![M, K]⟩ .f32) (w : FVec Ideal ⟨2, ![K, N]⟩ .f32) (b : FVec Ideal ⟨1, ![N]⟩ .f32) (p : Fin M) (q : Fin N) :
    addf (Host.dotGeneral (DotDims.plain M K N) none x w)
        (broadcastInDim ⟨2, ![M, N]⟩ ![0, 1] h2 (broadcastInDim ⟨2, ![1, N]⟩ ![1] h1 b)) (ix2 p q)
      = denseAt x w b p q := by
  rw [addf_apply]
  unfold denseAt
  rw [Cert.LibRowReads.down_read hN h1 h2 b p q]
  exact congrArg (· + b (ix1 q)) (Cert.Bridge.dotGeneral_plain_apply M K N none .single x w p q)

end Cert.LibDense

end
-- ==== Proof.Region0.lean ====
/-
  The dense layer of the word features, [20000,128] · [128,128] + [128], computed on chip in ten steps: point t of the
  grid takes rows 2000·t … 2000·t + 1999 of x with the whole of W and b, and writes back the same rows of the result.
  Entry (i, q) of the layer reads row i of x only, so the ten blocks written back are the ten row blocks of the layer of the
  whole operands, and they cover the output.
-/
import proofs.«177944_j13331578487561_1_alg».proof.Proof.Spec
import proofs.«177944_j13331578487561_1_alg».proof.Proof.Gen.KernelIdeal.Frame
import proofs.«177944_j13331578487561_1_alg».proof.Proof.LibDense
import Idealize.ShloMosaic.PureOps.Ideal
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx Cert.LibDense

theorem zeros2_0 : (![0, 0] : Fin 2 → Nat) = fun _ => 0 := funext fun a => by fin_cases a <;> rfl
theorem zeros1_0 : (![0] : Fin 1 → Nat) = fun _ => 0 := funext fun a => by fin_cases a; rfl

/-- What the body stores, at (p, q): entry (p, q) of the layer of its three loaded blocks. -/
theorem pay0_at (x0 : Vec Ideal S2000x128 .f32) (x1 : Vec Ideal S128x128 .f32) (x2 : Vec Ideal S128 .f32) (p : Fin 2000) (q : Fin 128) :
    k0_pay1 x0 x1 x2 (ix2 p q) = denseAt x0 x1 x2 p q := by
  unfold k0_pay1
  rw [shapeCast_self]
  exact chip_dense_apply 2000 128 128 (by decide) _ _ _ x0 x1 x2 p q

/-- The host's layer, at (p, q). -/
theorem lin20000_at (x : FVec Ideal Cert.ReferenceIdeal.S20000x128 .f32) (w : FVec Ideal Cert.ReferenceIdeal.S128x128 .f32)
    (b : FVec Ideal Cert.ReferenceIdeal.S128 .f32) (p : Fin 20000) (q : Fin 128) :
    Cert.Spec.lin20000 (F := Ideal) x w b (ix2 p q) = denseAt x w b p q := by
  unfold Cert.Spec.lin20000
  exact host_dense_apply 20000 128 128 (by decide) _ _ x w b p q

/-- The two layers at a plain index. -/
theorem pay0_at' (x0 : Vec Ideal S2000x128 .f32) (x1 : Vec Ideal S128x128 .f32) (x2 : Vec Ideal S128 .f32) (y : S2000x128.Idx) :
    k0_pay1 x0 x1 x2 y = denseAt x0 x1 x2 (y 0) (y 1) :=
  (congrArg (k0_pay1 x0 x1 x2) (eq_ix2 y)).trans (pay0_at x0 x1 x2 (y 0) (y 1))

theorem lin20000_at' (x : FVec Ideal Cert.ReferenceIdeal.S20000x128 .f32) (w : FVec Ideal Cert.ReferenceIdeal.S128x128 .f32)
    (b : FVec Ideal Cert.ReferenceIdeal.S128 .f32) (i : Cert.ReferenceIdeal.S20000x128.Idx) :
    Cert.Spec.lin20000 (F := Ideal) x w b i = denseAt x w b (i 0) (i 1) :=
  (congrArg (Cert.Spec.lin20000 (F := Ideal) x w b) (eq_ix2 i)).trans (lin20000_at x w b (i 0) (i 1))

variable (V : (c : Dev nD) → (b : Ref sig .tc) → Buf (Elt Ideal) ((c : Thread nD τ).loc b)) (c : Dev nD)

/-- The layer of the operands as the region finds them, as contents of the output array. -/
abbrev whole0 : Buf (Elt Ideal) ((c : Thread nD τ).loc main_v14) :=
  Cert.Spec.lin20000 (F := Ideal) (V c main_v13) (V c main_arg24) (V c main_arg25)

/-- The printed index maps, decided over the grid: the left operand and the result move by blocks of 2000 rows with the
    point, the weights and the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the layer of the whole operands: entry (p, q) of the block's layer reads
    row p of the block of x, which is row 2000·t + p of x, the whole of W's column q and b's entry q. -/
theorem flushed0_eq (t : Fin cfg0.N) :
    (dat0 (F := Ideal) V c).flushed 3 t = ((cfg0.win 3).blk t).view.read (Elt Ideal) (whole0 V c) := by
  show (cfg0.win 3).cut (grid0.coords t) ((dat0 (F := Ideal) V c).after 3 t) = _
  rw [after0_3]
  unfold out0_3
  rw [View.canon_unit_zero (S := S2000x128) zeros2_0]
  simp only [View.ld_unit_zero (S := S2000x128) zeros2_0, View.ld_unit_zero (S := S128x128) zeros2_0, View.ld_unit_zero (S := S128) zeros1_0]
  funext y
  refine (pay0_at' (iblk0 V c 0 t) (iblk0 V c 1 t) (iblk0 V c 2 t) ((cfg0.win 3).xinj (grid0.coords t) y)).trans ?_
  refine Eq.trans ?_ (lin20000_at' (V c main_v13) (V c main_arg24) (V c main_arg25) (((cfg0.win 3).blk t).view.emb y)).symm
  obtain ⟨e00, e01, e10, e11, e20, e30, e31⟩ := idx_facts0 t
  refine denseAt_congr (fun k => ?_) (fun k => ?_) ?_
  · show V c main_v13 (((cfg0.win 0).blk t).view.emb (ix2 _ k)) = V c main_v13 (ix2 _ k)
    refine congrArg (V c main_v13) (funext fun a => Fin.ext ?_)
    match a with
    | ⟨0, _⟩ => show win0_0.index t (0 : Fin 2) * 2000 + 1 * (y 0).val = win0_3.index t (0 : Fin 2) * 2000 + 1 * (y 0).val; omega
    | ⟨1, _⟩ => show win0_0.index t (1 : Fin 2) * 128 + 1 * k.val = k.val; omega
  · show V c main_arg24 (((cfg0.win 1).blk t).view.emb (ix2 k _)) = V c main_arg24 (ix2 k _)
    refine congrArg (V c main_arg24) (funext fun a => Fin.ext ?_)
    match a with
    | ⟨0, _⟩ => show win0_1.index t (0 : Fin 2) * 128 + 1 * k.val = k.val; omega
    | ⟨1, _⟩ => show win0_1.index t (1 : Fin 2) * 128 + 1 * (y 1).val = win0_3.index t (1 : Fin 2) * 128 + 1 * (y 1).val; omega
  · show V c main_arg25 (((cfg0.win 2).blk t).view.emb (ix1 _)) = V c main_arg25 (ix1 _)
    refine congrArg (V c main_arg25) (funext fun a => Fin.ext ?_)
    match a with
    | ⟨0, _⟩ => show win0_2.index t (0 : Fin 1) * 128 + 1 * (y 1).val = win0_3.index t (1 : Fin 2) * 128 + 1 * (y 1).val; omega

/-- An index of the output array is in point `t`'s block iff each coordinate is in the block's range on its axis. -/
theorem mem_blk0 (t : Fin cfg0.N) (i : S20000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v14).slice (win0_3.rect t)).set ↔ _
  rw [View.set_slice_whole, Rect.mem_set_unit]
  exact Iff.rfl

/-- Row r of the output lies in the block of point r / 2000, so the blocks cover the array and it ends holding the layer
    of the whole operands. -/
theorem r0 : (dat0 (F := Ideal) V c).arrAt 3 cfg0.N = Cert.Spec.lin20000 (F := Ideal) (V c main_v13) (V c main_arg24) (V c main_arg25) :=
  (dat0 (F := Ideal) V c).arrAt_eq_of_cover 3 (whole0 V c) (fun t _ => flushed0_eq V c t) fun i => by
    have hi0 : (i 0).val < 20000 := (i 0).isLt
    have hi1 : (i 1).val < 128 := (i 1).isLt
    have hN : cfg0.N = 10 := N_0
    have ht : (i 0).val / 2000 < cfg0.N := by rw [hN]; omega
    refine ⟨⟨(i 0).val / 2000, ht⟩, flush0_3 _, ?_⟩
    rw [mem_blk0]
    obtain ⟨-, -, -, -, -, e30, e31⟩ := idx_facts0 ⟨(i 0).val / 2000, ht⟩
    intro a
    match a with
    | ⟨0, _⟩ =>
      show win0_3.index ⟨(i 0).val / 2000, ht⟩ (0 : Fin 2) * 2000 ≤ (i 0).val ∧ (i 0).val < win0_3.index ⟨(i 0).val / 2000, ht⟩ (0 : Fin 2) * 2000 + 2000
      rw [e30]; show (i 0).val / 2000 * 2000 ≤ (i 0).val ∧ (i 0).val < (i 0).val / 2000 * 2000 + 2000; omega
    | ⟨1, _⟩ =>
      show win0_3.index ⟨(i 0).val / 2000, ht⟩ (1 : Fin 2) * 128 ≤ (i 1).val ∧ (i 1).val < win0_3.index ⟨(i 0).val / 2000, ht⟩ (1 : Fin 2) * 128 + 128
      rw [e31]; omega

end Cert.KernelIdeal.Region

end
-- ==== Proof.Region1.lean ====
/-
  The dense layer of the entity features, [10000,128] · [128,128] + [128], computed on chip in five steps: point t of the
  grid takes rows 2000·t … 2000·t + 1999 of x with the whole of W and b, and writes back the same rows of the result.
  Entry (i, q) of the layer reads row i of x only, so the five blocks written back are the five row blocks of the layer of
  the whole operands, and they cover the output.
-/
import proofs.«177944_j13331578487561_1_alg».proof.Proof.Spec
import proofs.«177944_j13331578487561_1_alg».proof.Proof.Gen.KernelIdeal.Frame
import proofs.«177944_j13331578487561_1_alg».proof.Proof.LibDense
import Idealize.ShloMosaic.PureOps.Ideal
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx Cert.LibDense

theorem zeros2_1 : (![0, 0] : Fin 2 → Nat) = fun _ => 0 := funext fun a => by fin_cases a <;> rfl
theorem zeros1_1 : (![0] : Fin 1 → Nat) = fun _ => 0 := funext fun a => by fin_cases a; rfl

/-- What the body stores, at (p, q): entry (p, q) of the layer of its three loaded blocks. -/
theorem pay1_at (x0 : Vec Ideal S2000x128 .f32) (x1 : Vec Ideal S128x128 .f32) (x2 : Vec Ideal S128 .f32) (p : Fin 2000) (q : Fin 128) :
    k1_pay1 x0 x1 x2 (ix2 p q) = denseAt x0 x1 x2 p q := by
  unfold k1_pay1
  rw [shapeCast_self]
  exact chip_dense_apply 2000 128 128 (by decide) _ _ _ x0 x1 x2 p q

/-- The host's layer, at (p, q). -/
theorem lin10000_at (x : FVec Ideal Cert.ReferenceIdeal.S10000x128 .f32) (w : FVec Ideal Cert.ReferenceIdeal.S128x128 .f32)
    (b : FVec Ideal Cert.ReferenceIdeal.S128 .f32) (p : Fin 10000) (q : Fin 128) :
    Cert.Spec.lin10000 (F := Ideal) x w b (ix2 p q) = denseAt x w b p q := by
  unfold Cert.Spec.lin10000
  exact host_dense_apply 10000 128 128 (by decide) _ _ x w b p q

/-- The two layers at a plain index. -/
theorem pay1_at' (x0 : Vec Ideal S2000x128 .f32) (x1 : Vec Ideal S128x128 .f32) (x2 : Vec Ideal S128 .f32) (y : S2000x128.Idx) :
    k1_pay1 x0 x1 x2 y = denseAt x0 x1 x2 (y 0) (y 1) :=
  (congrArg (k1_pay1 x0 x1 x2) (eq_ix2 y)).trans (pay1_at x0 x1 x2 (y 0) (y 1))

theorem lin10000_at' (x : FVec Ideal Cert.ReferenceIdeal.S10000x128 .f32) (w : FVec Ideal Cert.ReferenceIdeal.S128x128 .f32)
    (b : FVec Ideal Cert.ReferenceIdeal.S128 .f32) (i : Cert.ReferenceIdeal.S10000x128.Idx) :
    Cert.Spec.lin10000 (F := Ideal) x w b i = denseAt x w b (i 0) (i 1) :=
  (congrArg (Cert.Spec.lin10000 (F := Ideal) x w b) (eq_ix2 i)).trans (lin10000_at x w b (i 0) (i 1))

variable (V : (c : Dev nD) → (b : Ref sig .tc) → Buf (Elt Ideal) ((c : Thread nD τ).loc b)) (c : Dev nD)

/-- The layer of the operands as the region finds them, as contents of the output array. -/
abbrev whole1 : Buf (Elt Ideal) ((c : Thread nD τ).loc main_v43) :=
  Cert.Spec.lin10000 (F := Ideal) (V c main_v42) (V c main_arg26) (V c main_arg27)

/-- The printed index maps, decided over the grid: the left operand and the result move by blocks of 2000 rows with the
    point, the weights and the bias stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- What point `t` writes back is block `t` of the layer of the whole operands: entry (p, q) of the block's layer reads
    row p of the block of x, which is row 2000·t + p of x, the whole of W's column q and b's entry q. -/
theorem flushed1_eq (t : Fin cfg1.N) :
    (dat1 (F := Ideal) V c).flushed 3 t = ((cfg1.win 3).blk t).view.read (Elt Ideal) (whole1 V c) := by
  show (cfg1.win 3).cut (grid1.coords t) ((dat1 (F := Ideal) V c).after 3 t) = _
  rw [after1_3]
  unfold out1_3
  rw [View.canon_unit_zero (S := S2000x128) zeros2_1]
  simp only [View.ld_unit_zero (S := S2000x128) zeros2_1, View.ld_unit_zero (S := S128x128) zeros2_1, View.ld_unit_zero (S := S128) zeros1_1]
  funext y
  refine (pay1_at' (iblk1 V c 0 t) (iblk1 V c 1 t) (iblk1 V c 2 t) ((cfg1.win 3).xinj (grid1.coords t) y)).trans ?_
  refine Eq.trans ?_ (lin10000_at' (V c main_v42) (V c main_arg26) (V c main_arg27) (((cfg1.win 3).blk t).view.emb y)).symm
  obtain ⟨e00, e01, e10, e11, e20, e30, e31⟩ := idx_facts1 t
  refine denseAt_congr (fun k => ?_) (fun k => ?_) ?_
  · show V c main_v42 (((cfg1.win 0).blk t).view.emb (ix2 _ k)) = V c main_v42 (ix2 _ k)
    refine congrArg (V c main_v42) (funext fun a => Fin.ext ?_)
    match a with
    | ⟨0, _⟩ => show win1_0.index t (0 : Fin 2) * 2000 + 1 * (y 0).val = win1_3.index t (0 : Fin 2) * 2000 + 1 * (y 0).val; omega
    | ⟨1, _⟩ => show win1_0.index t (1 : Fin 2) * 128 + 1 * k.val = k.val; omega
  · show V c main_arg26 (((cfg1.win 1).blk t).view.emb (ix2 k _)) = V c main_arg26 (ix2 k _)
    refine congrArg (V c main_arg26) (funext fun a => Fin.ext ?_)
    match a with
    | ⟨0, _⟩ => show win1_1.index t (0 : Fin 2) * 128 + 1 * k.val = k.val; omega
    | ⟨1, _⟩ => show win1_1.index t (1 : Fin 2) * 128 + 1 * (y 1).val = win1_3.index t (1 : Fin 2) * 128 + 1 * (y 1).val; omega
  · show V c main_arg27 (((cfg1.win 2).blk t).view.emb (ix1 _)) = V c main_arg27 (ix1 _)
    refine congrArg (V c main_arg27) (funext fun a => Fin.ext ?_)
    match a with
    | ⟨0, _⟩ => show win1_2.index t (0 : Fin 1) * 128 + 1 * (y 1).val = win1_3.index t (1 : Fin 2) * 128 + 1 * (y 1).val; omega

/-- An index of the output array is in point `t`'s block iff each coordinate is in the block's range on its axis. -/
theorem mem_blk1 (t : Fin cfg1.N) (i : S10000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v43).slice (win1_3.rect t)).set ↔ _
  rw [View.set_slice_whole, Rect.mem_set_unit]
  exact Iff.rfl

/-- Row r of the output lies in the block of point r / 2000, so the blocks cover the array and it ends holding the layer
    of the whole operands. -/
theorem r1 : (dat1 (F := Ideal) V c).arrAt 3 cfg1.N = Cert.Spec.lin10000 (F := Ideal) (V c main_v42) (V c main_arg26) (V c main_arg27) :=
  (dat1 (F := Ideal) V c).arrAt_eq_of_cover 3 (whole1 V c) (fun t _ => flushed1_eq V c t) fun i => by
    have hi0 : (i 0).val < 10000 := (i 0).isLt
    have hi1 : (i 1).val < 128 := (i 1).isLt
    have hN : cfg1.N = 5 := N_1
    have ht : (i 0).val / 2000 < cfg1.N := by rw [hN]; omega
    refine ⟨⟨(i 0).val / 2000, ht⟩, flush1_3 _, ?_⟩
    rw [mem_blk1]
    obtain ⟨-, -, -, -, -, e30, e31⟩ := idx_facts1 ⟨(i 0).val / 2000, ht⟩
    intro a
    match a with
    | ⟨0, _⟩ =>
      show win1_3.index ⟨(i 0).val / 2000, ht⟩ (0 : Fin 2) * 2000 ≤ (i 0).val ∧ (i 0).val < win1_3.index ⟨(i 0).val / 2000, ht⟩ (0 : Fin 2) * 2000 + 2000
      rw [e30]; show (i 0).val / 2000 * 2000 ≤ (i 0).val ∧ (i 0).val < (i 0).val / 2000 * 2000 + 2000; omega
    | ⟨1, _⟩ =>
      show win1_3.index ⟨(i 0).val / 2000, ht⟩ (1 : Fin 2) * 128 ≤ (i 1).val ∧ (i 1).val < win1_3.index ⟨(i 0).val / 2000, ht⟩ (1 : Fin 2) * 128 + 128
      rw [e31]; omega

end Cert.KernelIdeal.Region

end
-- ==== Proof.Region2.lean ====
/-
  The first dense layer of the tag features, [60,60] · [60,128] + [128], computed on chip in one step: the region has a
  single grid point whose blocks are the whole arrays, so what it writes back is the layer of the whole operands.
-/
import proofs.«177944_j13331578487561_1_alg».proof.Proof.Spec
import proofs.«177944_j13331578487561_1_alg».proof.Proof.Gen.KernelIdeal.Frame
import proofs.«177944_j13331578487561_1_alg».proof.Proof.LibDense
import Idealize.ShloMosaic.PureOps.Ideal
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx Cert.LibDense

theorem zeros2_2 : (![0, 0] : Fin 2 → Nat) = fun _ => 0 := funext fun a => by fin_cases a <;> rfl
theorem zeros1_2 : (![0] : Fin 1 → Nat) = fun _ => 0 := funext fun a => by fin_cases a; rfl

/-- What the body stores, at (p, q): entry (p, q) of the layer of its three loaded blocks. -/
theorem pay2_at (x0 : Vec Ideal S60x60 .f32) (x1 : Vec Ideal S60x128 .f32) (x2 : Vec Ideal S128 .f32) (p : Fin 60) (q : Fin 128) :
    k2_pay1 x0 x1 x2 (ix2 p q) = denseAt x0 x1 x2 p q := by
  unfold k2_pay1
  exact chip_dense_apply 60 60 128 (by decide) _ _ _ x0 x1 x2 p q

/-- The host's layer, at (p, q). -/
theorem lin60a_at (x : FVec Ideal Cert.ReferenceIdeal.S60x60 .f32) (w : FVec Ideal Cert.ReferenceIdeal.S60x128 .f32)
    (b : FVec Ideal Cert.ReferenceIdeal.S128 .f32) (p : Fin 60) (q : Fin 128) :
    Cert.Spec.lin60a (F := Ideal) x w b (ix2 p q) = denseAt x w b p q := by
  unfold Cert.Spec.lin60a
  exact host_dense_apply 60 60 128 (by decide) _ _ x w b p q

/-- The two layers at a plain index. -/
theorem pay2_at' (x0 : Vec Ideal S60x60 .f32) (x1 : Vec Ideal S60x128 .f32) (x2 : Vec Ideal S128 .f32) (y : S60x128.Idx) :
    k2_pay1 x0 x1 x2 y = denseAt x0 x1 x2 (y 0) (y 1) :=
  (congrArg (k2_pay1 x0 x1 x2) (eq_ix2 y)).trans (pay2_at x0 x1 x2 (y 0) (y 1))

theorem lin60a_at' (x : FVec Ideal Cert.ReferenceIdeal.S60x60 .f32) (w : FVec Ideal Cert.ReferenceIdeal.S60x128 .f32)
    (b : FVec Ideal Cert.ReferenceIdeal.S128 .f32) (i : Cert.ReferenceIdeal.S60x128.Idx) :
    Cert.Spec.lin60a (F := Ideal) x w b i = denseAt x w b (i 0) (i 1) :=
  (congrArg (Cert.Spec.lin60a (F := Ideal) x w b) (eq_ix2 i)).trans (lin60a_at x w b (i 0) (i 1))

variable (V : (c : Dev nD) → (b : Ref sig .tc) → Buf (Elt Ideal) ((c : Thread nD τ).loc b)) (c : Dev nD)

/-- The layer of the operands as the region finds them, as contents of the output array. -/
abbrev whole2 : Buf (Elt Ideal) ((c : Thread nD τ).loc main_v59) :=
  Cert.Spec.lin60a (F := Ideal) (V c main_arg2) (V c main_arg22) (V c main_arg23)

/-- The printed index maps, decided over the grid: the left operand and the result move by blocks of 60 rows with the
    point, the weights and the bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

/-- What point `t` writes back is block `t` of the layer of the whole operands: entry (p, q) of the block's layer reads
    row p of the block of x, which is row 60·t + p of x, the whole of W's column q and b's entry q. -/
theorem flushed2_eq (t : Fin cfg2.N) :
    (dat2 (F := Ideal) V c).flushed 3 t = ((cfg2.win 3).blk t).view.read (Elt Ideal) (whole2 V c) := by
  show (cfg2.win 3).cut (grid2.coords t) ((dat2 (F := Ideal) V c).after 3 t) = _
  rw [after2_3]
  unfold out2_3
  rw [View.canon_unit_zero (S := S60x128) zeros2_2]
  simp only [View.ld_unit_zero (S := S60x60) zeros2_2, View.ld_unit_zero (S := S60x128) zeros2_2, View.ld_unit_zero (S := S128) zeros1_2]
  funext y
  refine (pay2_at' (iblk2 V c 0 t) (iblk2 V c 1 t) (iblk2 V c 2 t) ((cfg2.win 3).xinj (grid2.coords t) y)).trans ?_
  refine Eq.trans ?_ (lin60a_at' (V c main_arg2) (V c main_arg22) (V c main_arg23) (((cfg2.win 3).blk t).view.emb y)).symm
  obtain ⟨e00, e01, e10, e11, e20, e30, e31⟩ := idx_facts2 t
  refine denseAt_congr (fun k => ?_) (fun k => ?_) ?_
  · show V c main_arg2 (((cfg2.win 0).blk t).view.emb (ix2 _ k)) = V c main_arg2 (ix2 _ k)
    refine congrArg (V c main_arg2) (funext fun a => Fin.ext ?_)
    match a with
    | ⟨0, _⟩ => show win2_0.index t (0 : Fin 2) * 60 + 1 * (y 0).val = win2_3.index t (0 : Fin 2) * 60 + 1 * (y 0).val; omega
    | ⟨1, _⟩ => show win2_0.index t (1 : Fin 2) * 60 + 1 * k.val = k.val; omega
  · show V c main_arg22 (((cfg2.win 1).blk t).view.emb (ix2 k _)) = V c main_arg22 (ix2 k _)
    refine congrArg (V c main_arg22) (funext fun a => Fin.ext ?_)
    match a with
    | ⟨0, _⟩ => show win2_1.index t (0 : Fin 2) * 60 + 1 * k.val = k.val; omega
    | ⟨1, _⟩ => show win2_1.index t (1 : Fin 2) * 128 + 1 * (y 1).val = win2_3.index t (1 : Fin 2) * 128 + 1 * (y 1).val; omega
  · show V c main_arg23 (((cfg2.win 2).blk t).view.emb (ix1 _)) = V c main_arg23 (ix1 _)
    refine congrArg (V c main_arg23) (funext fun a => Fin.ext ?_)
    match a with
    | ⟨0, _⟩ => show win2_2.index t (0 : Fin 1) * 128 + 1 * (y 1).val = win2_3.index t (1 : Fin 2) * 128 + 1 * (y 1).val; omega

/-- An index of the output array is in point `t`'s block iff each coordinate is in the block's range on its axis. -/
theorem mem_blk2 (t : Fin cfg2.N) (i : S60x128.Idx) :
    i ∈ ((cfg2.win 3).blk t).view.set ↔ ∀ a : Fin 2, win2_3.index t a * S60x128.size a ≤ (i a).val ∧ (i a).val < win2_3.index t a * S60x128.size a + S60x128.size a := by
  show i ∈ ((View.whole main_v59).slice (win2_3.rect t)).set ↔ _
  rw [View.set_slice_whole, Rect.mem_set_unit]
  exact Iff.rfl

/-- Row r of the output lies in the block of point r / 60, so the blocks cover the array and it ends holding the layer
    of the whole operands. -/
theorem r2 : (dat2 (F := Ideal) V c).arrAt 3 cfg2.N = Cert.Spec.lin60a (F := Ideal) (V c main_arg2) (V c main_arg22) (V c main_arg23) :=
  (dat2 (F := Ideal) V c).arrAt_eq_of_cover 3 (whole2 V c) (fun t _ => flushed2_eq V c t) fun i => by
    have hi0 : (i 0).val < 60 := (i 0).isLt
    have hi1 : (i 1).val < 128 := (i 1).isLt
    have hN : cfg2.N = 1 := N_2
    have ht : (i 0).val / 60 < cfg2.N := by rw [hN]; omega
    refine ⟨⟨(i 0).val / 60, ht⟩, flush2_3 _, ?_⟩
    rw [mem_blk2]
    obtain ⟨-, -, -, -, -, e30, e31⟩ := idx_facts2 ⟨(i 0).val / 60, ht⟩
    intro a
    match a with
    | ⟨0, _⟩ =>
      show win2_3.index ⟨(i 0).val / 60, ht⟩ (0 : Fin 2) * 60 ≤ (i 0).val ∧ (i 0).val < win2_3.index ⟨(i 0).val / 60, ht⟩ (0 : Fin 2) * 60 + 60
      rw [e30]; show (i 0).val / 60 * 60 ≤ (i 0).val ∧ (i 0).val < (i 0).val / 60 * 60 + 60; omega
    | ⟨1, _⟩ =>
      show win2_3.index ⟨(i 0).val / 60, ht⟩ (1 : Fin 2) * 128 ≤ (i 1).val ∧ (i 1).val < win2_3.index ⟨(i 0).val / 60, ht⟩ (1 : Fin 2) * 128 + 128
      rw [e31]; omega

end Cert.KernelIdeal.Region

end
-- ==== Proof.Region3.lean ====
/-
  The second dense layer of the tag features, [60,128] · [128,128] + [128], computed on chip in one step: the region has
  a single grid point whose blocks are the whole arrays, so what it writes back is the layer of the whole operands.
-/
import proofs.«177944_j13331578487561_1_alg».proof.Proof.Spec
import proofs.«177944_j13331578487561_1_alg».proof.Proof.Gen.KernelIdeal.Frame
import proofs.«177944_j13331578487561_1_alg».proof.Proof.LibDense
import Idealize.ShloMosaic.PureOps.Ideal
import Idealize.ShloMosaic.Lib.Pipeline.Value

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx Cert.LibDense

theorem zeros2_3 : (![0, 0] : Fin 2 → Nat) = fun _ => 0 := funext fun a => by fin_cases a <;> rfl
theorem zeros1_3 : (![0] : Fin 1 → Nat) = fun _ => 0 := funext fun a => by fin_cases a; rfl

/-- What the body stores, at (p, q): entry (p, q) of the layer of its three loaded blocks. -/
theorem pay3_at (x0 : Vec Ideal S60x128 .f32) (x1 : Vec Ideal S128x128 .f32) (x2 : Vec Ideal S128 .f32) (p : Fin 60) (q : Fin 128) :
    k3_pay1 x0 x1 x2 (ix2 p q) = denseAt x0 x1 x2 p q := by
  unfold k3_pay1
  rw [shapeCast_self]
  exact chip_dense_apply 60 128 128 (by decide) _ _ _ x0 x1 x2 p q

/-- The host's layer, at (p, q). -/
theorem lin60b_at (x : FVec Ideal Cert.ReferenceIdeal.S60x128 .f32) (w : FVec Ideal Cert.ReferenceIdeal.S128x128 .f32)
    (b : FVec Ideal Cert.ReferenceIdeal.S128 .f32) (p : Fin 60) (q : Fin 128) :
    Cert.Spec.lin60b (F := Ideal) x w b (ix2 p q) = denseAt x w b p q := by
  unfold Cert.Spec.lin60b
  exact host_dense_apply 60 128 128 (by decide) _ _ x w b p q

/-- The two layers at a plain index. -/
theorem pay3_at' (x0 : Vec Ideal S60x128 .f32) (x1 : Vec Ideal S128x128 .f32) (x2 : Vec Ideal S128 .f32) (y : S60x128.Idx) :
    k3_pay1 x0 x1 x2 y = denseAt x0 x1 x2 (y 0) (y 1) :=
  (congrArg (k3_pay1 x0 x1 x2) (eq_ix2 y)).trans (pay3_at x0 x1 x2 (y 0) (y 1))

theorem lin60b_at' (x : FVec Ideal Cert.ReferenceIdeal.S60x128 .f32) (w : FVec Ideal Cert.ReferenceIdeal.S128x128 .f32)
    (b : FVec Ideal Cert.ReferenceIdeal.S128 .f32) (i : Cert.ReferenceIdeal.S60x128.Idx) :
    Cert.Spec.lin60b (F := Ideal) x w b i = denseAt x w b (i 0) (i 1) :=
  (congrArg (Cert.Spec.lin60b (F := Ideal) x w b) (eq_ix2 i)).trans (lin60b_at x w b (i 0) (i 1))

variable (V : (c : Dev nD) → (b : Ref sig .tc) → Buf (Elt Ideal) ((c : Thread nD τ).loc b)) (c : Dev nD)

/-- The layer of the operands as the region finds them, as contents of the output array. -/
abbrev whole3 : Buf (Elt Ideal) ((c : Thread nD τ).loc main_v74) :=
  Cert.Spec.lin60b (F := Ideal) (V c main_v73) (V c main_arg28) (V c main_arg29)

/-- The printed index maps, decided over the grid: the left operand and the result move by blocks of 60 rows with the
    point, the weights and the bias stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0 ∧ win3_2.index t (0 : Fin 1) = 0
    ∧ win3_3.index t (0 : Fin 2) = t.val ∧ win3_3.index t (1 : Fin 2) = 0 :=
  (by decide +kernel : ∀ t : Fin grid3.N, _)

/-- What point `t` writes back is block `t` of the layer of the whole operands: entry (p, q) of the block's layer reads
    row p of the block of x, which is row 60·t + p of x, the whole of W's column q and b's entry q. -/
theorem flushed3_eq (t : Fin cfg3.N) :
    (dat3 (F := Ideal) V c).flushed 3 t = ((cfg3.win 3).blk t).view.read (Elt Ideal) (whole3 V c) := by
  show (cfg3.win 3).cut (grid3.coords t) ((dat3 (F := Ideal) V c).after 3 t) = _
  rw [after3_3]
  unfold out3_3
  rw [View.canon_unit_zero (S := S60x128) zeros2_3]
  simp only [View.ld_unit_zero (S := S60x128) zeros2_3, View.ld_unit_zero (S := S128x128) zeros2_3, View.ld_unit_zero (S := S128) zeros1_3]
  funext y
  refine (pay3_at' (iblk3 V c 0 t) (iblk3 V c 1 t) (iblk3 V c 2 t) ((cfg3.win 3).xinj (grid3.coords t) y)).trans ?_
  refine Eq.trans ?_ (lin60b_at' (V c main_v73) (V c main_arg28) (V c main_arg29) (((cfg3.win 3).blk t).view.emb y)).symm
  obtain ⟨e00, e01, e10, e11, e20, e30, e31⟩ := idx_facts3 t
  refine denseAt_congr (fun k => ?_) (fun k => ?_) ?_
  · show V c main_v73 (((cfg3.win 0).blk t).view.emb (ix2 _ k)) = V c main_v73 (ix2 _ k)
    refine congrArg (V c main_v73) (funext fun a => Fin.ext ?_)
    match a with
    | ⟨0, _⟩ => show win3_0.index t (0 : Fin 2) * 60 + 1 * (y 0).val = win3_3.index t (0 : Fin 2) * 60 + 1 * (y 0).val; omega
    | ⟨1, _⟩ => show win3_0.index t (1 : Fin 2) * 128 + 1 * k.val = k.val; omega
  · show V c main_arg28 (((cfg3.win 1).blk t).view.emb (ix2 k _)) = V c main_arg28 (ix2 k _)
    refine congrArg (V c main_arg28) (funext fun a => Fin.ext ?_)
    match a with
    | ⟨0, _⟩ => show win3_1.index t (0 : Fin 2) * 128 + 1 * k.val = k.val; omega
    | ⟨1, _⟩ => show win3_1.index t (1 : Fin 2) * 128 + 1 * (y 1).val = win3_3.index t (1 : Fin 2) * 128 + 1 * (y 1).val; omega
  · show V c main_arg29 (((cfg3.win 2).blk t).view.emb (ix1 _)) = V c main_arg29 (ix1 _)
    refine congrArg (V c main_arg29) (funext fun a => Fin.ext ?_)
    match a with
    | ⟨0, _⟩ => show win3_2.index t (0 : Fin 1) * 128 + 1 * (y 1).val = win3_3.index t (1 : Fin 2) * 128 + 1 * (y 1).val; omega

/-- An index of the output array is in point `t`'s block iff each coordinate is in the block's range on its axis. -/
theorem mem_blk3 (t : Fin cfg3.N) (i : S60x128.Idx) :
    i ∈ ((cfg3.win 3).blk t).view.set ↔ ∀ a : Fin 2, win3_3.index t a * S60x128.size a ≤ (i a).val ∧ (i a).val < win3_3.index t a * S60x128.size a + S60x128.size a := by
  show i ∈ ((View.whole main_v74).slice (win3_3.rect t)).set ↔ _
  rw [View.set_slice_whole, Rect.mem_set_unit]
  exact Iff.rfl

/-- Row r of the output lies in the block of point r / 60, so the blocks cover the array and it ends holding the layer
    of the whole operands. -/
theorem r3 : (dat3 (F := Ideal) V c).arrAt 3 cfg3.N = Cert.Spec.lin60b (F := Ideal) (V c main_v73) (V c main_arg28) (V c main_arg29) :=
  (dat3 (F := Ideal) V c).arrAt_eq_of_cover 3 (whole3 V c) (fun t _ => flushed3_eq V c t) fun i => by
    have hi0 : (i 0).val < 60 := (i 0).isLt
    have hi1 : (i 1).val < 128 := (i 1).isLt
    have hN : cfg3.N = 1 := N_3
    have ht : (i 0).val / 60 < cfg3.N := by rw [hN]; omega
    refine ⟨⟨(i 0).val / 60, ht⟩, flush3_3 _, ?_⟩
    rw [mem_blk3]
    obtain ⟨-, -, -, -, -, e30, e31⟩ := idx_facts3 ⟨(i 0).val / 60, ht⟩
    intro a
    match a with
    | ⟨0, _⟩ =>
      show win3_3.index ⟨(i 0).val / 60, ht⟩ (0 : Fin 2) * 60 ≤ (i 0).val ∧ (i 0).val < win3_3.index ⟨(i 0).val / 60, ht⟩ (0 : Fin 2) * 60 + 60
      rw [e30]; show (i 0).val / 60 * 60 ≤ (i 0).val ∧ (i 0).val < (i 0).val / 60 * 60 + 60; omega
    | ⟨1, _⟩ =>
      show win3_3.index ⟨(i 0).val / 60, ht⟩ (1 : Fin 2) * 128 ≤ (i 1).val ∧ (i 1).val < win3_3.index ⟨(i 0).val / 60, ht⟩ (1 : Fin 2) * 128 + 128
      rw [e31]; omega

end Cert.KernelIdeal.Region

end
-- ==== Proof.LibKeepdims.lean ====
/-
  Two layout operations read at an index given by coordinates: the "keepdims" column forms.

  A reduction along the lanes of an [a, b] array that keeps the reduced axis as a unit axis is, in vector
  operations, a reduction to [a], a shape cast of the [a] result to the column [a, 1], and a broadcast of the
  column [a, 1] back over the lanes to [a, b].  The cast does not move data: in row-major order entry (i, 0) of
  the column is entry i of the vector.  The broadcast repeats a row's one entry along the row: entry (p, c) of
  the result is entry (p, 0) of the column.  Both are stated for any element type and any extents.
-/
import Idealize.ShloMosaic.Lib.ValueIdx
import Idealize.ShloMosaic.Lib.Pipeline.Value

namespace Cert.Lib.Keepdims

open Idealize.ShloMosaic Idealize.ShloMosaic.ValueIdx

variable {α : Type}

/-- An \`[a]\` array cast to the column \`[a, 1]\` reads, at \`(i, u)\`, the operand at \`i\`, whatever the unit
    coordinate \`u\`: the row-major position of \`(i, u)\` in \`[a, 1]\` is \`i · 1 + 0 = i\`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column \`[a, 1]\` broadcast over the lanes to \`[a, b]\` reads, at \`(p, c)\`, the column's one entry of row \`p\`:
    the unit axis is read at \`0\`, the row axis at \`p\` (also when \`a = 1\`, where \`p = 0\`). -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibRowNorm.lean ====
/-
  Row normalisation read at an index.

  Every row of an [a, b] array is divided by its Euclidean norm plus a small constant ε: entry (i, q) of the
  result is  x(i, q) / (√(Σ_k x(i, k) · x(i, k)) + ε),  the sum over the b entries of row i.  Over the extended
  reals this is one function of the row, named here `rowNorm`.  Two spellings of it are read at an index:

  * the vector spelling: square, sum along the lanes into an [a] vector (the accumulator starts at the neutral
    word, which contributes nothing), recast as the column [a, 1], take the square root, add the ε splat, lay the
    column back over the lanes, divide;
  * the array spelling: square, reduce axis 1 from the initial value 0 (which is the extended real 0, so it
    drops out of the sum), lay the [a] result out as the column [a, 1], take the square root, add ε laid over
    the column, lay the column over the lanes, divide.

  Both come out as `rowNorm` of the same row, with the same word for ε, which is never evaluated.  A last lemma
  says `rowNorm` of a row of a block is `rowNorm` of the row of the array the block was cut from.
-/
import Idealize.ShloMosaic.PureOps.Ideal
import Idealize.ShloMosaic.PureOps.Ideal.Laws
import Idealize.ShloMosaic.Lib.ValueIdx
import Idealize.ShloMosaic.Lib.Pipeline.Value
import proofs.«177944_j13331578487561_1_alg».proof.Proof.LibKeepdims

noncomputable section

open scoped BigOperators

namespace Cert.Lib.RowNorm

open Idealize.ShloMosaic Idealize.ShloMosaic.ValueIdx

/-- Entry (i, q) of the row-normalised array: the entry divided by (the square root of the row's sum of squares,
    plus ε). -/
def rowNorm {a b : ℕ} (ε : EReal) (x : (⟨2, ![a, b]⟩ : Shape).Idx → EReal) (i : Fin a) (q : Fin b) : EReal :=
  Ideal.div (x (ix2 i q)) (Ideal.sqrt (∑ k : Fin b, x (ix2 i k) * x (ix2 i k)) + ε)

/-- The index of an [a, b] array over row i of the reduced [a] vector, with k inserted on the reduced axis, is
    (i, k). -/
theorem lift_row {a b : ℕ} (h : (⟨2, ![a, b]⟩ : Shape).Reduces [1] ⟨1, ![a]⟩) (i : Fin a) (k : Fin b) :
    h.lift (ix1 i) k = ix2 i k := by
  funext c
  apply Fin.ext
  match c with
  | ⟨0, _⟩ => rfl
  | ⟨1, _⟩ => rfl

/-- The vector spelling at (p, q) is `rowNorm` of the operand. -/
theorem vector_apply {a b : ℕ} (w : BitVec 32) (v0 : FVec Ideal ⟨2, ![a, b]⟩ .f32)
    (hc : (⟨2, ![a, b]⟩ : Shape).ShapeCasts ⟨2, ![a, b]⟩)
    (hr : (⟨2, ![a, b]⟩ : Shape).Reduces [1] ⟨1, ![a]⟩)
    (hφ : FKind.Formats .f32) (hacc : (0x00000000#32 : BitVec 32) = FKind.add.neutral .f32 hφ)
    (hc1 : (⟨1, ![a]⟩ : Shape).ShapeCasts ⟨2, ![a, 1]⟩)
    (hb : (⟨2, ![a, 1]⟩ : Shape).Broadcasts ⟨2, ![a, b]⟩)
    (p : Fin a) (q : Fin b) :
    divf (shapeCast ⟨2, ![a, b]⟩ v0 hc)
      (broadcastTo ⟨2, ![a, b]⟩
        (addf (sqrt (shapeCast ⟨2, ![a, 1]⟩
            (multiReduction .add [1] ⟨1, ![a]⟩
              (mulf (shapeCast ⟨2, ![a, b]⟩ v0 hc) (shapeCast ⟨2, ![a, b]⟩ v0 hc)) 0x00000000#32 hr hφ hacc) hc1))
          (broadcast ⟨2, ![a, 1]⟩ (Scalar.ofBits (F := Ideal) .f32 w))) hb) (ix2 p q)
      = rowNorm (Ideal.ofBits .f32 w) v0 p q := by
  rw [shapeCast_self]
  refine (divf_apply _ _ _).trans ?_
  unfold rowNorm
  refine congrArg (Ideal.div (v0 (ix2 p q))) ?_
  refine (Cert.Lib.Keepdims.broadcastTo_a1_ab_apply _ hb p q).trans ?_
  refine (addf_apply _ _ _).trans ?_
  refine congrArg₂ (· + ·) ?_ rfl
  show Ideal.sqrt (shapeCast ⟨2, ![a, 1]⟩ _ hc1 (ix2 p (0 : Fin 1))) = _
  refine congrArg Ideal.sqrt ?_
  refine (Cert.Lib.Keepdims.shapeCast_a_a1_apply _ hc1 p 0).trans ?_
  refine (Ideal.multiReduction_add_single _ _ hr hφ hacc (ix1 p)).trans ?_
  refine Finset.sum_congr rfl fun k _ => ?_
  rw [lift_row hr p k]
  rfl

/-- The array spelling at (i, q) is `rowNorm` of the operand: the reduction's initial value is the word 0, the
    extended real 0, and adds nothing to the row's sum. -/
theorem array_apply {a b : ℕ} (w : BitVec 32) (x : FVec Ideal ⟨2, ![a, b]⟩ .f32)
    (h1 : (⟨2, ![a, 1]⟩ : Shape).BroadcastsInDim ⟨2, ![a, b]⟩ ![0, 1])
    (h2 : (⟨1, ![a]⟩ : Shape).BroadcastsInDim ⟨2, ![a, 1]⟩ ![0])
    (h3 : (⟨2, ![a, b]⟩ : Shape).ReducesTo [1] ⟨1, ![a]⟩) (h4 : 0 < (⟨0, ![]⟩ : Shape).numel)
    (h5 : (⟨0, ![]⟩ : Shape).BroadcastsInDim ⟨2, ![a, 1]⟩ ![])
    (i : Fin a) (q : Fin b) :
    Host.divf x (broadcastInDim ⟨2, ![a, b]⟩ ![0, 1] h1
      (addf (Host.sqrt (broadcastInDim ⟨2, ![a, 1]⟩ ![0] h2
          (Host.reduceAdd (mulf x x) (constant (F := Ideal) ⟨0, ![]⟩ .f32 0x00000000#32) h3 h4)))
        (broadcastInDim ⟨2, ![a, 1]⟩ ![] h5 (constant (F := Ideal) ⟨0, ![]⟩ .f32 w)))) (ix2 i q)
      = rowNorm (Ideal.ofBits .f32 w) x i q := by
  have hr : (⟨2, ![a, b]⟩ : Shape).Reduces [1] ⟨1, ![a]⟩ := ⟨h3.1, Nat.one_pos, h3.2⟩
  unfold rowNorm
  show Ideal.div (x (ix2 i q)) _ = _
  refine congrArg (Ideal.div (x (ix2 i q))) ?_
  -- the column [a, 1] laid over the lanes reads the column's entry of row i
  refine (broadcastInDim_apply _ h1 _ (ix2 i q) (ix2 i (0 : Fin 1)) fun ax => ?_).trans ?_
  · match ax with
    | ⟨0, _⟩ =>
      show i.val = if a = 1 then 0 else i.val
      split
      · have := i.isLt; omega
      · rfl
    | ⟨1, _⟩ => rfl
  refine (addf_apply _ _ _).trans ?_
  refine congrArg₂ (· + ·) ?_ ?_
  · show Ideal.sqrt _ = Ideal.sqrt _
    refine congrArg Ideal.sqrt ?_
    -- the [a] vector laid out as the column reads its entry i
    refine (broadcastInDim_apply _ h2 _ (ix2 i (0 : Fin 1)) (ix1 i) fun ax => ?_).trans ?_
    · match ax with
      | ⟨0, _⟩ =>
        show i.val = if a = 1 then 0 else i.val
        split
        · have := i.isLt; omega
        · rfl
    show Ideal.hostReduceAdd h3 (mulf x x) (Ideal.ofBits .f32 0x00000000#32) (ix1 i) = _
    rw [Ideal.hostReduceAdd_single h3 hr, Ideal.ofBits_zero_f32, zero_add]
    refine Finset.sum_congr rfl fun k _ => ?_
    rw [lift_row hr i k]
    rfl
  · rfl

/-- A row of a block is a row of the array the block was cut from: if row p of the block x0 is row i of the array X
    entry by entry, the normalised entries agree (q and q' name the same column). -/
theorem rowNorm_of_row {a b A : ℕ} (ε : EReal) (x0 : (⟨2, ![a, b]⟩ : Shape).Idx → EReal)
    (X : (⟨2, ![A, b]⟩ : Shape).Idx → EReal) (p : Fin a) (q : Fin b) (i : Fin A) (q' : Fin b) (hq : q'.val = q.val)
    (h : ∀ k : Fin b, x0 (ix2 p k) = X (ix2 i k)) : rowNorm ε x0 p q = rowNorm ε X i q' := by
  obtain rfl : q' = q := Fin.ext hq
  unfold rowNorm
  rw [h q', Finset.sum_congr rfl fun k _ => by rw [h k]]

end Cert.Lib.RowNorm

end
-- ==== Proof.Region4.lean ====
/-
  Region 4: the row normalisation of a [10000, 128] array, block by block.

  The grid has 10 points; point t reads rows 1000·t … 1000·t + 999 of the input array (all 128 columns) and writes
  the same rows of the output array.  Inside a block, entry (p, q) of what the body stores is
  x(p, q) / (√(Σ_k x(p, k)·x(p, k)) + ε) over the 128 entries of the block's row p, and row p of block t is row
  1000·t + p of the input array, so what point t writes back is block t of ONE function of the whole input array:
  every row divided by (its Euclidean norm plus ε), in the array spelling.  The ten blocks tile the output array
  (row r lies in block r / 1000), so after the last point the output array is that function of the input array.
-/
import proofs.«177944_j13331578487561_1_alg».proof.Proof.Spec
import proofs.«177944_j13331578487561_1_alg».proof.Proof.Gen.KernelIdeal.Frame
import Idealize.ShloMosaic.PureOps.Ideal
import Idealize.ShloMosaic.Lib.Pipeline.Value
import proofs.«177944_j13331578487561_1_alg».proof.Proof.LibRowNorm

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx Cert.Lib.RowNorm

/-- The small constant added to a row's norm: one f32 word, the same in both spellings, never evaluated. -/
abbrev eps4 : EReal := Ideal.ofBits .f32 0x3089705F#32

theorem hz4 : (![0, 0] : Fin 2 → Nat) = fun _ => 0 := funext fun a => by fin_cases a <;> rfl

/-! ## The two spellings at an index -/

/-- What the body stores, at (p, q) of a block: the normalised entry of the block's row p. -/
theorem pay4_apply (x0 : Vec Ideal S1000x128 .f32) (p : Fin 1000) (q : Fin 128) :
    k4_pay1 x0 (ix2 p q) = rowNorm eps4 x0 p q := by
  unfold k4_pay1
  exact vector_apply 0x3089705F#32 x0 _ _ _ _ _ _ p q

theorem pay4_apply' (x0 : Vec Ideal S1000x128 .f32) (y : S1000x128.Idx) :
    k4_pay1 x0 y = rowNorm eps4 x0 (y 0) (y 1) :=
  (congrArg (k4_pay1 x0) (eq_ix2 y)).trans (pay4_apply x0 (y 0) (y 1))

/-- The array spelling, at (i, q) of the whole array: the normalised entry of the array's row i. -/
theorem spec4_apply (X : FVec Ideal S10000x128 .f32) (i : Fin 10000) (q : Fin 128) :
    Cert.Spec.l2n128 (F := Ideal) X (ix2 i q) = rowNorm eps4 X i q := by
  unfold Cert.Spec.l2n128
  exact array_apply 0x3089705F#32 X _ _ _ _ _ i q

theorem spec4_apply' (X : FVec Ideal S10000x128 .f32) (j : S10000x128.Idx) :
    Cert.Spec.l2n128 (F := Ideal) X j = rowNorm eps4 X (j 0) (j 1) :=
  (congrArg (Cert.Spec.l2n128 (F := Ideal) X) (eq_ix2 j)).trans (spec4_apply X (j 0) (j 1))

/-! ## From blocks to the array -/

/-- The index maps over the grid: at point t both windows sit at block row t, block column 0. -/
theorem idx4 : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

variable (V : (c : Dev nD) → (b : Ref sig .tc) → Buf (Elt Ideal) ((c : Thread nD τ).loc b)) (c : Dev nD)

/-- Row p of the input block at point t is row 1000·t + p of the input array. -/
theorem iblk4_row (t : Fin cfg4.N) (p : Fin 1000) (k : Fin 128) (i : Fin 10000) (hi : i.val = t.val * 1000 + p.val) :
    (iblk4 (F := Ideal) V c 0 t : Vec Ideal S1000x128 .f32) (ix2 p k)
      = (V c main_v101 : S10000x128.Idx → EReal) (ix2 i k) := by
  obtain ⟨e0, e1, -, -⟩ := idx4 t
  unfold iblk4
  rw [View.read_apply]
  show V c main_v101 _ = V c main_v101 _
  congr 1
  funext a
  apply Fin.ext
  match a with
  | ⟨0, _⟩ => show win4_0.index t (0 : Fin 2) * 1000 + 1 * p.val = i.val; rw [e0, hi]; omega
  | ⟨1, _⟩ => show win4_0.index t (1 : Fin 2) * 128 + 1 * k.val = k.val; rw [e1]; omega

/-- What the output array ends holding: every row of the input array divided by (its norm plus ε). -/
abbrev G4 : Buf (Elt Ideal) ((c : Thread nD τ).loc main_v102) := Cert.Spec.l2n128 (F := Ideal) (V c main_v101)

/-- What point t writes back is block t of that array. -/
theorem flushed4_eq (t : Fin cfg4.N) :
    (dat4 (F := Ideal) V c).flushed 1 t = ((cfg4.win 1).blk t).view.read (Elt Ideal) (G4 V c) := by
  show (cfg4.win 1).cut (grid4.coords t) ((dat4 (F := Ideal) V c).after 1 t) = _
  rw [after4_1]
  unfold out4_1
  rw [View.canon_unit_zero hz4]
  simp only [View.ld_unit_zero (S := S1000x128) hz4]
  obtain ⟨e0, e1, e2, e3⟩ := idx4 t
  funext y
  show k4_pay1 (iblk4 V c 0 t) y
    = Cert.Spec.l2n128 (F := Ideal) (V c main_v101) (((cfg4.win 1).blk t).view.emb y)
  refine (pay4_apply' _ y).trans ?_
  refine (rowNorm_of_row eps4 _ (V c main_v101) (y 0) (y 1) ((((cfg4.win 1).blk t).view.emb y) 0)
    ((((cfg4.win 1).blk t).view.emb y) 1) ?_ ?_).trans (spec4_apply' _ _).symm
  · show win4_1.index t (1 : Fin 2) * 128 + 1 * (y 1).val = (y 1).val
    rw [e3]; omega
  · intro k
    refine iblk4_row V c t (y 0) k _ ?_
    show win4_1.index t (0 : Fin 2) * 1000 + 1 * (y 0).val = t.val * 1000 + (y 0).val
    rw [e2]; omega

/-- Every index of the output array is in the block of the point its row falls in. -/
theorem cover4 (i : S10000x128.Idx) :
    ∃ t : Fin cfg4.N, (cfg4.win 1).flush t = true ∧ i ∈ ((cfg4.win 1).blk t).view.set := by
  have h0 : (i 0).val < 10000 := (i 0).isLt
  have h1 : (i 1).val < 128 := (i 1).isLt
  have hN : cfg4.N = 10 := N_4
  have ht : (i 0).val / 1000 < cfg4.N := by rw [hN]; omega
  obtain ⟨-, -, e2, e3⟩ := idx4 ⟨(i 0).val / 1000, ht⟩
  refine ⟨⟨(i 0).val / 1000, ht⟩, flush4_1 _, ?_⟩
  show i ∈ ((View.whole main_v102).slice (win4_1.rect ⟨(i 0).val / 1000, ht⟩)).set
  rw [View.set_slice_whole, Rect.mem_set_unit]
  intro a
  match a with
  | ⟨0, _⟩ =>
    show win4_1.index ⟨(i 0).val / 1000, ht⟩ (0 : Fin 2) * 1000 ≤ (i 0).val
      ∧ (i 0).val < win4_1.index ⟨(i 0).val / 1000, ht⟩ (0 : Fin 2) * 1000 + 1000
    rw [e2]; show (i 0).val / 1000 * 1000 ≤ (i 0).val ∧ (i 0).val < (i 0).val / 1000 * 1000 + 1000; omega
  | ⟨1, _⟩ =>
    show win4_1.index ⟨(i 0).val / 1000, ht⟩ (1 : Fin 2) * 128 ≤ (i 1).val
      ∧ (i 1).val < win4_1.index ⟨(i 0).val / 1000, ht⟩ (1 : Fin 2) * 128 + 128
    rw [e3]; omega

/-- After the region the output array is the row-normalised input array. -/
theorem r4 : (dat4 (F := Ideal) V c).arrAt 1 cfg4.N = Cert.Spec.l2n128 (F := Ideal) (V c main_v101) :=
  (dat4 (F := Ideal) V c).arrAt_eq_of_cover 1 (G4 V c) (fun t _ => flushed4_eq V c t) (cover4)

end Cert.KernelIdeal.Region

end
-- ==== Proof.Region5.lean ====
/-
  Region 5: the row normalisation of a [10000, 428] array, block by block.

  The grid has 10 points; point t reads rows 1000·t … 1000·t + 999 of the input array (all 428 columns) and writes
  the same rows of the output array.  Inside a block, entry (p, q) of what the body stores is
  x(p, q) / (√(Σ_k x(p, k)·x(p, k)) + ε) over the 428 entries of the block's row p, and row p of block t is row
  1000·t + p of the input array, so what point t writes back is block t of ONE function of the whole input array:
  every row divided by (its Euclidean norm plus ε), in the array spelling.  The ten blocks tile the output array
  (row r lies in block r / 1000), so after the last point the output array is that function of the input array.
-/
import proofs.«177944_j13331578487561_1_alg».proof.Proof.Spec
import proofs.«177944_j13331578487561_1_alg».proof.Proof.Gen.KernelIdeal.Frame
import Idealize.ShloMosaic.PureOps.Ideal
import Idealize.ShloMosaic.Lib.Pipeline.Value
import proofs.«177944_j13331578487561_1_alg».proof.Proof.LibRowNorm

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx Cert.Lib.RowNorm

/-- The small constant added to a row's norm: one f32 word, the same in both spellings, never evaluated. -/
abbrev eps5 : EReal := Ideal.ofBits .f32 0x3089705F#32

theorem hz5 : (![0, 0] : Fin 2 → Nat) = fun _ => 0 := funext fun a => by fin_cases a <;> rfl

/-! ## The two spellings at an index -/

/-- What the body stores, at (p, q) of a block: the normalised entry of the block's row p. -/
theorem pay5_apply (x0 : Vec Ideal S1000x428 .f32) (p : Fin 1000) (q : Fin 428) :
    k5_pay1 x0 (ix2 p q) = rowNorm eps5 x0 p q := by
  unfold k5_pay1
  exact vector_apply 0x3089705F#32 x0 _ _ _ _ _ _ p q

theorem pay5_apply' (x0 : Vec Ideal S1000x428 .f32) (y : S1000x428.Idx) :
    k5_pay1 x0 y = rowNorm eps5 x0 (y 0) (y 1) :=
  (congrArg (k5_pay1 x0) (eq_ix2 y)).trans (pay5_apply x0 (y 0) (y 1))

/-- The array spelling, at (i, q) of the whole array: the normalised entry of the array's row i. -/
theorem spec5_apply (X : FVec Ideal S10000x428 .f32) (i : Fin 10000) (q : Fin 428) :
    Cert.Spec.l2n428 (F := Ideal) X (ix2 i q) = rowNorm eps5 X i q := by
  unfold Cert.Spec.l2n428
  exact array_apply 0x3089705F#32 X _ _ _ _ _ i q

theorem spec5_apply' (X : FVec Ideal S10000x428 .f32) (j : S10000x428.Idx) :
    Cert.Spec.l2n428 (F := Ideal) X j = rowNorm eps5 X (j 0) (j 1) :=
  (congrArg (Cert.Spec.l2n428 (F := Ideal) X) (eq_ix2 j)).trans (spec5_apply X (j 0) (j 1))

/-! ## From blocks to the array -/

/-- The index maps over the grid: at point t both windows sit at block row t, block column 0. -/
theorem idx5 : ∀ t : Fin cfg5.N, win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

variable (V : (c : Dev nD) → (b : Ref sig .tc) → Buf (Elt Ideal) ((c : Thread nD τ).loc b)) (c : Dev nD)

/-- Row p of the input block at point t is row 1000·t + p of the input array. -/
theorem iblk5_row (t : Fin cfg5.N) (p : Fin 1000) (k : Fin 428) (i : Fin 10000) (hi : i.val = t.val * 1000 + p.val) :
    (iblk5 (F := Ideal) V c 0 t : Vec Ideal S1000x428 .f32) (ix2 p k)
      = (V c main_v115 : S10000x428.Idx → EReal) (ix2 i k) := by
  obtain ⟨e0, e1, -, -⟩ := idx5 t
  unfold iblk5
  rw [View.read_apply]
  show V c main_v115 _ = V c main_v115 _
  congr 1
  funext a
  apply Fin.ext
  match a with
  | ⟨0, _⟩ => show win5_0.index t (0 : Fin 2) * 1000 + 1 * p.val = i.val; rw [e0, hi]; omega
  | ⟨1, _⟩ => show win5_0.index t (1 : Fin 2) * 428 + 1 * k.val = k.val; rw [e1]; omega

/-- What the output array ends holding: every row of the input array divided by (its norm plus ε). -/
abbrev G5 : Buf (Elt Ideal) ((c : Thread nD τ).loc main_v116) := Cert.Spec.l2n428 (F := Ideal) (V c main_v115)

/-- What point t writes back is block t of that array. -/
theorem flushed5_eq (t : Fin cfg5.N) :
    (dat5 (F := Ideal) V c).flushed 1 t = ((cfg5.win 1).blk t).view.read (Elt Ideal) (G5 V c) := by
  show (cfg5.win 1).cut (grid5.coords t) ((dat5 (F := Ideal) V c).after 1 t) = _
  rw [after5_1]
  unfold out5_1
  rw [View.canon_unit_zero hz5]
  simp only [View.ld_unit_zero (S := S1000x428) hz5]
  obtain ⟨e0, e1, e2, e3⟩ := idx5 t
  funext y
  show k5_pay1 (iblk5 V c 0 t) y
    = Cert.Spec.l2n428 (F := Ideal) (V c main_v115) (((cfg5.win 1).blk t).view.emb y)
  refine (pay5_apply' _ y).trans ?_
  refine (rowNorm_of_row eps5 _ (V c main_v115) (y 0) (y 1) ((((cfg5.win 1).blk t).view.emb y) 0)
    ((((cfg5.win 1).blk t).view.emb y) 1) ?_ ?_).trans (spec5_apply' _ _).symm
  · show win5_1.index t (1 : Fin 2) * 428 + 1 * (y 1).val = (y 1).val
    rw [e3]; omega
  · intro k
    refine iblk5_row V c t (y 0) k _ ?_
    show win5_1.index t (0 : Fin 2) * 1000 + 1 * (y 0).val = t.val * 1000 + (y 0).val
    rw [e2]; omega

/-- Every index of the output array is in the block of the point its row falls in. -/
theorem cover5 (i : S10000x428.Idx) :
    ∃ t : Fin cfg5.N, (cfg5.win 1).flush t = true ∧ i ∈ ((cfg5.win 1).blk t).view.set := by
  have h0 : (i 0).val < 10000 := (i 0).isLt
  have h1 : (i 1).val < 428 := (i 1).isLt
  have hN : cfg5.N = 10 := N_5
  have ht : (i 0).val / 1000 < cfg5.N := by rw [hN]; omega
  obtain ⟨-, -, e2, e3⟩ := idx5 ⟨(i 0).val / 1000, ht⟩
  refine ⟨⟨(i 0).val / 1000, ht⟩, flush5_1 _, ?_⟩
  show i ∈ ((View.whole main_v116).slice (win5_1.rect ⟨(i 0).val / 1000, ht⟩)).set
  rw [View.set_slice_whole, Rect.mem_set_unit]
  intro a
  match a with
  | ⟨0, _⟩ =>
    show win5_1.index ⟨(i 0).val / 1000, ht⟩ (0 : Fin 2) * 1000 ≤ (i 0).val
      ∧ (i 0).val < win5_1.index ⟨(i 0).val / 1000, ht⟩ (0 : Fin 2) * 1000 + 1000
    rw [e2]; show (i 0).val / 1000 * 1000 ≤ (i 0).val ∧ (i 0).val < (i 0).val / 1000 * 1000 + 1000; omega
  | ⟨1, _⟩ =>
    show win5_1.index ⟨(i 0).val / 1000, ht⟩ (1 : Fin 2) * 428 ≤ (i 1).val
      ∧ (i 1).val < win5_1.index ⟨(i 0).val / 1000, ht⟩ (1 : Fin 2) * 428 + 428
    rw [e3]; omega

/-- After the region the output array is the row-normalised input array. -/
theorem r5 : (dat5 (F := Ideal) V c).arrAt 1 cfg5.N = Cert.Spec.l2n428 (F := Ideal) (V c main_v115) :=
  (dat5 (F := Ideal) V c).arrAt_eq_of_cover 1 (G5 V c) (fun t _ => flushed5_eq V c t) (cover5)

end Cert.KernelIdeal.Region

end
-- ==== Proof.Region6.lean ====
/-
  Region 6: the row normalisation of a [10000, 128] array, block by block.

  The grid has 10 points; point t reads rows 1000·t … 1000·t + 999 of the input array (all 128 columns) and writes
  the same rows of the output array.  Inside a block, entry (p, q) of what the body stores is
  x(p, q) / (√(Σ_k x(p, k)·x(p, k)) + ε) over the 128 entries of the block's row p, and row p of block t is row
  1000·t + p of the input array, so what point t writes back is block t of ONE function of the whole input array:
  every row divided by (its Euclidean norm plus ε), in the array spelling.  The ten blocks tile the output array
  (row r lies in block r / 1000), so after the last point the output array is that function of the input array.
-/
import proofs.«177944_j13331578487561_1_alg».proof.Proof.Spec
import proofs.«177944_j13331578487561_1_alg».proof.Proof.Gen.KernelIdeal.Frame
import Idealize.ShloMosaic.PureOps.Ideal
import Idealize.ShloMosaic.Lib.Pipeline.Value
import proofs.«177944_j13331578487561_1_alg».proof.Proof.LibRowNorm

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx Cert.Lib.RowNorm

/-- The small constant added to a row's norm: one f32 word, the same in both spellings, never evaluated. -/
abbrev eps6 : EReal := Ideal.ofBits .f32 0x3089705F#32

theorem hz6 : (![0, 0] : Fin 2 → Nat) = fun _ => 0 := funext fun a => by fin_cases a <;> rfl

/-! ## The two spellings at an index -/

/-- What the body stores, at (p, q) of a block: the normalised entry of the block's row p. -/
theorem pay6_apply (x0 : Vec Ideal S1000x128 .f32) (p : Fin 1000) (q : Fin 128) :
    k6_pay1 x0 (ix2 p q) = rowNorm eps6 x0 p q := by
  unfold k6_pay1
  exact vector_apply 0x3089705F#32 x0 _ _ _ _ _ _ p q

theorem pay6_apply' (x0 : Vec Ideal S1000x128 .f32) (y : S1000x128.Idx) :
    k6_pay1 x0 y = rowNorm eps6 x0 (y 0) (y 1) :=
  (congrArg (k6_pay1 x0) (eq_ix2 y)).trans (pay6_apply x0 (y 0) (y 1))

/-- The array spelling, at (i, q) of the whole array: the normalised entry of the array's row i. -/
theorem spec6_apply (X : FVec Ideal S10000x128 .f32) (i : Fin 10000) (q : Fin 128) :
    Cert.Spec.l2n128 (F := Ideal) X (ix2 i q) = rowNorm eps6 X i q := by
  unfold Cert.Spec.l2n128
  exact array_apply 0x3089705F#32 X _ _ _ _ _ i q

theorem spec6_apply' (X : FVec Ideal S10000x128 .f32) (j : S10000x128.Idx) :
    Cert.Spec.l2n128 (F := Ideal) X j = rowNorm eps6 X (j 0) (j 1) :=
  (congrArg (Cert.Spec.l2n128 (F := Ideal) X) (eq_ix2 j)).trans (spec6_apply X (j 0) (j 1))

/-! ## From blocks to the array -/

/-- The index maps over the grid: at point t both windows sit at block row t, block column 0. -/
theorem idx6 : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

variable (V : (c : Dev nD) → (b : Ref sig .tc) → Buf (Elt Ideal) ((c : Thread nD τ).loc b)) (c : Dev nD)

/-- Row p of the input block at point t is row 1000·t + p of the input array. -/
theorem iblk6_row (t : Fin cfg6.N) (p : Fin 1000) (k : Fin 128) (i : Fin 10000) (hi : i.val = t.val * 1000 + p.val) :
    (iblk6 (F := Ideal) V c 0 t : Vec Ideal S1000x128 .f32) (ix2 p k)
      = (V c main_v129 : S10000x128.Idx → EReal) (ix2 i k) := by
  obtain ⟨e0, e1, -, -⟩ := idx6 t
  unfold iblk6
  rw [View.read_apply]
  show V c main_v129 _ = V c main_v129 _
  congr 1
  funext a
  apply Fin.ext
  match a with
  | ⟨0, _⟩ => show win6_0.index t (0 : Fin 2) * 1000 + 1 * p.val = i.val; rw [e0, hi]; omega
  | ⟨1, _⟩ => show win6_0.index t (1 : Fin 2) * 128 + 1 * k.val = k.val; rw [e1]; omega

/-- What the output array ends holding: every row of the input array divided by (its norm plus ε). -/
abbrev G6 : Buf (Elt Ideal) ((c : Thread nD τ).loc main_v130) := Cert.Spec.l2n128 (F := Ideal) (V c main_v129)

/-- What point t writes back is block t of that array. -/
theorem flushed6_eq (t : Fin cfg6.N) :
    (dat6 (F := Ideal) V c).flushed 1 t = ((cfg6.win 1).blk t).view.read (Elt Ideal) (G6 V c) := by
  show (cfg6.win 1).cut (grid6.coords t) ((dat6 (F := Ideal) V c).after 1 t) = _
  rw [after6_1]
  unfold out6_1
  rw [View.canon_unit_zero hz6]
  simp only [View.ld_unit_zero (S := S1000x128) hz6]
  obtain ⟨e0, e1, e2, e3⟩ := idx6 t
  funext y
  show k6_pay1 (iblk6 V c 0 t) y
    = Cert.Spec.l2n128 (F := Ideal) (V c main_v129) (((cfg6.win 1).blk t).view.emb y)
  refine (pay6_apply' _ y).trans ?_
  refine (rowNorm_of_row eps6 _ (V c main_v129) (y 0) (y 1) ((((cfg6.win 1).blk t).view.emb y) 0)
    ((((cfg6.win 1).blk t).view.emb y) 1) ?_ ?_).trans (spec6_apply' _ _).symm
  · show win6_1.index t (1 : Fin 2) * 128 + 1 * (y 1).val = (y 1).val
    rw [e3]; omega
  · intro k
    refine iblk6_row V c t (y 0) k _ ?_
    show win6_1.index t (0 : Fin 2) * 1000 + 1 * (y 0).val = t.val * 1000 + (y 0).val
    rw [e2]; omega

/-- Every index of the output array is in the block of the point its row falls in. -/
theorem cover6 (i : S10000x128.Idx) :
    ∃ t : Fin cfg6.N, (cfg6.win 1).flush t = true ∧ i ∈ ((cfg6.win 1).blk t).view.set := by
  have h0 : (i 0).val < 10000 := (i 0).isLt
  have h1 : (i 1).val < 128 := (i 1).isLt
  have hN : cfg6.N = 10 := N_6
  have ht : (i 0).val / 1000 < cfg6.N := by rw [hN]; omega
  obtain ⟨-, -, e2, e3⟩ := idx6 ⟨(i 0).val / 1000, ht⟩
  refine ⟨⟨(i 0).val / 1000, ht⟩, flush6_1 _, ?_⟩
  show i ∈ ((View.whole main_v130).slice (win6_1.rect ⟨(i 0).val / 1000, ht⟩)).set
  rw [View.set_slice_whole, Rect.mem_set_unit]
  intro a
  match a with
  | ⟨0, _⟩ =>
    show win6_1.index ⟨(i 0).val / 1000, ht⟩ (0 : Fin 2) * 1000 ≤ (i 0).val
      ∧ (i 0).val < win6_1.index ⟨(i 0).val / 1000, ht⟩ (0 : Fin 2) * 1000 + 1000
    rw [e2]; show (i 0).val / 1000 * 1000 ≤ (i 0).val ∧ (i 0).val < (i 0).val / 1000 * 1000 + 1000; omega
  | ⟨1, _⟩ =>
    show win6_1.index ⟨(i 0).val / 1000, ht⟩ (1 : Fin 2) * 128 ≤ (i 1).val
      ∧ (i 1).val < win6_1.index ⟨(i 0).val / 1000, ht⟩ (1 : Fin 2) * 128 + 128
    rw [e3]; omega

/-- After the region the output array is the row-normalised input array. -/
theorem r6 : (dat6 (F := Ideal) V c).arrAt 1 cfg6.N = Cert.Spec.l2n128 (F := Ideal) (V c main_v129) :=
  (dat6 (F := Ideal) V c).arrAt_eq_of_cover 1 (G6 V c) (fun t _ => flushed6_eq V c t) (cover6)

end Cert.KernelIdeal.Region

end
-- ==== Proof.Chain.lean ====
/-
  The idealized kernel program's three results as functions of the launch memory.  Each result buffer is followed back
  through the program's segments: the last region's array is the row normalisation of its input array; that input
  is the host's aggregation of a feature array and three argument arrays; the feature array was left by an earlier
  stretch and has not been touched since; and so on down to the launch memory.  Every host stretch and every region
  contributes one step of the specification, so each result is the specification's composite of the arguments.
-/
import proofs.«177944_j13331578487561_1_alg».proof.Proof.Spec
import proofs.«177944_j13331578487561_1_alg».proof.Proof.Thru
import proofs.«177944_j13331578487561_1_alg».proof.Proof.Region0
import proofs.«177944_j13331578487561_1_alg».proof.Proof.Region1
import proofs.«177944_j13331578487561_1_alg».proof.Proof.Region2
import proofs.«177944_j13331578487561_1_alg».proof.Proof.Region3
import proofs.«177944_j13331578487561_1_alg».proof.Proof.Region4
import proofs.«177944_j13331578487561_1_alg».proof.Proof.Region5
import proofs.«177944_j13331578487561_1_alg».proof.Proof.Region6
import Idealize.ShloMosaic.PureOps.Ideal

noncomputable section

namespace Cert.KernelIdeal.Chain

open Cert.KernelIdeal Cert.KernelIdeal.Gen Cert.KernelIdeal.Host Cert.KernelIdeal.Thru Cert.KernelIdeal.Region
open Idealize.ShloMosaic Idealize.ShloMosaic.TcCoe Idealize.SL.Sem

/-- A function of two arguments respects equality of each. -/
theorem congr2 {α β ε : Sort _} (f : α → β → ε) {a a' : α} {b b' : β} (ha : a = a') (hb : b = b') : f a b = f a' b' := by
  subst ha hb; rfl
/-- A function of three arguments respects equality of each. -/
theorem congr3 {α β γ ε : Sort _} (f : α → β → γ → ε) {a a' : α} {b b' : β} {c c' : γ} (ha : a = a') (hb : b = b') (hc : c = c') :
    f a b c = f a' b' c' := by
  subst ha hb hc; rfl
/-- A function of four arguments respects equality of each. -/
theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl

variable (m : (ℓ : Loc nD τ sig) → Buf (Elt Ideal) ℓ) (ρ : Dev nD → PrngReg) (c : Dev nD)

/-! ## The three feature arrays, where they are first complete -/

/-- The word features after the second round's positive part (boundary 5). -/
theorem h1_at5 : W5 m ρ c (Proc.devRef .tc main_v28)
    = Cert.Spec.h1 (F := Ideal) (m ((c : Thread nD τ).loc main_arg4)) (m ((c : Thread nD τ).loc main_arg5)) (m ((c : Thread nD τ).loc main_arg6)) (m ((c : Thread nD τ).loc main_arg0)) (m ((c : Thread nD τ).loc main_arg24)) (m ((c : Thread nD τ).loc main_arg25)) := by
  unfold Cert.Spec.h1
  refine (s1_1 (W4 m ρ c)).trans (congrArg Cert.Spec.relu20000 ?_)
  refine (s1 (W3 m ρ c)).trans (congr4 Cert.Spec.spmm11 ((thru0_3 m ρ c main_arg4 (by decide)).trans (at0 m ρ c main_arg4)) ((thru0_3 m ρ c main_arg5 (by decide)).trans (at0 m ρ c main_arg5)) ((thru0_3 m ρ c main_arg6 (by decide)).trans (at0 m ρ c main_arg6)) ?_)
  refine (W3_arr m ρ c 3).trans ((r0 (V2 m ρ) c).trans ?_)
  refine congr3 Cert.Spec.lin20000 ?_ ((thru0_2 m ρ c main_arg24 (by decide)).trans (at0 m ρ c main_arg24)) ((thru0_2 m ρ c main_arg25 (by decide)).trans (at0 m ρ c main_arg25))
  refine (s0_1 (W1 m ρ c)).trans (congrArg Cert.Spec.relu20000 ?_)
  exact (s0 (W0 m ρ c)).trans rfl

/-- The entity features, widened by the embedding (boundary 11). -/
theorem h2_at11 : W11 m ρ c (Proc.devRef .tc main_v58)
    = Cert.Spec.h2 (F := Ideal) (m ((c : Thread nD τ).loc main_arg7)) (m ((c : Thread nD τ).loc main_arg8)) (m ((c : Thread nD τ).loc main_arg9)) (m ((c : Thread nD τ).loc main_arg1)) (m ((c : Thread nD τ).loc main_arg26)) (m ((c : Thread nD τ).loc main_arg27)) (m ((c : Thread nD τ).loc main_arg3)) := by
  unfold Cert.Spec.h2
  refine (s2_2 (W10 m ρ c)).trans (congr2 Cert.Spec.cat ?_ ((thru0_10 m ρ c main_arg3 (by decide)).trans (at0 m ρ c main_arg3)))
  refine (s2_1 (W9 m ρ c)).trans (congrArg Cert.Spec.relu10000 ?_)
  refine (s2 (W8 m ρ c)).trans (congr4 Cert.Spec.spmm22 ((thru0_8 m ρ c main_arg7 (by decide)).trans (at0 m ρ c main_arg7)) ((thru0_8 m ρ c main_arg8 (by decide)).trans (at0 m ρ c main_arg8)) ((thru0_8 m ρ c main_arg9 (by decide)).trans (at0 m ρ c main_arg9)) ?_)
  refine (W8_arr m ρ c 3).trans ((r1 (V7 m ρ) c).trans ?_)
  refine congr3 Cert.Spec.lin10000 ?_ ((thru0_7 m ρ c main_arg26 (by decide)).trans (at0 m ρ c main_arg26)) ((thru0_7 m ρ c main_arg27 (by decide)).trans (at0 m ρ c main_arg27))
  refine (s1_3 (W6 m ρ c)).trans (congrArg Cert.Spec.relu10000 ?_)
  exact (s1_2 (W5 m ρ c)).trans (congr4 Cert.Spec.spmm22 ((thru0_5 m ρ c main_arg7 (by decide)).trans (at0 m ρ c main_arg7)) ((thru0_5 m ρ c main_arg8 (by decide)).trans (at0 m ρ c main_arg8)) ((thru0_5 m ρ c main_arg9 (by decide)).trans (at0 m ρ c main_arg9)) ((thru0_5 m ρ c main_arg1 (by decide)).trans (at0 m ρ c main_arg1)))

/-- The tag features after the second round's positive part (boundary 17). -/
theorem h3_at17 : W17 m ρ c (Proc.devRef .tc main_v88)
    = Cert.Spec.h3 (F := Ideal) (m ((c : Thread nD τ).loc main_arg10)) (m ((c : Thread nD τ).loc main_arg11)) (m ((c : Thread nD τ).loc main_arg12)) (m ((c : Thread nD τ).loc main_arg2)) (m ((c : Thread nD τ).loc main_arg22)) (m ((c : Thread nD τ).loc main_arg23)) (m ((c : Thread nD τ).loc main_arg28)) (m ((c : Thread nD τ).loc main_arg29)) := by
  unfold Cert.Spec.h3
  refine (s4_1 (W16 m ρ c)).trans (congrArg Cert.Spec.relu60 ?_)
  refine (s4 (W15 m ρ c)).trans (congr4 Cert.Spec.spmm33 ((thru0_15 m ρ c main_arg10 (by decide)).trans (at0 m ρ c main_arg10)) ((thru0_15 m ρ c main_arg11 (by decide)).trans (at0 m ρ c main_arg11)) ((thru0_15 m ρ c main_arg12 (by decide)).trans (at0 m ρ c main_arg12)) ?_)
  refine (W15_arr m ρ c 3).trans ((r3 (V14 m ρ) c).trans ?_)
  refine congr3 Cert.Spec.lin60b ?_ ((thru0_14 m ρ c main_arg28 (by decide)).trans (at0 m ρ c main_arg28)) ((thru0_14 m ρ c main_arg29 (by decide)).trans (at0 m ρ c main_arg29))
  refine (s3_1 (W13 m ρ c)).trans (congrArg Cert.Spec.relu60 ?_)
  refine (s3 (W12 m ρ c)).trans (congr4 Cert.Spec.spmm33 ((thru0_12 m ρ c main_arg10 (by decide)).trans (at0 m ρ c main_arg10)) ((thru0_12 m ρ c main_arg11 (by decide)).trans (at0 m ρ c main_arg11)) ((thru0_12 m ρ c main_arg12 (by decide)).trans (at0 m ρ c main_arg12)) ?_)
  refine (W12_arr m ρ c 3).trans ((r2 (V11 m ρ) c).trans ?_)
  exact congr3 Cert.Spec.lin60a ((thru0_11 m ρ c main_arg2 (by decide)).trans (at0 m ρ c main_arg2)) ((thru0_11 m ρ c main_arg22 (by decide)).trans (at0 m ρ c main_arg22)) ((thru0_11 m ρ c main_arg23 (by decide)).trans (at0 m ρ c main_arg23))

/-! ## The three results -/

/-- Documents from words. -/
theorem out0 : W23 m ρ c (Proc.devRef .tc main_v102)
    = Cert.Spec.l2n128 (F := Ideal) (Cert.Spec.spmm01 (m ((c : Thread nD τ).loc main_arg13)) (m ((c : Thread nD τ).loc main_arg14)) (m ((c : Thread nD τ).loc main_arg15))
        (Cert.Spec.h1 (F := Ideal) (m ((c : Thread nD τ).loc main_arg4)) (m ((c : Thread nD τ).loc main_arg5)) (m ((c : Thread nD τ).loc main_arg6)) (m ((c : Thread nD τ).loc main_arg0)) (m ((c : Thread nD τ).loc main_arg24)) (m ((c : Thread nD τ).loc main_arg25)))) := by
  refine (thru19_23 m ρ c main_v102 (by decide)).trans ?_
  refine (W19_arr m ρ c 1).trans ((r4 (V18 m ρ) c).trans (congrArg Cert.Spec.l2n128 ?_))
  refine (s4_2 (W17 m ρ c)).trans (congr4 Cert.Spec.spmm01 ((thru0_17 m ρ c main_arg13 (by decide)).trans (at0 m ρ c main_arg13)) ((thru0_17 m ρ c main_arg14 (by decide)).trans (at0 m ρ c main_arg14)) ((thru0_17 m ρ c main_arg15 (by decide)).trans (at0 m ρ c main_arg15)) ?_)
  exact (thru5_17 m ρ c main_v28 (by decide)).trans (h1_at5 m ρ c)

/-- Documents from entities. -/
theorem out1 : W23 m ρ c (Proc.devRef .tc main_v116)
    = Cert.Spec.l2n428 (F := Ideal) (Cert.Spec.spmm02 (m ((c : Thread nD τ).loc main_arg16)) (m ((c : Thread nD τ).loc main_arg17)) (m ((c : Thread nD τ).loc main_arg18))
        (Cert.Spec.h2 (F := Ideal) (m ((c : Thread nD τ).loc main_arg7)) (m ((c : Thread nD τ).loc main_arg8)) (m ((c : Thread nD τ).loc main_arg9)) (m ((c : Thread nD τ).loc main_arg1)) (m ((c : Thread nD τ).loc main_arg26)) (m ((c : Thread nD τ).loc main_arg27)) (m ((c : Thread nD τ).loc main_arg3)))) := by
  refine (thru21_23 m ρ c main_v116 (by decide)).trans ?_
  refine (W21_arr m ρ c 1).trans ((r5 (V20 m ρ) c).trans (congrArg Cert.Spec.l2n428 ?_))
  refine (s5 (W19 m ρ c)).trans (congr4 Cert.Spec.spmm02 ((thru0_19 m ρ c main_arg16 (by decide)).trans (at0 m ρ c main_arg16)) ((thru0_19 m ρ c main_arg17 (by decide)).trans (at0 m ρ c main_arg17)) ((thru0_19 m ρ c main_arg18 (by decide)).trans (at0 m ρ c main_arg18)) ?_)
  exact (thru11_19 m ρ c main_v58 (by decide)).trans (h2_at11 m ρ c)

/-- Documents from tags. -/
theorem out2 : W23 m ρ c (Proc.devRef .tc main_v130)
    = Cert.Spec.l2n128 (F := Ideal) (Cert.Spec.spmm03 (m ((c : Thread nD τ).loc main_arg19)) (m ((c : Thread nD τ).loc main_arg20)) (m ((c : Thread nD τ).loc main_arg21))
        (Cert.Spec.h3 (F := Ideal) (m ((c : Thread nD τ).loc main_arg10)) (m ((c : Thread nD τ).loc main_arg11)) (m ((c : Thread nD τ).loc main_arg12)) (m ((c : Thread nD τ).loc main_arg2)) (m ((c : Thread nD τ).loc main_arg22)) (m ((c : Thread nD τ).loc main_arg23)) (m ((c : Thread nD τ).loc main_arg28)) (m ((c : Thread nD τ).loc main_arg29)))) := by
  refine (W23_arr m ρ c 1).trans ((r6 (V22 m ρ) c).trans (congrArg Cert.Spec.l2n128 ?_))
  refine (s6 (W21 m ρ c)).trans (congr4 Cert.Spec.spmm03 ((thru0_21 m ρ c main_arg19 (by decide)).trans (at0 m ρ c main_arg19)) ((thru0_21 m ρ c main_arg20 (by decide)).trans (at0 m ρ c main_arg20)) ((thru0_21 m ρ c main_arg21 (by decide)).trans (at0 m ρ c main_arg21)) ?_)
  exact (thru17_21 m ρ c main_v88 (by decide)).trans (h3_at17 m ρ c)

end Cert.KernelIdeal.Chain

end
-- ==== Proof.lean ====
/-
  A heterogeneous-graph network for document features.  For each of three node types (words, entities, part-of-speech
  tags) the programs run two rounds of sparse aggregation — gather the rows a column-index list names, scale each by its
  edge weight, and sum them into the rows a row-index list names — each followed by a positive part, with a dense layer
  x · W + b between the rounds (for the tags also before the first); the entity features are widened by a given word
  embedding; each type is then aggregated once more onto the documents and every document row is divided by its
  Euclidean norm plus a small constant.  The kernel program does the dense layers (a matrix product accumulated into
  zero on inputs narrowed to bf16, plus a bias row) and the row normalisations in TensorCore regions, tiled over blocks
  of rows, and everything else by host operations; the reference does all of it by host operations.

  At the ideal values (extended reals, exact operations, format changes the identity) the two compute the same three
  arrays: the host aggregations, positive parts and the concatenation are the same operations in both programs; a dense
  layer's entry (i, q) is the sum over k of x(i,k) · w(k,q), plus b(q), on both sides, computed per block of rows by the
  kernel; a normalised entry (i, q) is x(i,q) / (sqrt (0 + Σ_k x(i,k)²) + ε) on both sides with the same constant ε.
  No law of arithmetic beyond these definitions is used, so the inputs' finiteness is never needed.

  The pieces: `Cert.Spec` names each step once as a function of whole arrays; `Cert.RefIs` reads the reference's
  results as the composites of those steps; `Cert.KernelIdeal.Host` reads each host stretch of the kernel program as
  one step, `Cert.KernelIdeal.Region` each region's output array as one step, `Cert.KernelIdeal.Thru` carries
  untouched buffers across segments, `Cert.KernelIdeal.Chain` composes them from the results back to the launch memory,
  and `Cert.KernelIdeal.KRun` is the kernel program's run with its results named.  The ideal pass rewrote nothing, so
  there is nothing to preserve beyond the program's own text.
-/
import proofs.«177944_j13331578487561_1_alg».proof.Defs
import proofs.«177944_j13331578487561_1_alg».proof.Proof.Gen.Kernel
import proofs.«177944_j13331578487561_1_alg».proof.Proof.Gen.Kernel.Frame
import proofs.«177944_j13331578487561_1_alg».proof.Proof.Gen.KernelIdeal
import proofs.«177944_j13331578487561_1_alg».proof.Proof.Gen.KernelIdeal.Frame
import proofs.«177944_j13331578487561_1_alg».proof.Proof.Gen.ReferenceIdeal
import proofs.«177944_j13331578487561_1_alg».proof.Proof.Gen.Pre_finite_inputs
import proofs.«177944_j13331578487561_1_alg».proof.Proof.Gen.ReferenceIdeal.Run
import proofs.«177944_j13331578487561_1_alg».proof.Proof.Spec
import proofs.«177944_j13331578487561_1_alg».proof.Proof.RefIs
import proofs.«177944_j13331578487561_1_alg».proof.Proof.KRun
import proofs.«177944_j13331578487561_1_alg».proof.Proof.Chain
import Idealize.ShloMosaic.Adequacy
import Idealize.ShloMosaic.Init

set_option maxRecDepth 16384

noncomputable section

namespace Cert.Proof

open Idealize.ShloMosaic Idealize.ShloMosaic.TcCoe Idealize.SL.Sem

/-- The word-level kernel program terminates without a fault and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- Both idealized programs end with the specification's three composites of the argument arrays. -/
theorem algebraic : Cert.algebraic_KernelIdeal_ReferenceIdeal := by
  intro m ρ m' ρ' _ hagree
  refine ⟨fun c => Cert.Spec.l2n128 (F := Ideal) (Cert.Spec.spmm01 (F := Ideal) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (Cert.Spec.h1 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg0)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)))),
    fun c => Cert.Spec.l2n428 (F := Ideal) (Cert.Spec.spmm02 (F := Ideal) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (Cert.Spec.h2 (F := Ideal) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg1)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg3)))),
    fun c => Cert.Spec.l2n128 (F := Ideal) (Cert.Spec.spmm03 (F := Ideal) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (Cert.Spec.h3 (F := Ideal) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg2)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)))), ?_, ?_⟩
  · exact (θ_run Cert.KernelIdeal.defs _ _).mono (fun _ h c =>
      ⟨(h c).1.trans (Cert.KernelIdeal.Chain.out0 m ρ c), (h c).2.1.trans (Cert.KernelIdeal.Chain.out1 m ρ c),
        (h c).2.2.1.trans (Cert.KernelIdeal.Chain.out2 m ρ c), (h c).2.2.2⟩) (Cert.KernelIdeal.KRun.run (F := Ideal) m ρ)
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' ρ')
    · rw [Cert.RefIs.out0, (hagree c).2.2.2.2.2.2.2.2.2.2.2.2.2.1, (hagree c).2.2.2.2.2.2.2.2.2.2.2.2.2.2.1, (hagree c).2.2.2.2.2.2.2.2.2.2.2.2.2.2.2.1, (hagree c).2.2.2.2.1, (hagree c).2.2.2.2.2.1, (hagree c).2.2.2.2.2.2.1, (hagree c).1, (hagree c).2.2.2.2.2.2.2.2.2.2.2.2.2.2.2.2.2.2.2.2.2.2.2.2.1, (hagree c).2.2.2.2.2.2.2.2.2.2.2.2.2.2.2.2.2.2.2.2.2.2.2.2.2.1]
    · rw [Cert.RefIs.out1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.1, (hagree c).2.2.2.2.2.2.2.2.1, (hagree c).2.2.2.2.2.2.2.2.2.1, (hagree c).2.1, (hagree c).2.2.2.2.2.2.2.2.2.2.2.2.2.2.2.2.2.2.2.2.2.2.2.2.2.2.1, (hagree c).2.2.2.2.2.2.2.2.2.2.2.2.2.2.2.2.2.2.2.2.2.2.2.2.2.2.2.1, (hagree c).2.2.2.1]
    · rw [Cert.RefIs.out2, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.1, (hagree c).2.2.2.2.2.2.2.2.2.2.2.1, (hagree c).2.2.2.2.2.2.2.2.2.2.2.2.1, (hagree c).2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.2.2.2.2.1, (hagree c).2.2.2.2.2.2.2.2.2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
